-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128 .f32) (main_arg15 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S256 .f32) (main_arg9 : FVec F S256 .f32) (main_arg10 : FVec F S256 .f32) (main_arg11 : FVec F S256 .f32) (main_arg12 : FVec F S128 .f32) (main_arg13 : FVec F S128 .f32) (main_arg14 : FVec F S128 .f32) (main_arg15 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S256 .f32) (main_arg9 : FVec F S256 .f32) (main_arg10 : FVec F S256 .f32) (main_arg11 : FVec F S256 .f32) (main_arg12 : FVec F S128 .f32) (main_arg13 : FVec F S128 .f32) (main_arg14 : FVec F S128 .f32) (main_arg15 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x600000 32) (main_arg2 : FVec F S128x256 .f32) (main_arg3 : FVec F S256 .f32) (main_arg4 : FVec F S256x128 .f32) (main_arg5 : FVec F S128 .f32) (main_arg6 : FVec F S128x128 .f32) (main_arg7 : FVec F S128 .f32) (main_arg8 : FVec F S256 .f32) (main_arg9 : FVec F S256 .f32) (main_arg10 : FVec F S256 .f32) (main_arg11 : FVec F S256 .f32) (main_arg12 : FVec F S128 .f32) (main_arg13 : FVec F S128 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x256 : Shape := ⟨2, ![1, 256]⟩
abbrev S2000x128 : Shape := ⟨2, ![2000, 128]⟩
abbrev S2000x1 : Shape := ⟨2, ![2000, 1]⟩
abbrev S2000x256 : Shape := ⟨2, ![2000, 256]⟩
abbrev S1x128 : Shape := ⟨2, ![1, 128]⟩
abbrev S2x128x128 : Shape := ⟨3, ![2, 128, 128]⟩
abbrev S1000x128 : Shape := ⟨2, ![1000, 128]⟩
abbrev S1000x1 : Shape := ⟨2, ![1000, 1]⟩
abbrev S1x128x128 : Shape := ⟨3, ![1, 128, 128]⟩

abbrev nBuf : Space → Nat
  | .hbm => 99
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S50000, .f32⟩
  | .hbm, ⟨24, _⟩ => ⟨S600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000, .f32⟩
  | .hbm, ⟨50, _⟩ => ⟨S600000, .f32⟩
  | .hbm, ⟨51, _⟩ => ⟨S600000x1, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .f32⟩
  | .hbm, ⟨61, _⟩ => ⟨S600000x128, .f32⟩
  | .hbm, ⟨62, _⟩ => ⟨S600000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S1x256, .f32⟩
  | .hbm, ⟨72, _⟩ => ⟨S50000x128, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x128, .f32⟩
  | .hbm, ⟨82, _⟩ => ⟨S600000x128, .f32⟩
  | .hbm, ⟨83, _⟩ => ⟨S600000x128, .f32⟩
  | .hbm, ⟨84, _⟩ => ⟨S_, .f32⟩
  | .hbm, ⟨85, _⟩ => ⟨S50000x128, .f32⟩
  | .hbm, ⟨86, _⟩ => ⟨S600000x1, .i32⟩
  | .hbm, ⟨87, _⟩ => ⟨S50000x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S2x128x128, .f32⟩
  | .hbm, ⟨94, _⟩ => ⟨S1x128x128, .f32⟩
  | .hbm, ⟨95, _⟩ => ⟨S128x128, .f32⟩
  | .hbm, ⟨96, _⟩ => ⟨S1x128x128, .f32⟩
  | .hbm, ⟨97, _⟩ => ⟨S128x128, .f32⟩
  | .hbm, ⟨98, _⟩ => ⟨S128x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S128x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x1, .f32⟩
  | .local _ .vmem, ⟨20, _⟩ => ⟨S1000x1, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128x128, .f32⟩
  | .local _ .vmem, ⟨27, _⟩ => ⟨S1x128x128, .f32⟩
  | .local _ .vmem, ⟨28, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v45 : BitVec 1 := Scalar.cmpi .eq arg1 c24_i32
  let v46 : BitVec 32 := Scalar.extui v45
  let c0_i32_22 : BitVec 32 := 0#32
  let v47 : BitVec 1 := Scalar.cmpi .ne v46 c0_i32_22
  v47

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  shapeCasts_S600000_S600000x1 : S600000.ShapeCasts S600000x1
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  slices_S2x128x128_S1x128x128_0_0_0 : S2x128x128.Slices ![0, 0, 0] S1x128x128
  slices_S2x128x128_S1x128x128_1_0_0 : S2x128x128.Slices ![1, 0, 0] S1x128x128
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S1000x128_S1000x128_S128x128_0_0_1_1_n_n_wf : DotDims.WF S1000x128 S1000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S128x256.size a
  hwx0_8 : ∀ i : grid0.Coords, EltTy.bits .f32 = 32 ∨ (Rect.block (s := S128x256) S128x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .f32 = 32 ∨ (Rect.block (s := S50000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x128x128.size a ≤ S2x128x128.size a
  hwx1_8 : ∀ i : grid1.Coords, EltTy.bits .f32 = 32 ∨ (Rect.block (s := S2x128x128) S1x128x128.size (cc1_transform_8 i) (hinb1_8 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S1000x128_S1000x128_S128x128_0_0_1_1_n_n : DotDims S1000x128 S1000x128 S128x128 where
  lhsContracting := [0]
  rhsContracting := [0]
  lhsNonContracting := [1]
  rhsNonContracting := [1]
  lhsBatch := []
  rhsBatch := []
  wf := dot_S1000x128_S1000x128_S128x128_0_0_1_1_n_n_wf

abbrev win0_0 : Pipeline.Window sig grid0 :=
  Pipeline.Window.ofSpec (Memref.whole main_v40) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S128x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg4) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v58) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v62) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v63) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v64) S1x128x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x256 : Shape := ⟨2, ![50000, 256]⟩
abbrev S600000x256 : Shape := ⟨2, ![600000, 256]⟩
abbrev S50000x1 : Shape := ⟨2, ![50000, 1]⟩
abbrev S1x256 : Shape := ⟨2, ![1, 256]⟩
abbrev S600000x128 : Shape := ⟨2, ![600000, 128]⟩
abbrev S1x128 : Shape := ⟨2, ![1, 128]⟩
abbrev S128x50000 : Shape := ⟨2, ![128, 50000]⟩

abbrev nBuf : Space → Nat
  | .hbm => 174
  | .vmem => 0
  | .smem => 0
  | _ => 0

abbrev hbmTy0_0 (i : Nat) : BufTy := match i % 128 with
  | 0 => ⟨S50000x128, .f32⟩
  | 1 => ⟨S2x600000, .i32⟩
  | 2 => ⟨S128x256, .f32⟩
  | 3 => ⟨S256, .f32⟩
  | 4 => ⟨S256x128, .f32⟩
  | 5 => ⟨S128, .f32⟩
  | 6 => ⟨S128x128, .f32⟩
  | 7 => ⟨S128, .f32⟩
  | 8 => ⟨S256, .f32⟩
  | 9 => ⟨S256, .f32⟩
  | 10 => ⟨S256, .f32⟩
  | 11 => ⟨S256, .f32⟩
  | 12 => ⟨S128, .f32⟩
  | 13 => ⟨S128, .f32⟩
  | 14 => ⟨S128, .f32⟩
  | 15 => ⟨S128, .f32⟩
  | 16 => ⟨S1x600000, .i32⟩
  | 17 => ⟨S600000, .i32⟩
  | 18 => ⟨S1x600000, .i32⟩
  | 19 => ⟨S600000, .i32⟩
  | 20 => ⟨S_, .f32⟩
  | 21 => ⟨S600000, .f32⟩
  | 22 => ⟨S_, .f32⟩
  | 23 => ⟨S50000, .f32⟩
  | 24 => ⟨S600000x1, .i32⟩
  | 25 => ⟨S50000, .f32⟩
  | 26 => ⟨S_, .f32⟩
  | 27 => ⟨S50000, .f32⟩
  | 28 => ⟨S50000, .f32⟩
  | 29 => ⟨S50000, .f32⟩
  | 30 => ⟨S50000x256, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x256, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000, .f32⟩
  | 58 => ⟨S600000, .f32⟩
  | 59 => ⟨S600000x1, .f32⟩
  | 60 => ⟨S600000x256, .f32⟩
  | 61 => ⟨S600000x256, .f32⟩
  | 62 => ⟨S_, .f32⟩
  | 63 => ⟨S50000x256, .f32⟩
  | 64 => ⟨S600000x1, .i32⟩
  | 65 => ⟨S50000x256, .f32⟩
  | 66 => ⟨S50000, .f32⟩
  | 67 => ⟨S50000x1, .f32⟩
  | 68 => ⟨S50000x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S1x256, .f32⟩
  | 78 => ⟨S50000x256, .f32⟩
  | 79 => ⟨S50000x256, .f32⟩
  | 80 => ⟨S_, .f32⟩
  | 81 => ⟨S256, .f32⟩
  | 82 => ⟨S256, .f32⟩
  | 83 => ⟨S256, .f32⟩
  | 84 => ⟨S1x256, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S1x256, .f32⟩
  | 91 => ⟨S50000x256, .f32⟩
  | 92 => ⟨S50000x256, .f32⟩
  | 93 => ⟨S50000x256, .f32⟩
  | 94 => ⟨S50000x256, .f32⟩
  | 95 => ⟨S_, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S50000x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S50000x128, .f32⟩

abbrev hbmTy0_1 (i : Nat) : BufTy := match i % 128 with
  | 0 => ⟨S600000, .f32⟩
  | 1 => ⟨S600000, .f32⟩
  | 2 => ⟨S600000x1, .f32⟩
  | 3 => ⟨S600000x128, .f32⟩
  | 4 => ⟨S600000x128, .f32⟩
  | 5 => ⟨S_, .f32⟩
  | 6 => ⟨S50000x128, .f32⟩
  | 7 => ⟨S600000x1, .i32⟩
  | 8 => ⟨S50000x128, .f32⟩
  | 9 => ⟨S50000, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S128, .f32⟩
  | 25 => ⟨S128, .f32⟩
  | 26 => ⟨S128, .f32⟩
  | 27 => ⟨S1x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S128x50000, .f32⟩
  | 45 => ⟨S128x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call0_cst : Ref sig .tc := ⟨.hbm, 74, rfl⟩
abbrev main_call0_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_11 : Ref sig .tc := ⟨.hbm, 102, rfl⟩
abbrev main_v71 : Ref sig .tc := ⟨.hbm, 103, rfl⟩
abbrev main_v72 : Ref sig .tc := ⟨.hbm, 104, rfl⟩
abbrev main_c_12 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_13 : Ref sig .tc := ⟨.hbm, 111, rfl⟩
abbrev main_v78 : Ref sig .tc := ⟨.hbm, 112, rfl⟩
abbrev main_v79 : Ref sig .tc := ⟨.hbm, 113, rfl⟩
abbrev main_c_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_17 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_call1_cst : Ref sig .tc := ⟨.hbm, 145, rfl⟩
abbrev main_call1_v0 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_18 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_19 : Ref sig .tc := ⟨.hbm, 166, rfl⟩
abbrev main_v125 : Ref sig .tc := ⟨.hbm, 167, rfl⟩
abbrev main_v126 : Ref sig .tc := ⟨.hbm, 168, rfl⟩
abbrev main_cst_20 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x256_0_1 : S600000x1.BroadcastsInDim S600000x256 (![0, 1] : Fin 2 → Fin S600000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S50000x128_S128x50000_1_0 : S50000x128.Transposes [1, 0] S128x50000
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  gather_S50000_S600000x1_S600000_n_0_n_n_0_1_1_wf : GatherDims.WF S50000 S600000x1 S600000 [] [0] [] [0] [] 1 ![1]
  scatter_S50000x256_S600000x1_S600000x256_1_0_0_1_wf : ScatterDims.WF S50000x256 S600000x1 S600000x256 [1] [0] [0] 1
  dot_S50000x256_S256x128_S50000x128_1_0_0_1_n_n_wf : DotDims.WF S50000x256 S256x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S128x50000_S50000x128_S128x128_1_0_0_1_n_n_wf : DotDims.WF S128x50000 S50000x128 S128x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S128x50000_S50000x128_S128x128_1_0_0_1_n_n : DotDims S128x50000 S50000x128 S128x128 where
  lhsContracting := [1]
  rhsContracting := [0]
  lhsNonContracting := [0]
  rhsNonContracting := [1]
  lhsBatch := []
  rhsBatch := []
  wf := dot_S128x50000_S50000x128_S128x128_1_0_0_1_n_n_wf

class Facts : Prop extends Facts₀ where

variable [Facts]
-- ==== Proof.KLayerRegion.lean ====
/-
  REGION 0: the fused layer-1 kernel, 25 grid points, eleven windows. At point `t` the body reads rows
  2000·t … 2000·t + 1999 of the aggregated neighbour features (window 0), of the node features (window 1) and of the
  squared inverse degree (window 2), and the seven resident operands whole (bias, scale, shift, mean, variance as
  1 × 256 rows; the two weight matrices), and writes rows 2000·t … of the result (window 10) as ONE store of the
  whole block:
      out = σ(BN(relu((agg + d·x) W₁ + b))) W₂ ,
  the inner expression being the part's payload and the outer product the function's own payload.
  This module states that, at any float instance `F` and at a PARAMETER `V` — the TensorCore's buffer contents when
  the region is entered —: each window's block at a point, what the body leaves in the output window's buffer as a
  function of the ten input blocks, the body's triple, the proof data of the pipeline and the body obligation at every
  point. A resident window is fetched at the first point only; since its block index never moves, its buffer holds
  its block at every point all the same.
-/
import proofs.«171423_j6648609374284_2_alg».proof.Proof.Gen.Kernel.Launch
import proofs.«171423_j6648609374284_2_alg».proof.Proof.Gen.Kernel.Skeleton
import proofs.«171423_j6648609374284_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rows (or the whole resident operand) its index map selects, read off the
    window's array as the region finds it. -/
def layerBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not: where it is not fetched its
    block index has not moved since the point before, and the body leaves an input block in place. -/
theorem layerHeld0_of {c : Dev nD} (dat : Dat τ (Elt F) Unit ℕ (UR sig nD τ) ℕ cfg0 c) (hA : dat.A 0 = V c (Pipeline.arrRef spec0 0))
    (hafter : ∀ t, dat.after 0 t = layerBlk V c 0 t) (t : Fin cfg0.N) (d) : dat.before 0 t d = layerBlk V c 0 t :=
  (dat.before_in_eq_fetched 0 rfl (fun _ => rfl) (fun _ _ _ => rfl) (fun t => by rw [hafter]; unfold Dat.blockOf layerBlk; rw [hA]; try rfl) t d).trans
    (by unfold Dat.fetched Dat.blockOf layerBlk; rw [hA]; try rfl)
/-- Input window 1's buffer holds its block at every point, fetched there or not: where it is not fetched its
    block index has not moved since the point before, and the body leaves an input block in place. -/
theorem layerHeld1_of {c : Dev nD} (dat : Dat τ (Elt F) Unit ℕ (UR sig nD τ) ℕ cfg0 c) (hA : dat.A 1 = V c (Pipeline.arrRef spec0 1))
    (hafter : ∀ t, dat.after 1 t = layerBlk V c 1 t) (t : Fin cfg0.N) (d) : dat.before 1 t d = layerBlk V c 1 t :=
  (dat.before_in_eq_fetched 1 rfl (fun _ => rfl) (fun _ _ _ => rfl) (fun t => by rw [hafter]; unfold Dat.blockOf layerBlk; rw [hA]; try rfl) t d).trans
    (by unfold Dat.fetched Dat.blockOf layerBlk; rw [hA]; try rfl)
/-- Input window 2's buffer holds its block at every point, fetched there or not: where it is not fetched its
    block index has not moved since the point before, and the body leaves an input block in place. -/
theorem layerHeld2_of {c : Dev nD} (dat : Dat τ (Elt F) Unit ℕ (UR sig nD τ) ℕ cfg0 c) (hA : dat.A 2 = V c (Pipeline.arrRef spec0 2))
    (hafter : ∀ t, dat.after 2 t = layerBlk V c 2 t) (t : Fin cfg0.N) (d) : dat.before 2 t d = layerBlk V c 2 t :=
  (dat.before_in_eq_fetched 2 rfl (fun _ => rfl) (fun _ _ _ => rfl) (fun t => by rw [hafter]; unfold Dat.blockOf layerBlk; rw [hA]; try rfl) t d).trans
    (by unfold Dat.fetched Dat.blockOf layerBlk; rw [hA]; try rfl)
/-- Input window 3's buffer holds its block at every point, fetched there or not: where it is not fetched its
    block index has not moved since the point before, and the body leaves an input block in place. -/
theorem layerHeld3_of {c : Dev nD} (dat : Dat τ (Elt F) Unit ℕ (UR sig nD τ) ℕ cfg0 c) (hA : dat.A 3 = V c (Pipeline.arrRef spec0 3))
    (hafter : ∀ t, dat.after 3 t = layerBlk V c 3 t) (t : Fin cfg0.N) (d) : dat.before 3 t d = layerBlk V c 3 t :=
  (dat.before_in_eq_fetched 3 rfl (fun _ => rfl) (fun _ _ _ => rfl) (fun t => by rw [hafter]; unfold Dat.blockOf layerBlk; rw [hA]; try rfl) t d).trans
    (by unfold Dat.fetched Dat.blockOf layerBlk; rw [hA]; try rfl)
/-- Input window 4's buffer holds its block at every point, fetched there or not: where it is not fetched its
    block index has not moved since the point before, and the body leaves an input block in place. -/
theorem layerHeld4_of {c : Dev nD} (dat : Dat τ (Elt F) Unit ℕ (UR sig nD τ) ℕ cfg0 c) (hA : dat.A 4 = V c (Pipeline.arrRef spec0 4))
    (hafter : ∀ t, dat.after 4 t = layerBlk V c 4 t) (t : Fin cfg0.N) (d) : dat.before 4 t d = layerBlk V c 4 t :=
  (dat.before_in_eq_fetched 4 rfl (fun _ => rfl) (fun _ _ _ => rfl) (fun t => by rw [hafter]; unfold Dat.blockOf layerBlk; rw [hA]; try rfl) t d).trans
    (by unfold Dat.fetched Dat.blockOf layerBlk; rw [hA]; try rfl)
/-- Input window 5's buffer holds its block at every point, fetched there or not: where it is not fetched its
    block index has not moved since the point before, and the body leaves an input block in place. -/
theorem layerHeld5_of {c : Dev nD} (dat : Dat τ (Elt F) Unit ℕ (UR sig nD τ) ℕ cfg0 c) (hA : dat.A 5 = V c (Pipeline.arrRef spec0 5))
    (hafter : ∀ t, dat.after 5 t = layerBlk V c 5 t) (t : Fin cfg0.N) (d) : dat.before 5 t d = layerBlk V c 5 t :=
  (dat.before_in_eq_fetched 5 rfl (fun _ => rfl) (fun _ _ _ => rfl) (fun t => by rw [hafter]; unfold Dat.blockOf layerBlk; rw [hA]; try rfl) t d).trans
    (by unfold Dat.fetched Dat.blockOf layerBlk; rw [hA]; try rfl)
/-- Input window 6's buffer holds its block at every point, fetched there or not: where it is not fetched its
    block index has not moved since the point before, and the body leaves an input block in place. -/
theorem layerHeld6_of {c : Dev nD} (dat : Dat τ (Elt F) Unit ℕ (UR sig nD τ) ℕ cfg0 c) (hA : dat.A 6 = V c (Pipeline.arrRef spec0 6))
    (hafter : ∀ t, dat.after 6 t = layerBlk V c 6 t) (t : Fin cfg0.N) (d) : dat.before 6 t d = layerBlk V c 6 t :=
  (dat.before_in_eq_fetched 6 rfl (fun _ => rfl) (fun _ _ _ => rfl) (fun t => by rw [hafter]; unfold Dat.blockOf layerBlk; rw [hA]; try rfl) t d).trans
    (by unfold Dat.fetched Dat.blockOf layerBlk; rw [hA]; try rfl)
/-- Input window 7's buffer holds its block at every point, fetched there or not: where it is not fetched its
    block index has not moved since the point before, and the body leaves an input block in place. -/
theorem layerHeld7_of {c : Dev nD} (dat : Dat τ (Elt F) Unit ℕ (UR sig nD τ) ℕ cfg0 c) (hA : dat.A 7 = V c (Pipeline.arrRef spec0 7))
    (hafter : ∀ t, dat.after 7 t = layerBlk V c 7 t) (t : Fin cfg0.N) (d) : dat.before 7 t d = layerBlk V c 7 t :=
  (dat.before_in_eq_fetched 7 rfl (fun _ => rfl) (fun _ _ _ => rfl) (fun t => by rw [hafter]; unfold Dat.blockOf layerBlk; rw [hA]; try rfl) t d).trans
    (by unfold Dat.fetched Dat.blockOf layerBlk; rw [hA]; try rfl)
/-- Input window 8's buffer holds its block at every point, fetched there or not: where it is not fetched its
    block index has not moved since the point before, and the body leaves an input block in place. -/
theorem layerHeld8_of {c : Dev nD} (dat : Dat τ (Elt F) Unit ℕ (UR sig nD τ) ℕ cfg0 c) (hA : dat.A 8 = V c (Pipeline.arrRef spec0 8))
    (hafter : ∀ t, dat.after 8 t = layerBlk V c 8 t) (t : Fin cfg0.N) (d) : dat.before 8 t d = layerBlk V c 8 t :=
  (dat.before_in_eq_fetched 8 rfl (fun _ => rfl) (fun _ _ _ => rfl) (fun t => by rw [hafter]; unfold Dat.blockOf layerBlk; rw [hA]; try rfl) t d).trans
    (by unfold Dat.fetched Dat.blockOf layerBlk; rw [hA]; try rfl)
/-- Input window 9's buffer holds its block at every point, fetched there or not: where it is not fetched its
    block index has not moved since the point before, and the body leaves an input block in place. -/
theorem layerHeld9_of {c : Dev nD} (dat : Dat τ (Elt F) Unit ℕ (UR sig nD τ) ℕ cfg0 c) (hA : dat.A 9 = V c (Pipeline.arrRef spec0 9))
    (hafter : ∀ t, dat.after 9 t = layerBlk V c 9 t) (t : Fin cfg0.N) (d) : dat.before 9 t d = layerBlk V c 9 t :=
  (dat.before_in_eq_fetched 9 rfl (fun _ => rfl) (fun _ _ _ => rfl) (fun t => by rw [hafter]; unfold Dat.blockOf layerBlk; rw [hA]; try rfl) t d).trans
    (by unfold Dat.fetched Dat.blockOf layerBlk; rw [hA]; try rfl)

/-! ## The body's accesses: every load and the one store take a buffer whole -/

abbrev rRows128 : Rect S2000x128 := Rect.unit (s := S2000x128) ![0, 0] S2000x128.size inb_S2000x128_S2000x128_0_0
abbrev rRows1 : Rect S2000x1 := Rect.unit (s := S2000x1) ![0, 0] S2000x1.size inb_S2000x1_S2000x1_0_0
abbrev rRow256 : Rect S1x256 := Rect.unit (s := S1x256) ![0, 0] S1x256.size inb_S1x256_S1x256_0_0
abbrev rW1 : Rect S128x256 := Rect.unit (s := S128x256) ![0, 0] S128x256.size inb_S128x256_S128x256_0_0
abbrev rW2 : Rect S256x128 := Rect.unit (s := S256x128) ![0, 0] S256x128.size inb_S256x128_S256x128_0_0

/-! ## What the body leaves in the output window's buffer -/

/-- The output block from the ten input blocks (aggregate, features, squared inverse degree; bias, scale, shift, mean,
    variance; first and second weight matrix): the hidden activation σ(BN(relu((agg + d·x) W₁ + b))) — the part's
    payload, which takes its nine operands in the order the part loads them — times W₂, stored over the whole block. -/
def layerOut (x0 : Vec F S2000x128 .f32) (x1 : Vec F S2000x128 .f32) (x2 : Vec F S2000x1 .f32) (x3 x4 x5 x6 x7 : Vec F S1x256 .f32)
    (x8 : Vec F S128x256 .f32) (x9 : Vec F S256x128 .f32) : Vec F S2000x128 .f32 :=
  View.canon [⟨rRows128, k0_pay1 (k0_pay2 (View.ld x0 rRows128) (View.ld x2 rRows1) (View.ld x1 rRows128) (View.ld x8 rW1) (View.ld x3 rRow256)
    (View.ld x7 rRow256) (View.ld x6 rRow256) (View.ld x4 rRow256) (View.ld x5 rRow256)) (View.ld x9 rW2)⟩]

/-- The one store covers the block. -/
theorem layerOut_cover (p0 : Vec F S2000x128 .f32) (y : S2000x128.Idx) :
    ∃ pc ∈ ([⟨rRows128, p0⟩] : List (View.Piece (Elt F) S2000x128 .f32)), y ∈ pc.1.set :=
  View.cover_of_tiled [⟨rRows128, p0⟩] S2000x128.size (by rfl) y

/-! ## The body's triple -/

set_option maxHeartbeats 1000000 in
/-- The kernel function on whole staging buffers, the ten inputs' at contents `x0 … x9` and the output's at anything
    (the body loads it once before its store, and uses nothing of what it loaded), runs to the continuation with the
    inputs' as they were and the output's at `layerOut` of them. -/
theorem layer_triple (c : Dev nD) (E : Set ℕ) (i : grid0.Coords)
    (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S128x256 .f32) (harg9 : arg9.IsWhole) (arg10 : Memref sig .tc .vmem S256x128 .f32) (harg10 : arg10.IsWhole) (arg11 : Memref sig .tc .vmem S2000x128 .f32) (harg11 : arg11.IsWhole)
    (x0 : Vec F S2000x128 .f32) (x1 : Vec F S2000x128 .f32) (x2 : Vec F S2000x1 .f32) (x3 x4 x5 x6 x7 : Vec F S1x256 .f32)
    (x8 : Vec F S128x256 .f32) (x9 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (layerOut x0 x1 x2 x3 x4 x5 x6 x7 x8 x9)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10 arg11 harg11) K := by
  simp only [cc0__layer1_kernel_eq_skeleton]; unfold cc0__layer1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (layerOut_cover _)

/-! ## The pipeline's proof data -/

/-- Pipeline 0 on core `c`: the arrays as the region finds them; after the body at point `t` each input's buffer at its
    block and the output's at `layerOut` of the ten input blocks there; the invariant is the scoped buffers no window
    stages and the generator register, untouched; nothing owed; full shares. -/
def layerDat (c : Dev nD) : Dat τ (Elt F) Unit ℕ (UR sig nD τ) ℕ cfg0 c where
  A w := V c (Pipeline.arrRef spec0 w)
  after w t := match w with
    | ⟨0, _⟩ => layerBlk V c 0 t
    | ⟨1, _⟩ => layerBlk V c 1 t
    | ⟨2, _⟩ => layerBlk V c 2 t
    | ⟨3, _⟩ => layerBlk V c 3 t
    | ⟨4, _⟩ => layerBlk V c 4 t
    | ⟨5, _⟩ => layerBlk V c 5 t
    | ⟨6, _⟩ => layerBlk V c 6 t
    | ⟨7, _⟩ => layerBlk V c 7 t
    | ⟨8, _⟩ => layerBlk V c 8 t
    | ⟨9, _⟩ => layerBlk V c 9 t
    | ⟨10, _⟩ => layerOut (layerBlk V c 0 t) (layerBlk V c 1 t) (layerBlk V c 2 t) (layerBlk V c 3 t) (layerBlk V c 4 t) (layerBlk V c 5 t) (layerBlk V c 6 t) (layerBlk V c 7 t) (layerBlk V c 8 t) (layerBlk V c 9 t)
  Φ _ := Pipeline.ΦA spec0 c
  q _ := fullShare
  owed _ := 0

/-- The proof data's arrays are the region-entry contents. -/
theorem layerDat_A (c : Dev nD) (w : Fin cfg0.W) : (layerDat V c).A w = V c (Pipeline.arrRef spec0 w) := by
  dsimp only [layerDat]

theorem layerAfter0 (c : Dev nD) (t : Fin cfg0.N) : (layerDat V c).after 0 t = layerBlk V c 0 t := by dsimp only [layerDat]
theorem layerAfter1 (c : Dev nD) (t : Fin cfg0.N) : (layerDat V c).after 1 t = layerBlk V c 1 t := by dsimp only [layerDat]
theorem layerAfter2 (c : Dev nD) (t : Fin cfg0.N) : (layerDat V c).after 2 t = layerBlk V c 2 t := by dsimp only [layerDat]
theorem layerAfter3 (c : Dev nD) (t : Fin cfg0.N) : (layerDat V c).after 3 t = layerBlk V c 3 t := by dsimp only [layerDat]
theorem layerAfter4 (c : Dev nD) (t : Fin cfg0.N) : (layerDat V c).after 4 t = layerBlk V c 4 t := by dsimp only [layerDat]
theorem layerAfter5 (c : Dev nD) (t : Fin cfg0.N) : (layerDat V c).after 5 t = layerBlk V c 5 t := by dsimp only [layerDat]
theorem layerAfter6 (c : Dev nD) (t : Fin cfg0.N) : (layerDat V c).after 6 t = layerBlk V c 6 t := by dsimp only [layerDat]
theorem layerAfter7 (c : Dev nD) (t : Fin cfg0.N) : (layerDat V c).after 7 t = layerBlk V c 7 t := by dsimp only [layerDat]
theorem layerAfter8 (c : Dev nD) (t : Fin cfg0.N) : (layerDat V c).after 8 t = layerBlk V c 8 t := by dsimp only [layerDat]
theorem layerAfter9 (c : Dev nD) (t : Fin cfg0.N) : (layerDat V c).after 9 t = layerBlk V c 9 t := by dsimp only [layerDat]
theorem layerAfter10 (c : Dev nD) (t : Fin cfg0.N) :
    (layerDat V c).after 10 t = layerOut (layerBlk V c 0 t) (layerBlk V c 1 t) (layerBlk V c 2 t) (layerBlk V c 3 t) (layerBlk V c 4 t) (layerBlk V c 5 t) (layerBlk V c 6 t) (layerBlk V c 7 t) (layerBlk V c 8 t) (layerBlk V c 9 t) := by dsimp only [layerDat]

theorem layerHeld0 (c : Dev nD) (t : Fin cfg0.N) (d) : (layerDat V c).before 0 t d = layerBlk V c 0 t :=
  layerHeld0_of V (layerDat V c) (layerDat_A V c 0) (layerAfter0 V c) t d
theorem layerHeld1 (c : Dev nD) (t : Fin cfg0.N) (d) : (layerDat V c).before 1 t d = layerBlk V c 1 t :=
  layerHeld1_of V (layerDat V c) (layerDat_A V c 1) (layerAfter1 V c) t d
theorem layerHeld2 (c : Dev nD) (t : Fin cfg0.N) (d) : (layerDat V c).before 2 t d = layerBlk V c 2 t :=
  layerHeld2_of V (layerDat V c) (layerDat_A V c 2) (layerAfter2 V c) t d
theorem layerHeld3 (c : Dev nD) (t : Fin cfg0.N) (d) : (layerDat V c).before 3 t d = layerBlk V c 3 t :=
  layerHeld3_of V (layerDat V c) (layerDat_A V c 3) (layerAfter3 V c) t d
theorem layerHeld4 (c : Dev nD) (t : Fin cfg0.N) (d) : (layerDat V c).before 4 t d = layerBlk V c 4 t :=
  layerHeld4_of V (layerDat V c) (layerDat_A V c 4) (layerAfter4 V c) t d
theorem layerHeld5 (c : Dev nD) (t : Fin cfg0.N) (d) : (layerDat V c).before 5 t d = layerBlk V c 5 t :=
  layerHeld5_of V (layerDat V c) (layerDat_A V c 5) (layerAfter5 V c) t d
theorem layerHeld6 (c : Dev nD) (t : Fin cfg0.N) (d) : (layerDat V c).before 6 t d = layerBlk V c 6 t :=
  layerHeld6_of V (layerDat V c) (layerDat_A V c 6) (layerAfter6 V c) t d
theorem layerHeld7 (c : Dev nD) (t : Fin cfg0.N) (d) : (layerDat V c).before 7 t d = layerBlk V c 7 t :=
  layerHeld7_of V (layerDat V c) (layerDat_A V c 7) (layerAfter7 V c) t d
theorem layerHeld8 (c : Dev nD) (t : Fin cfg0.N) (d) : (layerDat V c).before 8 t d = layerBlk V c 8 t :=
  layerHeld8_of V (layerDat V c) (layerDat_A V c 8) (layerAfter8 V c) t d
theorem layerHeld9 (c : Dev nD) (t : Fin cfg0.N) (d) : (layerDat V c).before 9 t d = layerBlk V c 9 t :=
  layerHeld9_of V (layerDat V c) (layerDat_A V c 9) (layerAfter9 V c) t d

/-! ## The body obligation, at a generic point -/

/-- What the body is called with at point `t`: the invariant, the core's dues, each window's current buffer at what it
    holds before the body. -/
def layerPre (c : Dev nD) (t : Fin cfg0.N) : sProp 𝕄 :=
  iprop((layerDat V c).Φ t.castSucc ∗ (layerDat V c).owesAt () t.castSucc
    ∗ (∃ d, owns (c : Thread nD τ) (st0_0 t) fullShare ((layerDat V c).before 0 t d))
    ∗ (∃ d, owns (c : Thread nD τ) (st0_1 t) fullShare ((layerDat V c).before 1 t d))
    ∗ (∃ d, owns (c : Thread nD τ) (st0_2 t) fullShare ((layerDat V c).before 2 t d))
    ∗ (∃ d, owns (c : Thread nD τ) (st0_3 t) fullShare ((layerDat V c).before 3 t d))
    ∗ (∃ d, owns (c : Thread nD τ) (st0_4 t) fullShare ((layerDat V c).before 4 t d))
    ∗ (∃ d, owns (c : Thread nD τ) (st0_5 t) fullShare ((layerDat V c).before 5 t d))
    ∗ (∃ d, owns (c : Thread nD τ) (st0_6 t) fullShare ((layerDat V c).before 6 t d))
    ∗ (∃ d, owns (c : Thread nD τ) (st0_7 t) fullShare ((layerDat V c).before 7 t d))
    ∗ (∃ d, owns (c : Thread nD τ) (st0_8 t) fullShare ((layerDat V c).before 8 t d))
    ∗ (∃ d, owns (c : Thread nD τ) (st0_9 t) fullShare ((layerDat V c).before 9 t d))
    ∗ (∃ d, owns (c : Thread nD τ) (st0_10 t) fullShare ((layerDat V c).before 10 t d)))

/-- and what it returns. -/
def layerPost (c : Dev nD) (t : Fin cfg0.N) : sProp 𝕄 :=
  iprop((layerDat V c).Φ t.succ ∗ (layerDat V c).owesAt () t.succ
    ∗ owns (c : Thread nD τ) (st0_0 t) fullShare ((layerDat V c).after 0 t)
    ∗ owns (c : Thread nD τ) (st0_1 t) fullShare ((layerDat V c).after 1 t)
    ∗ owns (c : Thread nD τ) (st0_2 t) fullShare ((layerDat V c).after 2 t)
    ∗ owns (c : Thread nD τ) (st0_3 t) fullShare ((layerDat V c).after 3 t)
    ∗ owns (c : Thread nD τ) (st0_4 t) fullShare ((layerDat V c).after 4 t)
    ∗ owns (c : Thread nD τ) (st0_5 t) fullShare ((layerDat V c).after 5 t)
    ∗ owns (c : Thread nD τ) (st0_6 t) fullShare ((layerDat V c).after 6 t)
    ∗ owns (c : Thread nD τ) (st0_7 t) fullShare ((layerDat V c).after 7 t)
    ∗ owns (c : Thread nD τ) (st0_8 t) fullShare ((layerDat V c).after 8 t)
    ∗ owns (c : Thread nD τ) (st0_9 t) fullShare ((layerDat V c).after 9 t)
    ∗ owns (c : Thread nD τ) (st0_10 t) fullShare ((layerDat V c).after 10 t))

/-- The body at any point: every input buffer holds its block, so the triple applies; the invariant and the dues pass
    through unread. -/
theorem layer_body (c : Dev nD) (t : Fin cfg0.N) :
    layerPre V c t ⊢ wp frame (wpE (defs₀ (F := F)) Variants.none c none) Set.univ (bodyAt0 t) (fun _ => layerPost V c t) := by
  unfold layerPre layerPost bodyAt0
  simp only [layerHeld0, layerHeld1, layerHeld2, layerHeld3, layerHeld4, layerHeld5, layerHeld6, layerHeld7, layerHeld8, layerHeld9]
  rw [show (layerDat V c).Φ t.succ = (layerDat V c).Φ t.castSucc from rfl,
    show (layerDat V c).owesAt () t.succ = (layerDat V c).owesAt () t.castSucc from rfl,
    layerAfter0, layerAfter1, layerAfter2, layerAfter3, layerAfter4, layerAfter5, layerAfter6, layerAfter7, layerAfter8, layerAfter9, layerAfter10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (layer_triple c Set.univ _ _ _ _ _ _ _ _ _ _ _ _ _ _ _ _ _ _ _ _ _ _ _ (layerBlk V c 0 t) (layerBlk V c 1 t) (layerBlk V c 2 t) (layerBlk V c 3 t) (layerBlk V c 4 t) (layerBlk V c 5 t) (layerBlk V c 6 t) (layerBlk V c 7 t) (layerBlk V c 8 t) (layerBlk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem layer_obligation (c : Dev nD) : BodyObligation (layerDat (F := F) V c) (defs₀ (F := F)) Variants.none () Set.univ := fun t => by
  rw [bigSep_W0, bigSep_W0]
  exact layer_body V c t

end Cert.Kernel.Hand

end
-- ==== Proof.KFinalRegion.lean ====
import proofs.«171423_j6648609374284_2_alg».proof.Proof.Gen.Kernel.Launch
import proofs.«171423_j6648609374284_2_alg».proof.Proof.Gen.Kernel.Skeleton
import proofs.«171423_j6648609374284_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second pallas_call (the Gram-matrix reduction): its proof data and body obligation

The grid is 2 × 25. At every point the body forms `x2 = sigmoid(BN(relu(agg + dinv2 * h + b)))` from the eight input
blocks and adds `x2ᵀ · x2` to a 128 × 128 accumulator kept in a scoped buffer from point to point; the accumulator is
zeroed at the first point of each row of the grid, and copied to the output block at the last point of the row.
Everything is stated at a parameter `V`: the TensorCore's buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer rectangles

Every load and store of the body goes through the rectangle that starts at the origin and has the buffer's own extents.
Such a rectangle places each index at itself, so a load through it reads the buffer's contents as they are and a store
through it leaves exactly its payload. -/

section WholeRect

variable {sg : RefSig} {κ : Kind} {sp : Space} {s : Shape} {e : EltTy} {Val : EltTy → Type}

/-- A unit-stride rectangle with the shape's own extents starts at the origin and places each index at itself. -/
theorem unit_full_emb (off : Fin s.rank → ℕ) (inb : ∀ a, off a + s.size a ≤ s.size a) (x : s.Idx) :
    (Rect.unit (s := s) off s.size inb).emb x = x := by
  funext a; apply Fin.ext
  show off a + 1 * (x a : ℕ) = x a
  have := inb a; omega

/-- A load through it of contents that read `X` reads `X`. -/
theorem ld_unit_full (off : Fin s.rank → ℕ) (inb : ∀ a, off a + s.size a ≤ s.size a) (X : s.Idx → Val e) :
    View.ld X (Rect.unit (s := s) off s.size inb) = X :=
  funext fun x => congrArg X (unit_full_emb off inb x)

/-- The same of a whole memref held at the contents that read `X`. -/
theorem readAt_unit_full {m : Memref sg κ sp s e} (h : m.IsWhole) (off : Fin s.rank → ℕ)
    (inb : ∀ a, off a + s.size a ≤ s.size a) (X : s.Idx → Val e) :
    View.readAt Val m.view (Rect.unit (s := s) off s.size inb).toLoadRect (h.unread X) = X := by
  rw [View.readAt_eq_ld, h.read_unread]; exact ld_unit_full off inb X

/-- A store through it leaves its payload, whatever was written before. -/
theorem read_writes_unit_full (v : View sg κ sp s e) (f : v.ty.Contents Val) (off : Fin s.rank → ℕ)
    (inb : ∀ a, off a + s.size a ≤ s.size a) (p : s.Idx → Val e) (L : List (View.Piece Val s e)) :
    v.read Val (v.writes Val f (⟨Rect.unit (s := s) off s.size inb, p⟩ :: L)) = p := by
  funext y
  have h := View.read_writes_cons_emb v f (Rect.unit (s := s) off s.size inb) p L y
  rwa [unit_full_emb] at h

/-- A load through it after such a store reads the store's payload. -/
theorem readCov_unit_full [∀ e, Nonempty (Val e)] (v : View sg κ sp s e) (off : Fin s.rank → ℕ)
    (inb : ∀ a, off a + s.size a ≤ s.size a) (p : s.Idx → Val e) (L : List (View.Piece Val s e)) :
    v.readCov (⟨Rect.unit (s := s) off s.size inb, p⟩ :: L) (Rect.unit (s := s) off s.size inb).toLoadRect = p :=
  View.readCov_cons_toLoadRect v (Rect.unit (s := s) off s.size inb) p L

end WholeRect

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (windows 3–7 are
fetched at the first point only: their block index never moves), for any proof data whose array is `V`'s and whose
body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form -/

/-- The accumulator is zeroed here: the second grid coordinate is `0`. -/
abbrev atFirst (i : grid1.Coords) : Prop :=
  (Scalar.cmpi .ne (Scalar.extui (Scalar.cmpi .eq (BitVec.ofNat 32 (i 1).val) 0#32)) 0#32) = 1#1
theorem atFirst_iff : ∀ t : Fin cfg1.N, atFirst (grid1.coords t) ↔ t.val % 25 = 0 :=
  (by decide +kernel : ∀ t : Fin grid1.N, atFirst (grid1.coords t) ↔ t.val % 25 = 0)

/-- The accumulator is copied out here: the second grid coordinate is `24`. -/
abbrev atLast (i : grid1.Coords) : Prop := k1_cond2 i = 1#1
theorem atLast_iff : ∀ t : Fin cfg1.N, atLast (grid1.coords t) ↔ t.val % 25 = 24 :=
  (by decide +kernel : ∀ t : Fin grid1.N, atLast (grid1.coords t) ↔ t.val % 25 = 24)

/-! ## Where the windows are idle -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem live1_5 : ∀ t : Fin cfg1.N, cfg1.idle 5 (grid1.coords t) = false := fun _ => rfl
theorem live1_6 : ∀ t : Fin cfg1.N, cfg1.idle 6 (grid1.coords t) = false := fun _ => rfl
theorem live1_7 : ∀ t : Fin cfg1.N, cfg1.idle 7 (grid1.coords t) = false := fun _ => rfl
/-- Off the last point of a row the output window is idle (nothing is stored into it), and is not written back; -/
theorem idle1_8 : ∀ t : Fin cfg1.N, ¬atLast (grid1.coords t) → cfg1.idle 8 (grid1.coords t) = true := by decide +kernel
theorem noFlush1_8 : ∀ t : Fin cfg1.N, ¬atLast (grid1.coords t) → (cfg1.win 8).flush t = false := by decide +kernel
/-- at the last point of a row it is live. -/
theorem live1_8 : ∀ t : Fin cfg1.N, atLast (grid1.coords t) → cfg1.idle 8 (grid1.coords t) = false := by decide +kernel

/-! ## The memrefs the body is called with -/

abbrev buf1_0 (t : Fin cfg1.N) := win1_0.stage (cfg1.slots t 0)
abbrev whole1_0 (t : Fin cfg1.N) : (buf1_0 t).IsWhole := hstage1_0 ((cfg1.slots t 0).cast nbuf1_0)
abbrev buf1_1 (t : Fin cfg1.N) := win1_1.stage (cfg1.slots t 1)
abbrev whole1_1 (t : Fin cfg1.N) : (buf1_1 t).IsWhole := hstage1_1 ((cfg1.slots t 1).cast nbuf1_1)
abbrev buf1_2 (t : Fin cfg1.N) := win1_2.stage (cfg1.slots t 2)
abbrev whole1_2 (t : Fin cfg1.N) : (buf1_2 t).IsWhole := hstage1_2 ((cfg1.slots t 2).cast nbuf1_2)
abbrev buf1_3 (t : Fin cfg1.N) := win1_3.stage (cfg1.slots t 3)
abbrev whole1_3 (t : Fin cfg1.N) : (buf1_3 t).IsWhole := hstage1_3 ((cfg1.slots t 3).cast nbuf1_3)
abbrev buf1_4 (t : Fin cfg1.N) := win1_4.stage (cfg1.slots t 4)
abbrev whole1_4 (t : Fin cfg1.N) : (buf1_4 t).IsWhole := hstage1_4 ((cfg1.slots t 4).cast nbuf1_4)
abbrev buf1_5 (t : Fin cfg1.N) := win1_5.stage (cfg1.slots t 5)
abbrev whole1_5 (t : Fin cfg1.N) : (buf1_5 t).IsWhole := hstage1_5 ((cfg1.slots t 5).cast nbuf1_5)
abbrev buf1_6 (t : Fin cfg1.N) := win1_6.stage (cfg1.slots t 6)
abbrev whole1_6 (t : Fin cfg1.N) : (buf1_6 t).IsWhole := hstage1_6 ((cfg1.slots t 6).cast nbuf1_6)
abbrev buf1_7 (t : Fin cfg1.N) := win1_7.stage (cfg1.slots t 7)
abbrev whole1_7 (t : Fin cfg1.N) : (buf1_7 t).IsWhole := hstage1_7 ((cfg1.slots t 7).cast nbuf1_7)
abbrev buf1_8 (t : Fin cfg1.N) := win1_8.stage (cfg1.slots t 8)
abbrev whole1_8 (t : Fin cfg1.N) : (buf1_8 t).IsWhole := hstage1_8 ((cfg1.slots t 8).cast nbuf1_8)
/-- The accumulator: a whole scoped buffer of the kernel's own. -/
abbrev accM : Memref sig .tc .vmem S128x128 .f32 := Memref.whole cc1_scratch0

/-- The core's other scoped buffers that are no staging buffer of this call, each whole at some contents, and the
    generator register at some state: what the body neither reads nor writes. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg10_0), ((c : Thread nD τ).loc cc0_stg10_0) ↦{fullShare} f)
    ∗ (∃ f : Buf (Elt F) ((c : Thread nD τ).loc cc0_stg10_1), ((c : Thread nD τ).loc cc0_stg10_1) ↦{fullShare} f)
    ∗ (∃ r, prngReg c r))

/-- The class's invariant with the accumulator pulled out as a memref owned at some contents. -/
theorem PhiA1_eq (c : Dev nD) :
    (Pipeline.ΦA spec1 c : sProp 𝕄) = iprop((∃ d, owns (c : Thread nD τ) accM fullShare d) ∗ rest1 c) := by
  have h₁ : (Pipeline.ΦA spec1 c : sProp 𝕄) ⊢ iprop((∃ d, owns (c : Thread nD τ) accM fullShare d) ∗ rest1 c) := by
    unfold Pipeline.ΦA rest1; rw [scopedRest1_eq]; simp only [accM, owns_whole]
    iintro ⟨⟨H0, H1, H2, H3, H4, H5, H6, H7, H8, H9, H10, H11, H12, H13, H14, HS⟩, Hg⟩
    isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact Hg
  have h₂ : iprop((∃ d, owns (c : Thread nD τ) accM fullShare d) ∗ rest1 c) ⊢ (Pipeline.ΦA spec1 c : sProp 𝕄) := by
    unfold Pipeline.ΦA rest1; rw [scopedRest1_eq]; simp only [accM, owns_whole]
    iintro ⟨HS, H0, H1, H2, H3, H4, H5, H6, H7, H8, H9, H10, H11, H12, H13, H14, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HS
  exact BI.equiv_iff.mp ⟨h₁, h₂⟩

/-! ## What the accumulator and the output block hold, point by point -/

/-- The accumulator once zeroed. -/
def zeroAcc : Vec F S128x128 .f32 := k1_pay3

/-- One point's step: from the eight input blocks `x2 = sigmoid(BN(relu(agg + dinv2 * h + b)))` (`k1_pay4` up to the
    logistic, which `k1_pay1` applies), and `prev + x2ᵀ · x2`. -/
def gramStep (x0 x1 : Vec F S1000x128 .f32) (x2 : Vec F S1000x1 .f32) (x3 x4 x5 x6 x7 : Vec F S1x128 .f32) (prev : Vec F S128x128 .f32) : Vec F S128x128 .f32 :=
  k1_pay1 (k1_pay4 x0 x2 x1 x3 x7 x6 x4 x5) prev

/-- The step at point `t`, on the blocks there. -/
def stepAt (c : Dev nD) (t : Fin cfg1.N) (prev : Vec F S128x128 .f32) : Vec F S128x128 .f32 :=
  gramStep (iblk1 V c 0 t) (iblk1 V c 1 t) (iblk1 V c 2 t) (iblk1 V c 3 t) (iblk1 V c 4 t) (iblk1 V c 5 t) (iblk1 V c 6 t) (iblk1 V c 7 t) prev

/-- What the accumulator holds after the body at position `n`: at the first point of a row the step from zero, at
    any other the step from what the point before left. -/
def accAt (c : Dev nD) : (n : ℕ) → n < cfg1.N → Vec F S128x128 .f32
  | 0, hn => stepAt V c ⟨0, hn⟩ zeroAcc
  | n + 1, hn =>
    if (n + 1) % 25 = 0 then stepAt V c ⟨n + 1, hn⟩ zeroAcc
    else stepAt V c ⟨n + 1, hn⟩ (accAt c n (Nat.lt_of_succ_lt hn))

theorem accAt_first (c : Dev nD) (t : Fin cfg1.N) (h : t.val % 25 = 0) :
    accAt V c t.val t.isLt = stepAt V c t zeroAcc := by
  obtain ⟨n, hn⟩ := t
  cases n with
  | zero => rfl
  | succ n => exact if_pos h

theorem accAt_next (c : Dev nD) (t : Fin cfg1.N) (h : ¬t.val % 25 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at the last point of a row: the accumulator, as a
    block of one leading row. (At the other points the window is idle and this is not consulted.) -/
def outAt (c : Dev nD) (t : Fin cfg1.N) : Vec F S1x128x128 .f32 := k1_pay2 (accAt V c t.val t.isLt)

/-! ## The body on any staging memrefs, case by case -/

set_option maxHeartbeats 1000000 in
/-- First point of a row: the accumulator, at anything, ends at the step from zero; the output block is handed back
    untouched. -/
theorem run1_first (c : Dev nD) (E : Set ℕ) (i : grid1.Coords) (a0 : Memref sig .tc .vmem S1000x128 .f32) (h0 : a0.IsWhole) (a1 : Memref sig .tc .vmem S1000x128 .f32) (h1 : a1.IsWhole) (a2 : Memref sig .tc .vmem S1000x1 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128x128 .f32) (h8 : a8.IsWhole) (a9 : Memref sig .tc .vmem S128x128 .f32) (h9 : a9.IsWhole)
    (hF : atFirst i) (hL : ¬atLast i) (x0 x1 : Vec F S1000x128 .f32) (x2 : Vec F S1000x1 .f32) (x3 x4 x5 x6 x7 : Vec F S1x128 .f32) (y8 : Vec F S1x128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare y8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare y8 ∗ owns (c : Thread nD τ) a9 fullShare (gramStep x0 x1 x2 x3 x4 x5 x6 x7 zeroAcc)) -∗ K ⟨⟩))
      ⊢ wp frame (wpE (defs₀ (F := F)) Variants.none c none) E (cc1__final_kernel i a0 h0 a1 h1 a2 h2 a3 h3 a4 h4 a5 h5 a6 h6 a7 h7 a8 h8 a9 h9) K := by
  simp only [cc1__final_kernel_eq_skeleton]; unfold cc1__final_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
  sl_exec (disch := first | exact hF | exact hL)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  iexists _; isplitr
  swap; · iexact H9
  ipureintro
  rw [read_writes_unit_full]
  unfold gramStep zeroAcc run1_first.sl.r run1_first.sl.v39 run1_first.sl.H9_1
  rw [readCov_unit_full, readAt_unit_full h0, readAt_unit_full h1, readAt_unit_full h2, readAt_unit_full h3, readAt_unit_full h4, readAt_unit_full h5, readAt_unit_full h6, readAt_unit_full h7]

set_option maxHeartbeats 1000000 in
/-- An inner point of a row: the accumulator goes from what the point before left to the step from it; the output
    block is handed back untouched. -/
theorem run1_inner (c : Dev nD) (E : Set ℕ) (i : grid1.Coords) (a0 : Memref sig .tc .vmem S1000x128 .f32) (h0 : a0.IsWhole) (a1 : Memref sig .tc .vmem S1000x128 .f32) (h1 : a1.IsWhole) (a2 : Memref sig .tc .vmem S1000x1 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128x128 .f32) (h8 : a8.IsWhole) (a9 : Memref sig .tc .vmem S128x128 .f32) (h9 : a9.IsWhole)
    (hF : ¬atFirst i) (hL : ¬atLast i) (x0 x1 : Vec F S1000x128 .f32) (x2 : Vec F S1000x1 .f32) (x3 x4 x5 x6 x7 : Vec F S1x128 .f32) (y8 : Vec F S1x128x128 .f32) (prev : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare y8 ∗ owns (c : Thread nD τ) a9 fullShare prev
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare y8 ∗ owns (c : Thread nD τ) a9 fullShare (gramStep x0 x1 x2 x3 x4 x5 x6 x7 prev)) -∗ K ⟨⟩))
      ⊢ wp frame (wpE (defs₀ (F := F)) Variants.none c none) E (cc1__final_kernel i a0 h0 a1 h1 a2 h2 a3 h3 a4 h4 a5 h5 a6 h6 a7 h7 a8 h8 a9 h9) K := by
  simp only [cc1__final_kernel_eq_skeleton]; unfold cc1__final_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
  sl_exec (disch := first | exact hF | exact hL)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  iexists _; isplitr
  swap; · iexact H9
  ipureintro
  rw [read_writes_unit_full, readAt_unit_full h9]
  unfold gramStep run1_inner.sl.r
  rw [readAt_unit_full h0, readAt_unit_full h1, readAt_unit_full h2, readAt_unit_full h3, readAt_unit_full h4, readAt_unit_full h5, readAt_unit_full h6, readAt_unit_full h7]

set_option maxHeartbeats 1000000 in
/-- Last point of a row: the step from what the point before left, and the output block, at anything, ends at the
    accumulator. -/
theorem run1_last (c : Dev nD) (E : Set ℕ) (i : grid1.Coords) (a0 : Memref sig .tc .vmem S1000x128 .f32) (h0 : a0.IsWhole) (a1 : Memref sig .tc .vmem S1000x128 .f32) (h1 : a1.IsWhole) (a2 : Memref sig .tc .vmem S1000x1 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128x128 .f32) (h8 : a8.IsWhole) (a9 : Memref sig .tc .vmem S128x128 .f32) (h9 : a9.IsWhole)
    (hF : ¬atFirst i) (hL : atLast i) (x0 x1 : Vec F S1000x128 .f32) (x2 : Vec F S1000x1 .f32) (x3 x4 x5 x6 x7 : Vec F S1x128 .f32) (prev : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare prev
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (k1_pay2 (gramStep x0 x1 x2 x3 x4 x5 x6 x7 prev)) ∗ owns (c : Thread nD τ) a9 fullShare (gramStep x0 x1 x2 x3 x4 x5 x6 x7 prev)) -∗ K ⟨⟩))
      ⊢ wp frame (wpE (defs₀ (F := F)) Variants.none c none) E (cc1__final_kernel i a0 h0 a1 h1 a2 h2 a3 h3 a4 h4 a5 h5 a6 h6 a7 h7 a8 h8 a9 h9) K := by
  simp only [cc1__final_kernel_eq_skeleton]; unfold cc1__final_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h9.eq_unread hf9
  sl_exec (disch := first | exact hF | exact hL)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    rw [read_writes_unit_full]
    unfold gramStep run1_last.sl.v48 run1_last.sl.H9_1 run1_last.sl.r
    rw [readCov_unit_full, readAt_unit_full h9, readAt_unit_full h0, readAt_unit_full h1, readAt_unit_full h2, readAt_unit_full h3, readAt_unit_full h4, readAt_unit_full h5, readAt_unit_full h6, readAt_unit_full h7]
  iexists _; isplitr
  swap; · iexact H9
  ipureintro
  unfold run1_last.sl.H9_1
  rw [read_writes_unit_full, readAt_unit_full h9]
  unfold gramStep run1_last.sl.r
  rw [readAt_unit_full h0, readAt_unit_full h1, readAt_unit_full h2, readAt_unit_full h3, readAt_unit_full h4, readAt_unit_full h5, readAt_unit_full h6, readAt_unit_full h7]

/-! ## The region's invariant and proof data -/

/-- The invariant before position `n`: before the first point the class's (every scoped buffer that is no staging
    buffer at anything, the generator register at some state); afterwards the same with the accumulator at what the
    point before left in it. -/
def Phi1 (c : Dev nD) : (n : ℕ) → n ≤ cfg1.N → sProp 𝕄
  | 0, _ => Pipeline.ΦA spec1 c
  | n + 1, hn => iprop(owns (c : Thread nD τ) accM fullShare (accAt V c n hn) ∗ rest1 c)

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) accM fullShare (accAt V c n hn) ∗ rest1 c) := rfl

theorem Phi1_pos (c : Dev nD) (n : ℕ) (h : n ≤ cfg1.N) (hz : n ≠ 0) :
    Phi1 V c n h = iprop(owns (c : Thread nD τ) accM fullShare (accAt V c (n - 1) (by omega)) ∗ rest1 c) := by
  cases n with
  | zero => exact absurd rfl hz
  | succ n => rfl

/-- The proof data of the pipeline on core `c`: the arrays as the region finds them; after the body each input's
    buffer at its block and the output's at the accumulator's contents; the invariant `Phi1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outAt V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. The inputs' memrefs hold their blocks; the point's position in its row of the grid says which
    of the three runs applies; the invariant hands the body the accumulator at what the point before left (at anything
    at the very first point) and takes it back at this point's contents; off the last point of a row the output block
    goes back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  rw [show (dat1 V c).leavesExact 3 t = owns (c : Thread nD τ) (st1_3 t) fullShare ((dat1 V c).after 3 t) from by
    unfold Dat.leavesExact; rw [live1_3 t], after1_3]
  rw [show (dat1 V c).leavesExact 4 t = owns (c : Thread nD τ) (st1_4 t) fullShare ((dat1 V c).after 4 t) from by
    unfold Dat.leavesExact; rw [live1_4 t], after1_4]
  rw [show (dat1 V c).leavesExact 5 t = owns (c : Thread nD τ) (st1_5 t) fullShare ((dat1 V c).after 5 t) from by
    unfold Dat.leavesExact; rw [live1_5 t], after1_5]
  rw [show (dat1 V c).leavesExact 6 t = owns (c : Thread nD τ) (st1_6 t) fullShare ((dat1 V c).after 6 t) from by
    unfold Dat.leavesExact; rw [live1_6 t], after1_6]
  rw [show (dat1 V c).leavesExact 7 t = owns (c : Thread nD τ) (st1_7 t) fullShare ((dat1 V c).after 7 t) from by
    unfold Dat.leavesExact; rw [live1_7 t], after1_7]
  have hN : t.val < 50 := lt_of_lt_of_eq t.isLt (show cfg1.N = 50 from N_1)
  by_cases hl : t.val % 25 = 24
  · have hf : ¬t.val % 25 = 0 := by omega
    have hz : t.val ≠ 0 := by omega
    rw [show (dat1 V c).leavesExact 8 t = owns (c : Thread nD τ) (st1_8 t) fullShare ((dat1 V c).after 8 t) from by
      unfold Dat.leavesExact; rw [live1_8 t ((atLast_iff t).mpr hl)], after1_8]
    unfold outAt
    rw [accAt_next V c t hf]; unfold stepAt
    rw [Phi1_castSucc V c t, Phi1_pos V c _ _ hz]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_last c Set.univ (grid1.coords t) _ _ _ _ _ _ _ _ _ _ _ _ _ _ _ _ _ _ _ _ (fun h => hf ((atFirst_iff t).mp h)) ((atLast_iff t).mpr hl) (iblk1 V c 0 t) (iblk1 V c 1 t) (iblk1 V c 2 t) (iblk1 V c 3 t) (iblk1 V c 4 t) (iblk1 V c 5 t) (iblk1 V c 6 t) (iblk1 V c 7 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat1 V c) 8 t (idle1_8 t (fun h => hl ((atLast_iff t).mp h))) (noFlush1_8 t (fun h => hl ((atLast_iff t).mp h)))]
    by_cases hf : t.val % 25 = 0
    · rw [accAt_first V c t hf]; unfold stepAt
      by_cases hz : t.val = 0
      · rw [Phi1_castSucc V c t, Phi1_zero V c _ _ hz, PhiA1_eq]
        iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run1_first c Set.univ (grid1.coords t) _ _ _ _ _ _ _ _ _ _ _ _ _ _ _ _ _ _ _ _ ((atFirst_iff t).mpr hf) (fun h => hl ((atLast_iff t).mp h)) (iblk1 V c 0 t) (iblk1 V c 1 t) (iblk1 V c 2 t) (iblk1 V c 3 t) (iblk1 V c 4 t) (iblk1 V c 5 t) (iblk1 V c 6 t) (iblk1 V c 7 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [Phi1_castSucc V c t, Phi1_pos V c _ _ hz]
        iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run1_first c Set.univ (grid1.coords t) _ _ _ _ _ _ _ _ _ _ _ _ _ _ _ _ _ _ _ _ ((atFirst_iff t).mpr hf) (fun h => hl ((atLast_iff t).mp h)) (iblk1 V c 0 t) (iblk1 V c 1 t) (iblk1 V c 2 t) (iblk1 V c 3 t) (iblk1 V c 4 t) (iblk1 V c 5 t) (iblk1 V c 6 t) (iblk1 V c 7 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexists _; iexact HS
        iintro ⟨H0, H1, H2, H3, H4, H5, H6, H7, H8, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
    · have hz : t.val ≠ 0 := fun h => hf (by rw [h])
      rw [accAt_next V c t hf]; unfold stepAt
      rw [Phi1_castSucc V c t, Phi1_pos V c _ _ hz]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_inner c Set.univ (grid1.coords t) _ _ _ _ _ _ _ _ _ _ _ _ _ _ _ _ _ _ _ _ (fun h => hf ((atFirst_iff t).mp h)) (fun h => hl ((atLast_iff t).mp h)) (iblk1 V c 0 t) (iblk1 V c 1 t) (iblk1 V c 2 t) (iblk1 V c 3 t) (iblk1 V c 4 t) (iblk1 V c 5 t) (iblk1 V c 6 t) (iblk1 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_first (c : Dev nD) : (dat1 V c).Φ 0 = Pipeline.ΦA spec1 c := rfl

/-- After any point but the first position the invariant gives the class's back: the accumulator's contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨HS, HR⟩
  isplitl [HS]
  · iexists _; iexact HS
  iexact HR

/-- The same after the last point. -/
theorem Phi1_last (c : Dev nD) : (dat1 V c).Φ (Fin.last cfg1.N) ⊢ Pipeline.ΦA spec1 c :=
  Phi1_out V c _ (by rw [Fin.val_last]; have : cfg1.N = 50 := N_1; omega)

end Cert.Kernel.Hand

end
-- ==== Proof.KMainRun.lean ====
/-
  THE RUN of @main: host operations, region 0, host operations, region 1, host operations.
  The TensorCore's unscoped buffers are followed through the five items as a fold from the launch memory: a stretch of
  host operations takes the contents `B` to `StableHlo.after ops B`; a region leaves each of its windows' arrays at
  what its write-backs fold to (an input window's array as entered, the output window's array at the blocks the points
  wrote) and every other buffer as entered. Each region is entered from "every unscoped buffer at the boundary's
  contents, the generator register at some state, nothing owed" and left at the same with the next boundary's
  contents. The launch theorem for several regions then gives: every weakly fair execution terminates, nothing
  faults, and every unscoped buffer ends at the last boundary's contents `B5`. Two readings of that one fact are
  used: at an argument's buffer `B5` walks back to the launch memory (no host operation writes an argument, no region
  writes one: three of them are INPUT windows of region 0, the others bypass both regions), which is the frame claim;
  at the result's buffer it is the value claim's starting point.
-/
import proofs.«171423_j6648609374284_2_alg».proof.Proof.KLayerRegion
import proofs.«171423_j6648609374284_2_alg».proof.Proof.KFinalRegion
import proofs.«171423_j6648609374284_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m ((c : Dev nD), b)
/-- After the first stretch of host operations: region 0's entry. -/
abbrev B1 : Dev nD → Valuation τ sig (Elt F) := fun c => StableHlo.after hostOps0 (B0 m c)
/-- The same, read at the TensorCore's references (what region 0's proof data take). -/
abbrev E1 : (c : Dev nD) → (b : Ref sig .tc) → Buf (Elt F) ((c : Thread nD τ).loc b) := fun c b => B1 m c b
/-- At region 0's exit. -/
def B2 (c : Dev nD) : Valuation τ sig (Elt F) :=
  Pipeline.withArrays spec0 c (B1 m c) fun w => (layerDat (E1 m) c).arrAt w cfg0.N
theorem B2_arr (c : Dev nD) (w : Fin cfg0.W) :
    B2 m c (Proc.devRef .tc (Pipeline.arrRef spec0 w)) = (layerDat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev X2 : (c : Dev nD) → (b : Ref sig .tc) → Buf (Elt F) ((c : Thread nD τ).loc b) := fun c b => B2 m c b
theorem exit0_arr (c : Dev nD) (w : Fin cfg0.W) : (layerDat (E1 m) c).arrAt w cfg0.N = X2 m c (Pipeline.arrRef spec0 w) :=
  (B2_arr m c w).symm
theorem exit0_rest (c : Dev nD) : ∀ b, b ∉ Finset.univ.image (Pipeline.arrRef spec0) → X2 m c b = E1 m c b :=
  fun b hb => B2_of_ne m c b fun w e => hb (Finset.mem_image.mpr ⟨w, Finset.mem_univ _, e⟩)
/-- An INPUT window's array leaves region 0 as it entered. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((layerDat (E1 m) c).arrAt_in w hw _).trans (layerDat_A (E1 m) c w))

/-- After the second stretch: region 1's entry. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At region 1's exit. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev X4 : (c : Dev nD) → (b : Ref sig .tc) → Buf (Elt F) ((c : Thread nD τ).loc b) := fun c b => B4 m c b
theorem exit1_arr (c : Dev nD) (w : Fin cfg1.W) : (dat1 (E3 m) c).arrAt w cfg1.N = X4 m c (Pipeline.arrRef spec1 w) :=
  (B4_arr m c w).symm
theorem exit1_rest (c : Dev nD) : ∀ b, b ∉ Finset.univ.image (Pipeline.arrRef spec1) → X4 m c b = E3 m c b :=
  fun b hb => B4_of_ne m c b fun w e => hb (Finset.mem_image.mpr ⟨w, Finset.mem_univ _, e⟩)
/-- After the last stretch: the end. -/
abbrev B5 : Dev nD → Valuation τ sig (Elt F) := fun c => StableHlo.after hostOps2 (B4 m c)

/-! ## An argument's buffer ends as launched -/

/-- A buffer no host operation writes, that is no window's array of region 1, and that region 0 either does not stage
    or stages as an INPUT window, holds at the end what it held at launch. -/
theorem B5_kept (c : Dev nD) (r : Ref sig .tc) (h2 : r ∉ hostOps2_W) (h1 : r ∉ hostOps1_W) (h0 : r ∉ hostOps0_W)
    (hr1 : ∀ w, Pipeline.arrRef spec1 w ≠ r)
    (hr0 : (∀ w, Pipeline.arrRef spec0 w ≠ r) ∨ ∃ w, (cfg0.win w).isOut = false ∧ Pipeline.arrRef spec0 w = r) :
    B5 m c (Proc.devRef .tc r) = m ((c : Thread nD τ).loc r) :=
  calc B5 m c (Proc.devRef .tc r)
    _ = B4 m c (Proc.devRef .tc r) := StableHlo.after_of_writes_sub hostOps2 _ hostOps2_writes h2
    _ = B3 m c (Proc.devRef .tc r) := B4_of_ne m c r hr1
    _ = B2 m c (Proc.devRef .tc r) := StableHlo.after_of_writes_sub hostOps1 _ hostOps1_writes h1
    _ = B1 m c (Proc.devRef .tc r) := by
          rcases hr0 with h | ⟨w, hw, rfl⟩
          · exact B2_of_ne m c r h
          · exact B2_in m c w hw
    _ = B0 m c (Proc.devRef .tc r) := StableHlo.after_of_writes_sub hostOps0 _ hostOps0_writes h0
    _ = m ((c : Thread nD τ).loc r) := rfl

/-! ## The proof data family and the thread state -/

/-- No pipeline has a prefetched table. -/
abbrev noTables : (p : Fin 2) → (pcfgs (F := F) p).Adm := fun p => (cfgs p).toPCfg_adm
/-- Every pipeline's proof data, each at its region's entry contents. -/
def regionDats : (p : Fin 2) → (c : Dev nD) → Dat τ (Elt F) Unit ℕ (UR sig nD τ) ℕ (Pipeline.pin (pcfgs (F := F)) noTables p) c
  | ⟨0, _⟩ => fun c => layerDat (E1 m) c
  | ⟨1, _⟩ => fun c => dat1 (E3 m) c
abbrev noVariants : Variants := Variants.none
/-- No core owes another anything: no level is assigned. -/
abbrev noLevels : GSem nD τ sig → Finset Unit := fun _ => ∅
abbrev levelOf : GSem nD τ sig → Unit → ℕ := fun _ _ => 0
/-- What rides beside the buffers through every item: the generator register at some state, and nothing owed. -/
abbrev Beside (c : Dev nD) : sProp 𝕄 := iprop((∃ r, prngReg c r) ∗ ∃ W, owes (c : Thread nD τ) (0 : CellTallies nD τ sig Unit) W)
/-- A stretch of host operations as a segment, from the contents `B`. -/
abbrev hostItem (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ noVariants noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Beside
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `B5`, the generator register at some state. -/
abbrev AtEnd (c : Dev nD) : sProp 𝕄 := iprop(StableHlo.held (c : Thread nD τ) (Pipeline.ucRefs τ sig) (B5 m c) ∗ ∃ r, prngReg c r)

/-! ## The regions as segments -/

set_option backward.isDefEq.respectTransparency.types false in
/-- REGION 0 over the thread state: entered from every unscoped buffer at `B1`, left at `B2`. Its windows' arrays are
    split out of the unscoped buffers at entry and put back at their exit contents; the generator register goes into
    the invariant and comes back; nothing is owed; the kernel has no semaphore of its own. -/
def layerSeg : Pipeline.RegionSeg (pcfgs (F := F)) noTables (regionDats m) () defs₀ noVariants noLevels levelOf 0 where
  win := launch0.win.to₀
  block_pos := launch0.block_pos
  stage_whole := launch0.stage_whole
  K := PEmpty
  osem k := k.elim
  ho := Pipeline.OwnSemFacts.none _
  hbody c := (layer_obligation (E1 m) c).loose
  hwaits := Pipeline.hwaits_of_owed_zero _ _ _ _ noLevels levelOf 0 fun _ _ => rfl
  pre c := iprop(StableHlo.held (c : Thread nD τ) (Pipeline.ucRefs τ sig) (B1 m c) ∗ Beside c)
  post c := iprop(StableHlo.held (c : Thread nD τ) (Pipeline.ucRefs τ sig) (B2 m c) ∗ Beside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) noTables (regionDats m) launch0.win launch0.arr_whole c
      ((regionDats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDats m) ((regionDats m 0 c).share_full fun _ => rfl)
      (E1 m c) (X2 m c) ((regionDats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `B3`, left at `B4`. Its invariant starts as
    the scoped rest and the generator register, carries the accumulator scratch at a named value between points, and
    gives the scoped rest back after the last point. -/
def finalSeg : Pipeline.RegionSeg (pcfgs (F := F)) noTables (regionDats m) () defs₀ noVariants noLevels levelOf 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noLevels levelOf 1 fun _ _ => rfl
  pre c := iprop(StableHlo.held (c : Thread nD τ) (Pipeline.ucRefs τ sig) (B3 m c) ∗ Beside c)
  post c := iprop(StableHlo.held (c : Thread nD τ) (Pipeline.ucRefs τ sig) (B4 m c) ∗ Beside c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) noTables (regionDats m) launch1.win launch1.arr_whole c
      ((regionDats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 1 c).Φ 0 = (dat1 (E3 m) c).Φ 0 from rfl, Phi1_first]; unfold Pipeline.ΦA
    iintro ⟨Hp, -, Hr⟩
    isplitl [Hr]; · iexact Hr
    iexact Hp
  hout c := by
    rw [Pipeline.ownSems0_none]
    refine (show (regionDats m 1 c).Φ (Fin.last _) ⊢ Pipeline.ΦA spec1 c from Phi1_last (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionDats m) ((regionDats m 1 c).share_full fun _ => rfl)
      (E3 m c) (X4 m c) ((regionDats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its five items, and the launch -/

abbrev items : List (Pipeline.Seg (pcfgs (F := F)) noTables (regionDats m) () defs₀ noVariants noLevels levelOf) :=
  [ .host (hostItem hostOps0 hostOps0_sub hostOps0_fresh (B0 m)),
    .region (layerSeg m),
    .host (hostItem hostOps1 hostOps1_sub hostOps1_fresh (B2 m)),
    .region (finalSeg m),
    .host (hostItem hostOps2 hostOps2_sub hostOps2_fresh (B4 m)) ]
/-- @main is the run of its items. -/
theorem main_items (c : Dev nD) : main (F := F) c = Pipeline.Seg.run (items m) := (main_chain c).trans (by chain_rfl)

set_option backward.isDefEq.respectTransparency.types false in
/-- From any memory with zero counters every weakly fair execution of @main terminates, nothing faulting, and in every
    final state each unscoped buffer of each core holds the last boundary's contents `B5`. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = B5 m c b) → Q (⟨⟩, s)) :
    θ_run defs (onTc (τ := τ) (main (F := F))) ⟨m, fun _ => 0, ρ⟩ Q :=
  Pipeline.θ_run_regions_kit (pcfgs (F := F)) noTables (regionDats m) () cellOf_inj emb₁ defs₀ noVariants noLevels levelOf m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Beside c)) (Tₙ := AtEnd m)
    (hch := ⟨fun _ => .rfl, fun _ => .rfl, fun _ => .rfl, fun _ => .rfl, fun _ => .rfl, fun c => by
      show iprop(StableHlo.held (c : Thread nD τ) (Pipeline.ucRefs τ sig) (B5 m c) ∗ Beside c)
        ⊢ iprop(AtEnd m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noLevels levelOf fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := hQ)

end Cert.Kernel.Hand

end
-- ==== Proof.KFrames.lean ====
/-
  THE FRAME CLAIM of the word-level kernel program, from its run: every weakly fair execution terminates, nothing
  faults, and each of the sixteen argument arrays ends as launched. No host operation writes an argument; region 1
  stages none; region 0 stages three of them (the node features, W₁, W₂) as INPUT windows, whose arrays a pipeline
  never changes, and the thirteen others bypass it.
-/
import proofs.«171423_j6648609374284_2_alg».proof.Defs
import proofs.«171423_j6648609374284_2_alg».proof.Proof.KMainRun
import proofs.«171423_j6648609374284_2_alg».proof.Proof.Gen.Pre_finite_inputs

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- An argument that region 0 does not stage. -/
theorem kept_bypass (s : MemSt nD τ sig (Elt F)) (c : Dev nD)
    (h : ∀ b ∈ Pipeline.ucRefs τ sig, s.mem (((c : Thread nD τ)).1, b) = B5 m c b) (r : Ref sig .tc)
    (hu : ¬ (Proc.devRef .tc r : DevRef τ sig).isScoped) (h2 : r ∉ hostOps2_W) (h1 : r ∉ hostOps1_W) (h0 : r ∉ hostOps0_W)
    (hr1 : ∀ w, Pipeline.arrRef spec1 w ≠ r) (hr0 : ∀ w, Pipeline.arrRef spec0 w ≠ r) :
    s.mem ((c.tc : Thread nD τ).loc r) = m ((c.tc : Thread nD τ).loc r) :=
  (h _ (mem_unscoped r hu)).trans (B5_kept m c r h2 h1 h0 hr1 (Or.inl hr0))

/-- An argument that region 0 stages as an input window. -/
theorem kept_input (s : MemSt nD τ sig (Elt F)) (c : Dev nD)
    (h : ∀ b ∈ Pipeline.ucRefs τ sig, s.mem (((c : Thread nD τ)).1, b) = B5 m c b) (w : Fin cfg0.W)
    (hw : (cfg0.win w).isOut = false)
    (hu : ¬ (Proc.devRef .tc (Pipeline.arrRef spec0 w) : DevRef τ sig).isScoped) (h2 : Pipeline.arrRef spec0 w ∉ hostOps2_W)
    (h1 : Pipeline.arrRef spec0 w ∉ hostOps1_W) (h0 : Pipeline.arrRef spec0 w ∉ hostOps0_W)
    (hr1 : ∀ w', Pipeline.arrRef spec1 w' ≠ Pipeline.arrRef spec0 w) :
    s.mem ((c.tc : Thread nD τ).loc (Pipeline.arrRef spec0 w)) = m ((c.tc : Thread nD τ).loc (Pipeline.arrRef spec0 w)) :=
  (h _ (mem_unscoped _ hu)).trans (B5_kept m c _ h2 h1 h0 hr1 (Or.inr ⟨w, hw, rfl⟩))

/-- All sixteen, from a final memory that holds every unscoped buffer at the last boundary's contents. -/
theorem args_kept (s : MemSt nD τ sig (Elt F))
    (h : ∀ c : Dev nD, ∀ b ∈ Pipeline.ucRefs τ sig, s.mem (((c : Thread nD τ)).1, b) = B5 m c b) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15) :=
  ⟨kept_input m s c (h c) 1 rfl (by decide) (by decide) (by decide) (by decide) (by decide),
   kept_bypass m s c (h c) main_arg1 (by decide) (by decide) (by decide) (by decide) (by decide) (by decide),
   kept_input m s c (h c) 8 rfl (by decide) (by decide) (by decide) (by decide) (by decide),
   kept_bypass m s c (h c) main_arg3 (by decide) (by decide) (by decide) (by decide) (by decide) (by decide),
   kept_input m s c (h c) 9 rfl (by decide) (by decide) (by decide) (by decide) (by decide),
   kept_bypass m s c (h c) main_arg5 (by decide) (by decide) (by decide) (by decide) (by decide) (by decide),
   kept_bypass m s c (h c) main_arg6 (by decide) (by decide) (by decide) (by decide) (by decide) (by decide),
   kept_bypass m s c (h c) main_arg7 (by decide) (by decide) (by decide) (by decide) (by decide) (by decide),
   kept_bypass m s c (h c) main_arg8 (by decide) (by decide) (by decide) (by decide) (by decide) (by decide),
   kept_bypass m s c (h c) main_arg9 (by decide) (by decide) (by decide) (by decide) (by decide) (by decide),
   kept_bypass m s c (h c) main_arg10 (by decide) (by decide) (by decide) (by decide) (by decide) (by decide),
   kept_bypass m s c (h c) main_arg11 (by decide) (by decide) (by decide) (by decide) (by decide) (by decide),
   kept_bypass m s c (h c) main_arg12 (by decide) (by decide) (by decide) (by decide) (by decide) (by decide),
   kept_bypass m s c (h c) main_arg13 (by decide) (by decide) (by decide) (by decide) (by decide) (by decide),
   kept_bypass m s c (h c) main_arg14 (by decide) (by decide) (by decide) (by decide) (by decide) (by decide),
   kept_bypass m s c (h c) main_arg15 (by decide) (by decide) (by decide) (by decide) (by decide) (by decide)⟩

end Cert.Kernel.Hand

namespace Cert.Proof.KernelFrame

open Idealize.ShloMosaic Idealize.SL.Sem

/-- The frame claim at the word-level instance. -/
theorem frame_p : Cert.frame_Kernel := fun m ρ _ =>
  Cert.Kernel.Hand.run_all (F := Bits) m ρ (fun s h c => Cert.Kernel.Hand.args_kept m s h c)

end Cert.Proof.KernelFrame

end
-- ==== Proof.LayerRegion.lean ====
/-
  REGION 0: the fused layer-1 kernel, 25 grid points, eleven windows. At point `t` the body reads rows
  2000·t … 2000·t + 1999 of the aggregated neighbour features (window 0), of the node features (window 1) and of the
  squared inverse degree (window 2), and the seven resident operands whole (bias, scale, shift, mean, variance as
  1 × 256 rows; the two weight matrices), and writes rows 2000·t … of the result (window 10) as ONE store of the
  whole block:
      out = σ(BN(relu((agg + d·x) W₁ + b))) W₂ ,
  the inner expression being the part's payload and the outer product the function's own payload.
  This module states that, at any float instance `F` and at a PARAMETER `V` — the TensorCore's buffer contents when
  the region is entered —: each window's block at a point, what the body leaves in the output window's buffer as a
  function of the ten input blocks, the body's triple, the proof data of the pipeline and the body obligation at every
  point. A resident window is fetched at the first point only; since its block index never moves, its buffer holds
  its block at every point all the same.
-/
import proofs.«171423_j6648609374284_2_alg».proof.Proof.Gen.KernelIdeal.Launch
import proofs.«171423_j6648609374284_2_alg».proof.Proof.Gen.KernelIdeal.Skeleton
import proofs.«171423_j6648609374284_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rows (or the whole resident operand) its index map selects, read off the
    window's array as the region finds it. -/
def layerBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not: where it is not fetched its
    block index has not moved since the point before, and the body leaves an input block in place. -/
theorem layerHeld0_of {c : Dev nD} (dat : Dat τ (Elt F) Unit ℕ (UR sig nD τ) ℕ cfg0 c) (hA : dat.A 0 = V c (Pipeline.arrRef spec0 0))
    (hafter : ∀ t, dat.after 0 t = layerBlk V c 0 t) (t : Fin cfg0.N) (d) : dat.before 0 t d = layerBlk V c 0 t :=
  (dat.before_in_eq_fetched 0 rfl (fun _ => rfl) (fun _ _ _ => rfl) (fun t => by rw [hafter]; unfold Dat.blockOf layerBlk; rw [hA]; try rfl) t d).trans
    (by unfold Dat.fetched Dat.blockOf layerBlk; rw [hA]; try rfl)
/-- Input window 1's buffer holds its block at every point, fetched there or not: where it is not fetched its
    block index has not moved since the point before, and the body leaves an input block in place. -/
theorem layerHeld1_of {c : Dev nD} (dat : Dat τ (Elt F) Unit ℕ (UR sig nD τ) ℕ cfg0 c) (hA : dat.A 1 = V c (Pipeline.arrRef spec0 1))
    (hafter : ∀ t, dat.after 1 t = layerBlk V c 1 t) (t : Fin cfg0.N) (d) : dat.before 1 t d = layerBlk V c 1 t :=
  (dat.before_in_eq_fetched 1 rfl (fun _ => rfl) (fun _ _ _ => rfl) (fun t => by rw [hafter]; unfold Dat.blockOf layerBlk; rw [hA]; try rfl) t d).trans
    (by unfold Dat.fetched Dat.blockOf layerBlk; rw [hA]; try rfl)
/-- Input window 2's buffer holds its block at every point, fetched there or not: where it is not fetched its
    block index has not moved since the point before, and the body leaves an input block in place. -/
theorem layerHeld2_of {c : Dev nD} (dat : Dat τ (Elt F) Unit ℕ (UR sig nD τ) ℕ cfg0 c) (hA : dat.A 2 = V c (Pipeline.arrRef spec0 2))
    (hafter : ∀ t, dat.after 2 t = layerBlk V c 2 t) (t : Fin cfg0.N) (d) : dat.before 2 t d = layerBlk V c 2 t :=
  (dat.before_in_eq_fetched 2 rfl (fun _ => rfl) (fun _ _ _ => rfl) (fun t => by rw [hafter]; unfold Dat.blockOf layerBlk; rw [hA]; try rfl) t d).trans
    (by unfold Dat.fetched Dat.blockOf layerBlk; rw [hA]; try rfl)
/-- Input window 3's buffer holds its block at every point, fetched there or not: where it is not fetched its
    block index has not moved since the point before, and the body leaves an input block in place. -/
theorem layerHeld3_of {c : Dev nD} (dat : Dat τ (Elt F) Unit ℕ (UR sig nD τ) ℕ cfg0 c) (hA : dat.A 3 = V c (Pipeline.arrRef spec0 3))
    (hafter : ∀ t, dat.after 3 t = layerBlk V c 3 t) (t : Fin cfg0.N) (d) : dat.before 3 t d = layerBlk V c 3 t :=
  (dat.before_in_eq_fetched 3 rfl (fun _ => rfl) (fun _ _ _ => rfl) (fun t => by rw [hafter]; unfold Dat.blockOf layerBlk; rw [hA]; try rfl) t d).trans
    (by unfold Dat.fetched Dat.blockOf layerBlk; rw [hA]; try rfl)
/-- Input window 4's buffer holds its block at every point, fetched there or not: where it is not fetched its
    block index has not moved since the point before, and the body leaves an input block in place. -/
theorem layerHeld4_of {c : Dev nD} (dat : Dat τ (Elt F) Unit ℕ (UR sig nD τ) ℕ cfg0 c) (hA : dat.A 4 = V c (Pipeline.arrRef spec0 4))
    (hafter : ∀ t, dat.after 4 t = layerBlk V c 4 t) (t : Fin cfg0.N) (d) : dat.before 4 t d = layerBlk V c 4 t :=
  (dat.before_in_eq_fetched 4 rfl (fun _ => rfl) (fun _ _ _ => rfl) (fun t => by rw [hafter]; unfold Dat.blockOf layerBlk; rw [hA]; try rfl) t d).trans
    (by unfold Dat.fetched Dat.blockOf layerBlk; rw [hA]; try rfl)
/-- Input window 5's buffer holds its block at every point, fetched there or not: where it is not fetched its
    block index has not moved since the point before, and the body leaves an input block in place. -/
theorem layerHeld5_of {c : Dev nD} (dat : Dat τ (Elt F) Unit ℕ (UR sig nD τ) ℕ cfg0 c) (hA : dat.A 5 = V c (Pipeline.arrRef spec0 5))
    (hafter : ∀ t, dat.after 5 t = layerBlk V c 5 t) (t : Fin cfg0.N) (d) : dat.before 5 t d = layerBlk V c 5 t :=
  (dat.before_in_eq_fetched 5 rfl (fun _ => rfl) (fun _ _ _ => rfl) (fun t => by rw [hafter]; unfold Dat.blockOf layerBlk; rw [hA]; try rfl) t d).trans
    (by unfold Dat.fetched Dat.blockOf layerBlk; rw [hA]; try rfl)
/-- Input window 6's buffer holds its block at every point, fetched there or not: where it is not fetched its
    block index has not moved since the point before, and the body leaves an input block in place. -/
theorem layerHeld6_of {c : Dev nD} (dat : Dat τ (Elt F) Unit ℕ (UR sig nD τ) ℕ cfg0 c) (hA : dat.A 6 = V c (Pipeline.arrRef spec0 6))
    (hafter : ∀ t, dat.after 6 t = layerBlk V c 6 t) (t : Fin cfg0.N) (d) : dat.before 6 t d = layerBlk V c 6 t :=
  (dat.before_in_eq_fetched 6 rfl (fun _ => rfl) (fun _ _ _ => rfl) (fun t => by rw [hafter]; unfold Dat.blockOf layerBlk; rw [hA]; try rfl) t d).trans
    (by unfold Dat.fetched Dat.blockOf layerBlk; rw [hA]; try rfl)
/-- Input window 7's buffer holds its block at every point, fetched there or not: where it is not fetched its
    block index has not moved since the point before, and the body leaves an input block in place. -/
theorem layerHeld7_of {c : Dev nD} (dat : Dat τ (Elt F) Unit ℕ (UR sig nD τ) ℕ cfg0 c) (hA : dat.A 7 = V c (Pipeline.arrRef spec0 7))
    (hafter : ∀ t, dat.after 7 t = layerBlk V c 7 t) (t : Fin cfg0.N) (d) : dat.before 7 t d = layerBlk V c 7 t :=
  (dat.before_in_eq_fetched 7 rfl (fun _ => rfl) (fun _ _ _ => rfl) (fun t => by rw [hafter]; unfold Dat.blockOf layerBlk; rw [hA]; try rfl) t d).trans
    (by unfold Dat.fetched Dat.blockOf layerBlk; rw [hA]; try rfl)
/-- Input window 8's buffer holds its block at every point, fetched there or not: where it is not fetched its
    block index has not moved since the point before, and the body leaves an input block in place. -/
theorem layerHeld8_of {c : Dev nD} (dat : Dat τ (Elt F) Unit ℕ (UR sig nD τ) ℕ cfg0 c) (hA : dat.A 8 = V c (Pipeline.arrRef spec0 8))
    (hafter : ∀ t, dat.after 8 t = layerBlk V c 8 t) (t : Fin cfg0.N) (d) : dat.before 8 t d = layerBlk V c 8 t :=
  (dat.before_in_eq_fetched 8 rfl (fun _ => rfl) (fun _ _ _ => rfl) (fun t => by rw [hafter]; unfold Dat.blockOf layerBlk; rw [hA]; try rfl) t d).trans
    (by unfold Dat.fetched Dat.blockOf layerBlk; rw [hA]; try rfl)
/-- Input window 9's buffer holds its block at every point, fetched there or not: where it is not fetched its
    block index has not moved since the point before, and the body leaves an input block in place. -/
theorem layerHeld9_of {c : Dev nD} (dat : Dat τ (Elt F) Unit ℕ (UR sig nD τ) ℕ cfg0 c) (hA : dat.A 9 = V c (Pipeline.arrRef spec0 9))
    (hafter : ∀ t, dat.after 9 t = layerBlk V c 9 t) (t : Fin cfg0.N) (d) : dat.before 9 t d = layerBlk V c 9 t :=
  (dat.before_in_eq_fetched 9 rfl (fun _ => rfl) (fun _ _ _ => rfl) (fun t => by rw [hafter]; unfold Dat.blockOf layerBlk; rw [hA]; try rfl) t d).trans
    (by unfold Dat.fetched Dat.blockOf layerBlk; rw [hA]; try rfl)

/-! ## The body's accesses: every load and the one store take a buffer whole -/

abbrev rRows128 : Rect S2000x128 := Rect.unit (s := S2000x128) ![0, 0] S2000x128.size inb_S2000x128_S2000x128_0_0
abbrev rRows1 : Rect S2000x1 := Rect.unit (s := S2000x1) ![0, 0] S2000x1.size inb_S2000x1_S2000x1_0_0
abbrev rRow256 : Rect S1x256 := Rect.unit (s := S1x256) ![0, 0] S1x256.size inb_S1x256_S1x256_0_0
abbrev rW1 : Rect S128x256 := Rect.unit (s := S128x256) ![0, 0] S128x256.size inb_S128x256_S128x256_0_0
abbrev rW2 : Rect S256x128 := Rect.unit (s := S256x128) ![0, 0] S256x128.size inb_S256x128_S256x128_0_0

/-! ## What the body leaves in the output window's buffer -/

/-- The output block from the ten input blocks (aggregate, features, squared inverse degree; bias, scale, shift, mean,
    variance; first and second weight matrix): the hidden activation σ(BN(relu((agg + d·x) W₁ + b))) — the part's
    payload, which takes its nine operands in the order the part loads them — times W₂, stored over the whole block. -/
def layerOut (x0 : Vec F S2000x128 .f32) (x1 : Vec F S2000x128 .f32) (x2 : Vec F S2000x1 .f32) (x3 x4 x5 x6 x7 : Vec F S1x256 .f32)
    (x8 : Vec F S128x256 .f32) (x9 : Vec F S256x128 .f32) : Vec F S2000x128 .f32 :=
  View.canon [⟨rRows128, k0_pay1 (k0_pay2 (View.ld x0 rRows128) (View.ld x2 rRows1) (View.ld x1 rRows128) (View.ld x8 rW1) (View.ld x3 rRow256)
    (View.ld x7 rRow256) (View.ld x6 rRow256) (View.ld x4 rRow256) (View.ld x5 rRow256)) (View.ld x9 rW2)⟩]

/-- The one store covers the block. -/
theorem layerOut_cover (p0 : Vec F S2000x128 .f32) (y : S2000x128.Idx) :
    ∃ pc ∈ ([⟨rRows128, p0⟩] : List (View.Piece (Elt F) S2000x128 .f32)), y ∈ pc.1.set :=
  View.cover_of_tiled [⟨rRows128, p0⟩] S2000x128.size (by rfl) y

/-! ## The body's triple -/

set_option maxHeartbeats 1000000 in
/-- The kernel function on whole staging buffers, the ten inputs' at contents `x0 … x9` and the output's at anything
    (the body loads it once before its store, and uses nothing of what it loaded), runs to the continuation with the
    inputs' as they were and the output's at `layerOut` of them. -/
theorem layer_triple (c : Dev nD) (E : Set ℕ) (i : grid0.Coords)
    (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S128x256 .f32) (harg9 : arg9.IsWhole) (arg10 : Memref sig .tc .vmem S256x128 .f32) (harg10 : arg10.IsWhole) (arg11 : Memref sig .tc .vmem S2000x128 .f32) (harg11 : arg11.IsWhole)
    (x0 : Vec F S2000x128 .f32) (x1 : Vec F S2000x128 .f32) (x2 : Vec F S2000x1 .f32) (x3 x4 x5 x6 x7 : Vec F S1x256 .f32)
    (x8 : Vec F S128x256 .f32) (x9 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (layerOut x0 x1 x2 x3 x4 x5 x6 x7 x8 x9)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10 arg11 harg11) K := by
  simp only [cc0__layer1_kernel_eq_skeleton]; unfold cc0__layer1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (layerOut_cover _)

/-! ## The pipeline's proof data -/

/-- Pipeline 0 on core `c`: the arrays as the region finds them; after the body at point `t` each input's buffer at its
    block and the output's at `layerOut` of the ten input blocks there; the invariant is the scoped buffers no window
    stages and the generator register, untouched; nothing owed; full shares. -/
def layerDat (c : Dev nD) : Dat τ (Elt F) Unit ℕ (UR sig nD τ) ℕ cfg0 c where
  A w := V c (Pipeline.arrRef spec0 w)
  after w t := match w with
    | ⟨0, _⟩ => layerBlk V c 0 t
    | ⟨1, _⟩ => layerBlk V c 1 t
    | ⟨2, _⟩ => layerBlk V c 2 t
    | ⟨3, _⟩ => layerBlk V c 3 t
    | ⟨4, _⟩ => layerBlk V c 4 t
    | ⟨5, _⟩ => layerBlk V c 5 t
    | ⟨6, _⟩ => layerBlk V c 6 t
    | ⟨7, _⟩ => layerBlk V c 7 t
    | ⟨8, _⟩ => layerBlk V c 8 t
    | ⟨9, _⟩ => layerBlk V c 9 t
    | ⟨10, _⟩ => layerOut (layerBlk V c 0 t) (layerBlk V c 1 t) (layerBlk V c 2 t) (layerBlk V c 3 t) (layerBlk V c 4 t) (layerBlk V c 5 t) (layerBlk V c 6 t) (layerBlk V c 7 t) (layerBlk V c 8 t) (layerBlk V c 9 t)
  Φ _ := Pipeline.ΦA spec0 c
  q _ := fullShare
  owed _ := 0

/-- The proof data's arrays are the region-entry contents. -/
theorem layerDat_A (c : Dev nD) (w : Fin cfg0.W) : (layerDat V c).A w = V c (Pipeline.arrRef spec0 w) := by
  dsimp only [layerDat]

theorem layerAfter0 (c : Dev nD) (t : Fin cfg0.N) : (layerDat V c).after 0 t = layerBlk V c 0 t := by dsimp only [layerDat]
theorem layerAfter1 (c : Dev nD) (t : Fin cfg0.N) : (layerDat V c).after 1 t = layerBlk V c 1 t := by dsimp only [layerDat]
theorem layerAfter2 (c : Dev nD) (t : Fin cfg0.N) : (layerDat V c).after 2 t = layerBlk V c 2 t := by dsimp only [layerDat]
theorem layerAfter3 (c : Dev nD) (t : Fin cfg0.N) : (layerDat V c).after 3 t = layerBlk V c 3 t := by dsimp only [layerDat]
theorem layerAfter4 (c : Dev nD) (t : Fin cfg0.N) : (layerDat V c).after 4 t = layerBlk V c 4 t := by dsimp only [layerDat]
theorem layerAfter5 (c : Dev nD) (t : Fin cfg0.N) : (layerDat V c).after 5 t = layerBlk V c 5 t := by dsimp only [layerDat]
theorem layerAfter6 (c : Dev nD) (t : Fin cfg0.N) : (layerDat V c).after 6 t = layerBlk V c 6 t := by dsimp only [layerDat]
theorem layerAfter7 (c : Dev nD) (t : Fin cfg0.N) : (layerDat V c).after 7 t = layerBlk V c 7 t := by dsimp only [layerDat]
theorem layerAfter8 (c : Dev nD) (t : Fin cfg0.N) : (layerDat V c).after 8 t = layerBlk V c 8 t := by dsimp only [layerDat]
theorem layerAfter9 (c : Dev nD) (t : Fin cfg0.N) : (layerDat V c).after 9 t = layerBlk V c 9 t := by dsimp only [layerDat]
theorem layerAfter10 (c : Dev nD) (t : Fin cfg0.N) :
    (layerDat V c).after 10 t = layerOut (layerBlk V c 0 t) (layerBlk V c 1 t) (layerBlk V c 2 t) (layerBlk V c 3 t) (layerBlk V c 4 t) (layerBlk V c 5 t) (layerBlk V c 6 t) (layerBlk V c 7 t) (layerBlk V c 8 t) (layerBlk V c 9 t) := by dsimp only [layerDat]

theorem layerHeld0 (c : Dev nD) (t : Fin cfg0.N) (d) : (layerDat V c).before 0 t d = layerBlk V c 0 t :=
  layerHeld0_of V (layerDat V c) (layerDat_A V c 0) (layerAfter0 V c) t d
theorem layerHeld1 (c : Dev nD) (t : Fin cfg0.N) (d) : (layerDat V c).before 1 t d = layerBlk V c 1 t :=
  layerHeld1_of V (layerDat V c) (layerDat_A V c 1) (layerAfter1 V c) t d
theorem layerHeld2 (c : Dev nD) (t : Fin cfg0.N) (d) : (layerDat V c).before 2 t d = layerBlk V c 2 t :=
  layerHeld2_of V (layerDat V c) (layerDat_A V c 2) (layerAfter2 V c) t d
theorem layerHeld3 (c : Dev nD) (t : Fin cfg0.N) (d) : (layerDat V c).before 3 t d = layerBlk V c 3 t :=
  layerHeld3_of V (layerDat V c) (layerDat_A V c 3) (layerAfter3 V c) t d
theorem layerHeld4 (c : Dev nD) (t : Fin cfg0.N) (d) : (layerDat V c).before 4 t d = layerBlk V c 4 t :=
  layerHeld4_of V (layerDat V c) (layerDat_A V c 4) (layerAfter4 V c) t d
theorem layerHeld5 (c : Dev nD) (t : Fin cfg0.N) (d) : (layerDat V c).before 5 t d = layerBlk V c 5 t :=
  layerHeld5_of V (layerDat V c) (layerDat_A V c 5) (layerAfter5 V c) t d
theorem layerHeld6 (c : Dev nD) (t : Fin cfg0.N) (d) : (layerDat V c).before 6 t d = layerBlk V c 6 t :=
  layerHeld6_of V (layerDat V c) (layerDat_A V c 6) (layerAfter6 V c) t d
theorem layerHeld7 (c : Dev nD) (t : Fin cfg0.N) (d) : (layerDat V c).before 7 t d = layerBlk V c 7 t :=
  layerHeld7_of V (layerDat V c) (layerDat_A V c 7) (layerAfter7 V c) t d
theorem layerHeld8 (c : Dev nD) (t : Fin cfg0.N) (d) : (layerDat V c).before 8 t d = layerBlk V c 8 t :=
  layerHeld8_of V (layerDat V c) (layerDat_A V c 8) (layerAfter8 V c) t d
theorem layerHeld9 (c : Dev nD) (t : Fin cfg0.N) (d) : (layerDat V c).before 9 t d = layerBlk V c 9 t :=
  layerHeld9_of V (layerDat V c) (layerDat_A V c 9) (layerAfter9 V c) t d

/-! ## The body obligation, at a generic point -/

/-- What the body is called with at point `t`: the invariant, the core's dues, each window's current buffer at what it
    holds before the body. -/
def layerPre (c : Dev nD) (t : Fin cfg0.N) : sProp 𝕄 :=
  iprop((layerDat V c).Φ t.castSucc ∗ (layerDat V c).owesAt () t.castSucc
    ∗ (∃ d, owns (c : Thread nD τ) (st0_0 t) fullShare ((layerDat V c).before 0 t d))
    ∗ (∃ d, owns (c : Thread nD τ) (st0_1 t) fullShare ((layerDat V c).before 1 t d))
    ∗ (∃ d, owns (c : Thread nD τ) (st0_2 t) fullShare ((layerDat V c).before 2 t d))
    ∗ (∃ d, owns (c : Thread nD τ) (st0_3 t) fullShare ((layerDat V c).before 3 t d))
    ∗ (∃ d, owns (c : Thread nD τ) (st0_4 t) fullShare ((layerDat V c).before 4 t d))
    ∗ (∃ d, owns (c : Thread nD τ) (st0_5 t) fullShare ((layerDat V c).before 5 t d))
    ∗ (∃ d, owns (c : Thread nD τ) (st0_6 t) fullShare ((layerDat V c).before 6 t d))
    ∗ (∃ d, owns (c : Thread nD τ) (st0_7 t) fullShare ((layerDat V c).before 7 t d))
    ∗ (∃ d, owns (c : Thread nD τ) (st0_8 t) fullShare ((layerDat V c).before 8 t d))
    ∗ (∃ d, owns (c : Thread nD τ) (st0_9 t) fullShare ((layerDat V c).before 9 t d))
    ∗ (∃ d, owns (c : Thread nD τ) (st0_10 t) fullShare ((layerDat V c).before 10 t d)))

/-- and what it returns. -/
def layerPost (c : Dev nD) (t : Fin cfg0.N) : sProp 𝕄 :=
  iprop((layerDat V c).Φ t.succ ∗ (layerDat V c).owesAt () t.succ
    ∗ owns (c : Thread nD τ) (st0_0 t) fullShare ((layerDat V c).after 0 t)
    ∗ owns (c : Thread nD τ) (st0_1 t) fullShare ((layerDat V c).after 1 t)
    ∗ owns (c : Thread nD τ) (st0_2 t) fullShare ((layerDat V c).after 2 t)
    ∗ owns (c : Thread nD τ) (st0_3 t) fullShare ((layerDat V c).after 3 t)
    ∗ owns (c : Thread nD τ) (st0_4 t) fullShare ((layerDat V c).after 4 t)
    ∗ owns (c : Thread nD τ) (st0_5 t) fullShare ((layerDat V c).after 5 t)
    ∗ owns (c : Thread nD τ) (st0_6 t) fullShare ((layerDat V c).after 6 t)
    ∗ owns (c : Thread nD τ) (st0_7 t) fullShare ((layerDat V c).after 7 t)
    ∗ owns (c : Thread nD τ) (st0_8 t) fullShare ((layerDat V c).after 8 t)
    ∗ owns (c : Thread nD τ) (st0_9 t) fullShare ((layerDat V c).after 9 t)
    ∗ owns (c : Thread nD τ) (st0_10 t) fullShare ((layerDat V c).after 10 t))

/-- The body at any point: every input buffer holds its block, so the triple applies; the invariant and the dues pass
    through unread. -/
theorem layer_body (c : Dev nD) (t : Fin cfg0.N) :
    layerPre V c t ⊢ wp frame (wpE (defs₀ (F := F)) Variants.none c none) Set.univ (bodyAt0 t) (fun _ => layerPost V c t) := by
  unfold layerPre layerPost bodyAt0
  simp only [layerHeld0, layerHeld1, layerHeld2, layerHeld3, layerHeld4, layerHeld5, layerHeld6, layerHeld7, layerHeld8, layerHeld9]
  rw [show (layerDat V c).Φ t.succ = (layerDat V c).Φ t.castSucc from rfl,
    show (layerDat V c).owesAt () t.succ = (layerDat V c).owesAt () t.castSucc from rfl,
    layerAfter0, layerAfter1, layerAfter2, layerAfter3, layerAfter4, layerAfter5, layerAfter6, layerAfter7, layerAfter8, layerAfter9, layerAfter10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (layer_triple c Set.univ _ _ _ _ _ _ _ _ _ _ _ _ _ _ _ _ _ _ _ _ _ _ _ (layerBlk V c 0 t) (layerBlk V c 1 t) (layerBlk V c 2 t) (layerBlk V c 3 t) (layerBlk V c 4 t) (layerBlk V c 5 t) (layerBlk V c 6 t) (layerBlk V c 7 t) (layerBlk V c 8 t) (layerBlk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem layer_obligation (c : Dev nD) : BodyObligation (layerDat (F := F) V c) (defs₀ (F := F)) Variants.none () Set.univ := fun t => by
  rw [bigSep_W0, bigSep_W0]
  exact layer_body V c t

end Cert.KernelIdeal.Hand

end
-- ==== Proof.FinalRegion.lean ====
import proofs.«171423_j6648609374284_2_alg».proof.Proof.Gen.KernelIdeal.Launch
import proofs.«171423_j6648609374284_2_alg».proof.Proof.Gen.KernelIdeal.Skeleton
import proofs.«171423_j6648609374284_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second pallas_call (the Gram-matrix reduction): its proof data and body obligation

The grid is 2 × 25. At every point the body forms `x2 = sigmoid(BN(relu(agg + dinv2 * h + b)))` from the eight input
blocks and adds `x2ᵀ · x2` to a 128 × 128 accumulator kept in a scoped buffer from point to point; the accumulator is
zeroed at the first point of each row of the grid, and copied to the output block at the last point of the row.
Everything is stated at a parameter `V`: the TensorCore's buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer rectangles

Every load and store of the body goes through the rectangle that starts at the origin and has the buffer's own extents.
Such a rectangle places each index at itself, so a load through it reads the buffer's contents as they are and a store
through it leaves exactly its payload. -/

section WholeRect

variable {sg : RefSig} {κ : Kind} {sp : Space} {s : Shape} {e : EltTy} {Val : EltTy → Type}

/-- A unit-stride rectangle with the shape's own extents starts at the origin and places each index at itself. -/
theorem unit_full_emb (off : Fin s.rank → ℕ) (inb : ∀ a, off a + s.size a ≤ s.size a) (x : s.Idx) :
    (Rect.unit (s := s) off s.size inb).emb x = x := by
  funext a; apply Fin.ext
  show off a + 1 * (x a : ℕ) = x a
  have := inb a; omega

/-- A load through it of contents that read `X` reads `X`. -/
theorem ld_unit_full (off : Fin s.rank → ℕ) (inb : ∀ a, off a + s.size a ≤ s.size a) (X : s.Idx → Val e) :
    View.ld X (Rect.unit (s := s) off s.size inb) = X :=
  funext fun x => congrArg X (unit_full_emb off inb x)

/-- The same of a whole memref held at the contents that read `X`. -/
theorem readAt_unit_full {m : Memref sg κ sp s e} (h : m.IsWhole) (off : Fin s.rank → ℕ)
    (inb : ∀ a, off a + s.size a ≤ s.size a) (X : s.Idx → Val e) :
    View.readAt Val m.view (Rect.unit (s := s) off s.size inb).toLoadRect (h.unread X) = X := by
  rw [View.readAt_eq_ld, h.read_unread]; exact ld_unit_full off inb X

/-- A store through it leaves its payload, whatever was written before. -/
theorem read_writes_unit_full (v : View sg κ sp s e) (f : v.ty.Contents Val) (off : Fin s.rank → ℕ)
    (inb : ∀ a, off a + s.size a ≤ s.size a) (p : s.Idx → Val e) (L : List (View.Piece Val s e)) :
    v.read Val (v.writes Val f (⟨Rect.unit (s := s) off s.size inb, p⟩ :: L)) = p := by
  funext y
  have h := View.read_writes_cons_emb v f (Rect.unit (s := s) off s.size inb) p L y
  rwa [unit_full_emb] at h

/-- A load through it after such a store reads the store's payload. -/
theorem readCov_unit_full [∀ e, Nonempty (Val e)] (v : View sg κ sp s e) (off : Fin s.rank → ℕ)
    (inb : ∀ a, off a + s.size a ≤ s.size a) (p : s.Idx → Val e) (L : List (View.Piece Val s e)) :
    v.readCov (⟨Rect.unit (s := s) off s.size inb, p⟩ :: L) (Rect.unit (s := s) off s.size inb).toLoadRect = p :=
  View.readCov_cons_toLoadRect v (Rect.unit (s := s) off s.size inb) p L

end WholeRect

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (windows 3–7 are
fetched at the first point only: their block index never moves), for any proof data whose array is `V`'s and whose
body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form -/

/-- The accumulator is zeroed here: the second grid coordinate is `0`. -/
abbrev atFirst (i : grid1.Coords) : Prop :=
  (Scalar.cmpi .ne (Scalar.extui (Scalar.cmpi .eq (BitVec.ofNat 32 (i 1).val) 0#32)) 0#32) = 1#1
theorem atFirst_iff : ∀ t : Fin cfg1.N, atFirst (grid1.coords t) ↔ t.val % 25 = 0 :=
  (by decide +kernel : ∀ t : Fin grid1.N, atFirst (grid1.coords t) ↔ t.val % 25 = 0)

/-- The accumulator is copied out here: the second grid coordinate is `24`. -/
abbrev atLast (i : grid1.Coords) : Prop := k1_cond2 i = 1#1
theorem atLast_iff : ∀ t : Fin cfg1.N, atLast (grid1.coords t) ↔ t.val % 25 = 24 :=
  (by decide +kernel : ∀ t : Fin grid1.N, atLast (grid1.coords t) ↔ t.val % 25 = 24)

/-! ## Where the windows are idle -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem live1_5 : ∀ t : Fin cfg1.N, cfg1.idle 5 (grid1.coords t) = false := fun _ => rfl
theorem live1_6 : ∀ t : Fin cfg1.N, cfg1.idle 6 (grid1.coords t) = false := fun _ => rfl
theorem live1_7 : ∀ t : Fin cfg1.N, cfg1.idle 7 (grid1.coords t) = false := fun _ => rfl
/-- Off the last point of a row the output window is idle (nothing is stored into it), and is not written back; -/
theorem idle1_8 : ∀ t : Fin cfg1.N, ¬atLast (grid1.coords t) → cfg1.idle 8 (grid1.coords t) = true := by decide +kernel
theorem noFlush1_8 : ∀ t : Fin cfg1.N, ¬atLast (grid1.coords t) → (cfg1.win 8).flush t = false := by decide +kernel
/-- at the last point of a row it is live. -/
theorem live1_8 : ∀ t : Fin cfg1.N, atLast (grid1.coords t) → cfg1.idle 8 (grid1.coords t) = false := by decide +kernel

/-! ## The memrefs the body is called with -/

abbrev buf1_0 (t : Fin cfg1.N) := win1_0.stage (cfg1.slots t 0)
abbrev whole1_0 (t : Fin cfg1.N) : (buf1_0 t).IsWhole := hstage1_0 ((cfg1.slots t 0).cast nbuf1_0)
abbrev buf1_1 (t : Fin cfg1.N) := win1_1.stage (cfg1.slots t 1)
abbrev whole1_1 (t : Fin cfg1.N) : (buf1_1 t).IsWhole := hstage1_1 ((cfg1.slots t 1).cast nbuf1_1)
abbrev buf1_2 (t : Fin cfg1.N) := win1_2.stage (cfg1.slots t 2)
abbrev whole1_2 (t : Fin cfg1.N) : (buf1_2 t).IsWhole := hstage1_2 ((cfg1.slots t 2).cast nbuf1_2)
abbrev buf1_3 (t : Fin cfg1.N) := win1_3.stage (cfg1.slots t 3)
abbrev whole1_3 (t : Fin cfg1.N) : (buf1_3 t).IsWhole := hstage1_3 ((cfg1.slots t 3).cast nbuf1_3)
abbrev buf1_4 (t : Fin cfg1.N) := win1_4.stage (cfg1.slots t 4)
abbrev whole1_4 (t : Fin cfg1.N) : (buf1_4 t).IsWhole := hstage1_4 ((cfg1.slots t 4).cast nbuf1_4)
abbrev buf1_5 (t : Fin cfg1.N) := win1_5.stage (cfg1.slots t 5)
abbrev whole1_5 (t : Fin cfg1.N) : (buf1_5 t).IsWhole := hstage1_5 ((cfg1.slots t 5).cast nbuf1_5)
abbrev buf1_6 (t : Fin cfg1.N) := win1_6.stage (cfg1.slots t 6)
abbrev whole1_6 (t : Fin cfg1.N) : (buf1_6 t).IsWhole := hstage1_6 ((cfg1.slots t 6).cast nbuf1_6)
abbrev buf1_7 (t : Fin cfg1.N) := win1_7.stage (cfg1.slots t 7)
abbrev whole1_7 (t : Fin cfg1.N) : (buf1_7 t).IsWhole := hstage1_7 ((cfg1.slots t 7).cast nbuf1_7)
abbrev buf1_8 (t : Fin cfg1.N) := win1_8.stage (cfg1.slots t 8)
abbrev whole1_8 (t : Fin cfg1.N) : (buf1_8 t).IsWhole := hstage1_8 ((cfg1.slots t 8).cast nbuf1_8)
/-- The accumulator: a whole scoped buffer of the kernel's own. -/
abbrev accM : Memref sig .tc .vmem S128x128 .f32 := Memref.whole cc1_scratch0

/-- The core's other scoped buffers that are no staging buffer of this call, each whole at some contents, and the
    generator register at some state: what the body neither reads nor writes. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg10_0), ((c : Thread nD τ).loc cc0_stg10_0) ↦{fullShare} f)
    ∗ (∃ f : Buf (Elt F) ((c : Thread nD τ).loc cc0_stg10_1), ((c : Thread nD τ).loc cc0_stg10_1) ↦{fullShare} f)
    ∗ (∃ r, prngReg c r))

/-- The class's invariant with the accumulator pulled out as a memref owned at some contents. -/
theorem PhiA1_eq (c : Dev nD) :
    (Pipeline.ΦA spec1 c : sProp 𝕄) = iprop((∃ d, owns (c : Thread nD τ) accM fullShare d) ∗ rest1 c) := by
  have h₁ : (Pipeline.ΦA spec1 c : sProp 𝕄) ⊢ iprop((∃ d, owns (c : Thread nD τ) accM fullShare d) ∗ rest1 c) := by
    unfold Pipeline.ΦA rest1; rw [scopedRest1_eq]; simp only [accM, owns_whole]
    iintro ⟨⟨H0, H1, H2, H3, H4, H5, H6, H7, H8, H9, H10, H11, H12, H13, H14, HS⟩, Hg⟩
    isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact Hg
  have h₂ : iprop((∃ d, owns (c : Thread nD τ) accM fullShare d) ∗ rest1 c) ⊢ (Pipeline.ΦA spec1 c : sProp 𝕄) := by
    unfold Pipeline.ΦA rest1; rw [scopedRest1_eq]; simp only [accM, owns_whole]
    iintro ⟨HS, H0, H1, H2, H3, H4, H5, H6, H7, H8, H9, H10, H11, H12, H13, H14, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HS
  exact BI.equiv_iff.mp ⟨h₁, h₂⟩

/-! ## What the accumulator and the output block hold, point by point -/

/-- The accumulator once zeroed. -/
def zeroAcc : Vec F S128x128 .f32 := k1_pay3

/-- One point's step: from the eight input blocks `x2 = sigmoid(BN(relu(agg + dinv2 * h + b)))` (`k1_pay4` up to the
    logistic, which `k1_pay1` applies), and `prev + x2ᵀ · x2`. -/
def gramStep (x0 x1 : Vec F S1000x128 .f32) (x2 : Vec F S1000x1 .f32) (x3 x4 x5 x6 x7 : Vec F S1x128 .f32) (prev : Vec F S128x128 .f32) : Vec F S128x128 .f32 :=
  k1_pay1 (k1_pay4 x0 x2 x1 x3 x7 x6 x4 x5) prev

/-- The step at point `t`, on the blocks there. -/
def stepAt (c : Dev nD) (t : Fin cfg1.N) (prev : Vec F S128x128 .f32) : Vec F S128x128 .f32 :=
  gramStep (iblk1 V c 0 t) (iblk1 V c 1 t) (iblk1 V c 2 t) (iblk1 V c 3 t) (iblk1 V c 4 t) (iblk1 V c 5 t) (iblk1 V c 6 t) (iblk1 V c 7 t) prev

/-- What the accumulator holds after the body at position `n`: at the first point of a row the step from zero, at
    any other the step from what the point before left. -/
def accAt (c : Dev nD) : (n : ℕ) → n < cfg1.N → Vec F S128x128 .f32
  | 0, hn => stepAt V c ⟨0, hn⟩ zeroAcc
  | n + 1, hn =>
    if (n + 1) % 25 = 0 then stepAt V c ⟨n + 1, hn⟩ zeroAcc
    else stepAt V c ⟨n + 1, hn⟩ (accAt c n (Nat.lt_of_succ_lt hn))

theorem accAt_first (c : Dev nD) (t : Fin cfg1.N) (h : t.val % 25 = 0) :
    accAt V c t.val t.isLt = stepAt V c t zeroAcc := by
  obtain ⟨n, hn⟩ := t
  cases n with
  | zero => rfl
  | succ n => exact if_pos h

theorem accAt_next (c : Dev nD) (t : Fin cfg1.N) (h : ¬t.val % 25 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at the last point of a row: the accumulator, as a
    block of one leading row. (At the other points the window is idle and this is not consulted.) -/
def outAt (c : Dev nD) (t : Fin cfg1.N) : Vec F S1x128x128 .f32 := k1_pay2 (accAt V c t.val t.isLt)

/-! ## The body on any staging memrefs, case by case -/

set_option maxHeartbeats 1000000 in
/-- First point of a row: the accumulator, at anything, ends at the step from zero; the output block is handed back
    untouched. -/
theorem run1_first (c : Dev nD) (E : Set ℕ) (i : grid1.Coords) (a0 : Memref sig .tc .vmem S1000x128 .f32) (h0 : a0.IsWhole) (a1 : Memref sig .tc .vmem S1000x128 .f32) (h1 : a1.IsWhole) (a2 : Memref sig .tc .vmem S1000x1 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128x128 .f32) (h8 : a8.IsWhole) (a9 : Memref sig .tc .vmem S128x128 .f32) (h9 : a9.IsWhole)
    (hF : atFirst i) (hL : ¬atLast i) (x0 x1 : Vec F S1000x128 .f32) (x2 : Vec F S1000x1 .f32) (x3 x4 x5 x6 x7 : Vec F S1x128 .f32) (y8 : Vec F S1x128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare y8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare y8 ∗ owns (c : Thread nD τ) a9 fullShare (gramStep x0 x1 x2 x3 x4 x5 x6 x7 zeroAcc)) -∗ K ⟨⟩))
      ⊢ wp frame (wpE (defs₀ (F := F)) Variants.none c none) E (cc1__final_kernel i a0 h0 a1 h1 a2 h2 a3 h3 a4 h4 a5 h5 a6 h6 a7 h7 a8 h8 a9 h9) K := by
  simp only [cc1__final_kernel_eq_skeleton]; unfold cc1__final_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
  sl_exec (disch := first | exact hF | exact hL)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  iexists _; isplitr
  swap; · iexact H9
  ipureintro
  rw [read_writes_unit_full]
  unfold gramStep zeroAcc run1_first.sl.r run1_first.sl.v39 run1_first.sl.H9_1
  rw [readCov_unit_full, readAt_unit_full h0, readAt_unit_full h1, readAt_unit_full h2, readAt_unit_full h3, readAt_unit_full h4, readAt_unit_full h5, readAt_unit_full h6, readAt_unit_full h7]

set_option maxHeartbeats 1000000 in
/-- An inner point of a row: the accumulator goes from what the point before left to the step from it; the output
    block is handed back untouched. -/
theorem run1_inner (c : Dev nD) (E : Set ℕ) (i : grid1.Coords) (a0 : Memref sig .tc .vmem S1000x128 .f32) (h0 : a0.IsWhole) (a1 : Memref sig .tc .vmem S1000x128 .f32) (h1 : a1.IsWhole) (a2 : Memref sig .tc .vmem S1000x1 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128x128 .f32) (h8 : a8.IsWhole) (a9 : Memref sig .tc .vmem S128x128 .f32) (h9 : a9.IsWhole)
    (hF : ¬atFirst i) (hL : ¬atLast i) (x0 x1 : Vec F S1000x128 .f32) (x2 : Vec F S1000x1 .f32) (x3 x4 x5 x6 x7 : Vec F S1x128 .f32) (y8 : Vec F S1x128x128 .f32) (prev : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare y8 ∗ owns (c : Thread nD τ) a9 fullShare prev
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare y8 ∗ owns (c : Thread nD τ) a9 fullShare (gramStep x0 x1 x2 x3 x4 x5 x6 x7 prev)) -∗ K ⟨⟩))
      ⊢ wp frame (wpE (defs₀ (F := F)) Variants.none c none) E (cc1__final_kernel i a0 h0 a1 h1 a2 h2 a3 h3 a4 h4 a5 h5 a6 h6 a7 h7 a8 h8 a9 h9) K := by
  simp only [cc1__final_kernel_eq_skeleton]; unfold cc1__final_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
  sl_exec (disch := first | exact hF | exact hL)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  iexists _; isplitr
  swap; · iexact H9
  ipureintro
  rw [read_writes_unit_full, readAt_unit_full h9]
  unfold gramStep run1_inner.sl.r
  rw [readAt_unit_full h0, readAt_unit_full h1, readAt_unit_full h2, readAt_unit_full h3, readAt_unit_full h4, readAt_unit_full h5, readAt_unit_full h6, readAt_unit_full h7]

set_option maxHeartbeats 1000000 in
/-- Last point of a row: the step from what the point before left, and the output block, at anything, ends at the
    accumulator. -/
theorem run1_last (c : Dev nD) (E : Set ℕ) (i : grid1.Coords) (a0 : Memref sig .tc .vmem S1000x128 .f32) (h0 : a0.IsWhole) (a1 : Memref sig .tc .vmem S1000x128 .f32) (h1 : a1.IsWhole) (a2 : Memref sig .tc .vmem S1000x1 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128x128 .f32) (h8 : a8.IsWhole) (a9 : Memref sig .tc .vmem S128x128 .f32) (h9 : a9.IsWhole)
    (hF : ¬atFirst i) (hL : atLast i) (x0 x1 : Vec F S1000x128 .f32) (x2 : Vec F S1000x1 .f32) (x3 x4 x5 x6 x7 : Vec F S1x128 .f32) (prev : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare prev
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (k1_pay2 (gramStep x0 x1 x2 x3 x4 x5 x6 x7 prev)) ∗ owns (c : Thread nD τ) a9 fullShare (gramStep x0 x1 x2 x3 x4 x5 x6 x7 prev)) -∗ K ⟨⟩))
      ⊢ wp frame (wpE (defs₀ (F := F)) Variants.none c none) E (cc1__final_kernel i a0 h0 a1 h1 a2 h2 a3 h3 a4 h4 a5 h5 a6 h6 a7 h7 a8 h8 a9 h9) K := by
  simp only [cc1__final_kernel_eq_skeleton]; unfold cc1__final_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h9.eq_unread hf9
  sl_exec (disch := first | exact hF | exact hL)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    rw [read_writes_unit_full]
    unfold gramStep run1_last.sl.v48 run1_last.sl.H9_1 run1_last.sl.r
    rw [readCov_unit_full, readAt_unit_full h9, readAt_unit_full h0, readAt_unit_full h1, readAt_unit_full h2, readAt_unit_full h3, readAt_unit_full h4, readAt_unit_full h5, readAt_unit_full h6, readAt_unit_full h7]
  iexists _; isplitr
  swap; · iexact H9
  ipureintro
  unfold run1_last.sl.H9_1
  rw [read_writes_unit_full, readAt_unit_full h9]
  unfold gramStep run1_last.sl.r
  rw [readAt_unit_full h0, readAt_unit_full h1, readAt_unit_full h2, readAt_unit_full h3, readAt_unit_full h4, readAt_unit_full h5, readAt_unit_full h6, readAt_unit_full h7]

/-! ## The region's invariant and proof data -/

/-- The invariant before position `n`: before the first point the class's (every scoped buffer that is no staging
    buffer at anything, the generator register at some state); afterwards the same with the accumulator at what the
    point before left in it. -/
def Phi1 (c : Dev nD) : (n : ℕ) → n ≤ cfg1.N → sProp 𝕄
  | 0, _ => Pipeline.ΦA spec1 c
  | n + 1, hn => iprop(owns (c : Thread nD τ) accM fullShare (accAt V c n hn) ∗ rest1 c)

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) accM fullShare (accAt V c n hn) ∗ rest1 c) := rfl

theorem Phi1_pos (c : Dev nD) (n : ℕ) (h : n ≤ cfg1.N) (hz : n ≠ 0) :
    Phi1 V c n h = iprop(owns (c : Thread nD τ) accM fullShare (accAt V c (n - 1) (by omega)) ∗ rest1 c) := by
  cases n with
  | zero => exact absurd rfl hz
  | succ n => rfl

/-- The proof data of the pipeline on core `c`: the arrays as the region finds them; after the body each input's
    buffer at its block and the output's at the accumulator's contents; the invariant `Phi1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outAt V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. The inputs' memrefs hold their blocks; the point's position in its row of the grid says which
    of the three runs applies; the invariant hands the body the accumulator at what the point before left (at anything
    at the very first point) and takes it back at this point's contents; off the last point of a row the output block
    goes back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  rw [show (dat1 V c).leavesExact 3 t = owns (c : Thread nD τ) (st1_3 t) fullShare ((dat1 V c).after 3 t) from by
    unfold Dat.leavesExact; rw [live1_3 t], after1_3]
  rw [show (dat1 V c).leavesExact 4 t = owns (c : Thread nD τ) (st1_4 t) fullShare ((dat1 V c).after 4 t) from by
    unfold Dat.leavesExact; rw [live1_4 t], after1_4]
  rw [show (dat1 V c).leavesExact 5 t = owns (c : Thread nD τ) (st1_5 t) fullShare ((dat1 V c).after 5 t) from by
    unfold Dat.leavesExact; rw [live1_5 t], after1_5]
  rw [show (dat1 V c).leavesExact 6 t = owns (c : Thread nD τ) (st1_6 t) fullShare ((dat1 V c).after 6 t) from by
    unfold Dat.leavesExact; rw [live1_6 t], after1_6]
  rw [show (dat1 V c).leavesExact 7 t = owns (c : Thread nD τ) (st1_7 t) fullShare ((dat1 V c).after 7 t) from by
    unfold Dat.leavesExact; rw [live1_7 t], after1_7]
  have hN : t.val < 50 := lt_of_lt_of_eq t.isLt (show cfg1.N = 50 from N_1)
  by_cases hl : t.val % 25 = 24
  · have hf : ¬t.val % 25 = 0 := by omega
    have hz : t.val ≠ 0 := by omega
    rw [show (dat1 V c).leavesExact 8 t = owns (c : Thread nD τ) (st1_8 t) fullShare ((dat1 V c).after 8 t) from by
      unfold Dat.leavesExact; rw [live1_8 t ((atLast_iff t).mpr hl)], after1_8]
    unfold outAt
    rw [accAt_next V c t hf]; unfold stepAt
    rw [Phi1_castSucc V c t, Phi1_pos V c _ _ hz]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_last c Set.univ (grid1.coords t) _ _ _ _ _ _ _ _ _ _ _ _ _ _ _ _ _ _ _ _ (fun h => hf ((atFirst_iff t).mp h)) ((atLast_iff t).mpr hl) (iblk1 V c 0 t) (iblk1 V c 1 t) (iblk1 V c 2 t) (iblk1 V c 3 t) (iblk1 V c 4 t) (iblk1 V c 5 t) (iblk1 V c 6 t) (iblk1 V c 7 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat1 V c) 8 t (idle1_8 t (fun h => hl ((atLast_iff t).mp h))) (noFlush1_8 t (fun h => hl ((atLast_iff t).mp h)))]
    by_cases hf : t.val % 25 = 0
    · rw [accAt_first V c t hf]; unfold stepAt
      by_cases hz : t.val = 0
      · rw [Phi1_castSucc V c t, Phi1_zero V c _ _ hz, PhiA1_eq]
        iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run1_first c Set.univ (grid1.coords t) _ _ _ _ _ _ _ _ _ _ _ _ _ _ _ _ _ _ _ _ ((atFirst_iff t).mpr hf) (fun h => hl ((atLast_iff t).mp h)) (iblk1 V c 0 t) (iblk1 V c 1 t) (iblk1 V c 2 t) (iblk1 V c 3 t) (iblk1 V c 4 t) (iblk1 V c 5 t) (iblk1 V c 6 t) (iblk1 V c 7 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [Phi1_castSucc V c t, Phi1_pos V c _ _ hz]
        iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run1_first c Set.univ (grid1.coords t) _ _ _ _ _ _ _ _ _ _ _ _ _ _ _ _ _ _ _ _ ((atFirst_iff t).mpr hf) (fun h => hl ((atLast_iff t).mp h)) (iblk1 V c 0 t) (iblk1 V c 1 t) (iblk1 V c 2 t) (iblk1 V c 3 t) (iblk1 V c 4 t) (iblk1 V c 5 t) (iblk1 V c 6 t) (iblk1 V c 7 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexists _; iexact HS
        iintro ⟨H0, H1, H2, H3, H4, H5, H6, H7, H8, HS⟩
        isplitl [HS HR]
        · isplitl [HS]; · iexact HS
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
    · have hz : t.val ≠ 0 := fun h => hf (by rw [h])
      rw [accAt_next V c t hf]; unfold stepAt
      rw [Phi1_castSucc V c t, Phi1_pos V c _ _ hz]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_inner c Set.univ (grid1.coords t) _ _ _ _ _ _ _ _ _ _ _ _ _ _ _ _ _ _ _ _ (fun h => hf ((atFirst_iff t).mp h)) (fun h => hl ((atLast_iff t).mp h)) (iblk1 V c 0 t) (iblk1 V c 1 t) (iblk1 V c 2 t) (iblk1 V c 3 t) (iblk1 V c 4 t) (iblk1 V c 5 t) (iblk1 V c 6 t) (iblk1 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_first (c : Dev nD) : (dat1 V c).Φ 0 = Pipeline.ΦA spec1 c := rfl

/-- After any point but the first position the invariant gives the class's back: the accumulator's contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨HS, HR⟩
  isplitl [HS]
  · iexists _; iexact HS
  iexact HR

/-- The same after the last point. -/
theorem Phi1_last (c : Dev nD) : (dat1 V c).Φ (Fin.last cfg1.N) ⊢ Pipeline.ΦA spec1 c :=
  Phi1_out V c _ (by rw [Fin.val_last]; have : cfg1.N = 50 := N_1; omega)

end Cert.KernelIdeal.Hand

end
-- ==== Proof.MainRun.lean ====
/-
  THE RUN of @main: host operations, region 0, host operations, region 1, host operations.
  The TensorCore's unscoped buffers are followed through the five items as a fold from the launch memory: a stretch of
  host operations takes the contents `B` to `StableHlo.after ops B`; a region leaves each of its windows' arrays at
  what its write-backs fold to (an input window's array as entered, the output window's array at the blocks the points
  wrote) and every other buffer as entered. Each region is entered from "every unscoped buffer at the boundary's
  contents, the generator register at some state, nothing owed" and left at the same with the next boundary's
  contents. The launch theorem for several regions then gives: every weakly fair execution terminates, nothing
  faults, and every unscoped buffer ends at the last boundary's contents `B5`. Two readings of that one fact are
  used: at an argument's buffer `B5` walks back to the launch memory (no host operation writes an argument, no region
  writes one: three of them are INPUT windows of region 0, the others bypass both regions), which is the frame claim;
  at the result's buffer it is the value claim's starting point.
-/
import proofs.«171423_j6648609374284_2_alg».proof.Proof.LayerRegion
import proofs.«171423_j6648609374284_2_alg».proof.Proof.FinalRegion
import proofs.«171423_j6648609374284_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m ((c : Dev nD), b)
/-- After the first stretch of host operations: region 0's entry. -/
abbrev B1 : Dev nD → Valuation τ sig (Elt F) := fun c => StableHlo.after hostOps0 (B0 m c)
/-- The same, read at the TensorCore's references (what region 0's proof data take). -/
abbrev E1 : (c : Dev nD) → (b : Ref sig .tc) → Buf (Elt F) ((c : Thread nD τ).loc b) := fun c b => B1 m c b
/-- At region 0's exit. -/
def B2 (c : Dev nD) : Valuation τ sig (Elt F) :=
  Pipeline.withArrays spec0 c (B1 m c) fun w => (layerDat (E1 m) c).arrAt w cfg0.N
theorem B2_arr (c : Dev nD) (w : Fin cfg0.W) :
    B2 m c (Proc.devRef .tc (Pipeline.arrRef spec0 w)) = (layerDat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev X2 : (c : Dev nD) → (b : Ref sig .tc) → Buf (Elt F) ((c : Thread nD τ).loc b) := fun c b => B2 m c b
theorem exit0_arr (c : Dev nD) (w : Fin cfg0.W) : (layerDat (E1 m) c).arrAt w cfg0.N = X2 m c (Pipeline.arrRef spec0 w) :=
  (B2_arr m c w).symm
theorem exit0_rest (c : Dev nD) : ∀ b, b ∉ Finset.univ.image (Pipeline.arrRef spec0) → X2 m c b = E1 m c b :=
  fun b hb => B2_of_ne m c b fun w e => hb (Finset.mem_image.mpr ⟨w, Finset.mem_univ _, e⟩)
/-- An INPUT window's array leaves region 0 as it entered. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((layerDat (E1 m) c).arrAt_in w hw _).trans (layerDat_A (E1 m) c w))

/-- After the second stretch: region 1's entry. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At region 1's exit. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev X4 : (c : Dev nD) → (b : Ref sig .tc) → Buf (Elt F) ((c : Thread nD τ).loc b) := fun c b => B4 m c b
theorem exit1_arr (c : Dev nD) (w : Fin cfg1.W) : (dat1 (E3 m) c).arrAt w cfg1.N = X4 m c (Pipeline.arrRef spec1 w) :=
  (B4_arr m c w).symm
theorem exit1_rest (c : Dev nD) : ∀ b, b ∉ Finset.univ.image (Pipeline.arrRef spec1) → X4 m c b = E3 m c b :=
  fun b hb => B4_of_ne m c b fun w e => hb (Finset.mem_image.mpr ⟨w, Finset.mem_univ _, e⟩)
/-- After the last stretch: the end. -/
abbrev B5 : Dev nD → Valuation τ sig (Elt F) := fun c => StableHlo.after hostOps2 (B4 m c)

/-! ## An argument's buffer ends as launched -/

/-- A buffer no host operation writes, that is no window's array of region 1, and that region 0 either does not stage
    or stages as an INPUT window, holds at the end what it held at launch. -/
theorem B5_kept (c : Dev nD) (r : Ref sig .tc) (h2 : r ∉ hostOps2_W) (h1 : r ∉ hostOps1_W) (h0 : r ∉ hostOps0_W)
    (hr1 : ∀ w, Pipeline.arrRef spec1 w ≠ r)
    (hr0 : (∀ w, Pipeline.arrRef spec0 w ≠ r) ∨ ∃ w, (cfg0.win w).isOut = false ∧ Pipeline.arrRef spec0 w = r) :
    B5 m c (Proc.devRef .tc r) = m ((c : Thread nD τ).loc r) :=
  calc B5 m c (Proc.devRef .tc r)
    _ = B4 m c (Proc.devRef .tc r) := StableHlo.after_of_writes_sub hostOps2 _ hostOps2_writes h2
    _ = B3 m c (Proc.devRef .tc r) := B4_of_ne m c r hr1
    _ = B2 m c (Proc.devRef .tc r) := StableHlo.after_of_writes_sub hostOps1 _ hostOps1_writes h1
    _ = B1 m c (Proc.devRef .tc r) := by
          rcases hr0 with h | ⟨w, hw, rfl⟩
          · exact B2_of_ne m c r h
          · exact B2_in m c w hw
    _ = B0 m c (Proc.devRef .tc r) := StableHlo.after_of_writes_sub hostOps0 _ hostOps0_writes h0
    _ = m ((c : Thread nD τ).loc r) := rfl

/-! ## The proof data family and the thread state -/

/-- No pipeline has a prefetched table. -/
abbrev noTables : (p : Fin 2) → (pcfgs (F := F) p).Adm := fun p => (cfgs p).toPCfg_adm
/-- Every pipeline's proof data, each at its region's entry contents. -/
def regionDats : (p : Fin 2) → (c : Dev nD) → Dat τ (Elt F) Unit ℕ (UR sig nD τ) ℕ (Pipeline.pin (pcfgs (F := F)) noTables p) c
  | ⟨0, _⟩ => fun c => layerDat (E1 m) c
  | ⟨1, _⟩ => fun c => dat1 (E3 m) c
abbrev noVariants : Variants := Variants.none
/-- No core owes another anything: no level is assigned. -/
abbrev noLevels : GSem nD τ sig → Finset Unit := fun _ => ∅
abbrev levelOf : GSem nD τ sig → Unit → ℕ := fun _ _ => 0
/-- What rides beside the buffers through every item: the generator register at some state, and nothing owed. -/
abbrev Beside (c : Dev nD) : sProp 𝕄 := iprop((∃ r, prngReg c r) ∗ ∃ W, owes (c : Thread nD τ) (0 : CellTallies nD τ sig Unit) W)
/-- A stretch of host operations as a segment, from the contents `B`. -/
abbrev hostItem (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ noVariants noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Beside
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `B5`, the generator register at some state. -/
abbrev AtEnd (c : Dev nD) : sProp 𝕄 := iprop(StableHlo.held (c : Thread nD τ) (Pipeline.ucRefs τ sig) (B5 m c) ∗ ∃ r, prngReg c r)

/-! ## The regions as segments -/

set_option backward.isDefEq.respectTransparency.types false in
/-- REGION 0 over the thread state: entered from every unscoped buffer at `B1`, left at `B2`. Its windows' arrays are
    split out of the unscoped buffers at entry and put back at their exit contents; the generator register goes into
    the invariant and comes back; nothing is owed; the kernel has no semaphore of its own. -/
def layerSeg : Pipeline.RegionSeg (pcfgs (F := F)) noTables (regionDats m) () defs₀ noVariants noLevels levelOf 0 where
  win := launch0.win.to₀
  block_pos := launch0.block_pos
  stage_whole := launch0.stage_whole
  K := PEmpty
  osem k := k.elim
  ho := Pipeline.OwnSemFacts.none _
  hbody c := (layer_obligation (E1 m) c).loose
  hwaits := Pipeline.hwaits_of_owed_zero _ _ _ _ noLevels levelOf 0 fun _ _ => rfl
  pre c := iprop(StableHlo.held (c : Thread nD τ) (Pipeline.ucRefs τ sig) (B1 m c) ∗ Beside c)
  post c := iprop(StableHlo.held (c : Thread nD τ) (Pipeline.ucRefs τ sig) (B2 m c) ∗ Beside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) noTables (regionDats m) launch0.win launch0.arr_whole c
      ((regionDats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDats m) ((regionDats m 0 c).share_full fun _ => rfl)
      (E1 m c) (X2 m c) ((regionDats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `B3`, left at `B4`. Its invariant starts as
    the scoped rest and the generator register, carries the accumulator scratch at a named value between points, and
    gives the scoped rest back after the last point. -/
def finalSeg : Pipeline.RegionSeg (pcfgs (F := F)) noTables (regionDats m) () defs₀ noVariants noLevels levelOf 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noLevels levelOf 1 fun _ _ => rfl
  pre c := iprop(StableHlo.held (c : Thread nD τ) (Pipeline.ucRefs τ sig) (B3 m c) ∗ Beside c)
  post c := iprop(StableHlo.held (c : Thread nD τ) (Pipeline.ucRefs τ sig) (B4 m c) ∗ Beside c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) noTables (regionDats m) launch1.win launch1.arr_whole c
      ((regionDats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 1 c).Φ 0 = (dat1 (E3 m) c).Φ 0 from rfl, Phi1_first]; unfold Pipeline.ΦA
    iintro ⟨Hp, -, Hr⟩
    isplitl [Hr]; · iexact Hr
    iexact Hp
  hout c := by
    rw [Pipeline.ownSems0_none]
    refine (show (regionDats m 1 c).Φ (Fin.last _) ⊢ Pipeline.ΦA spec1 c from Phi1_last (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionDats m) ((regionDats m 1 c).share_full fun _ => rfl)
      (E3 m c) (X4 m c) ((regionDats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its five items, and the launch -/

abbrev items : List (Pipeline.Seg (pcfgs (F := F)) noTables (regionDats m) () defs₀ noVariants noLevels levelOf) :=
  [ .host (hostItem hostOps0 hostOps0_sub hostOps0_fresh (B0 m)),
    .region (layerSeg m),
    .host (hostItem hostOps1 hostOps1_sub hostOps1_fresh (B2 m)),
    .region (finalSeg m),
    .host (hostItem hostOps2 hostOps2_sub hostOps2_fresh (B4 m)) ]
/-- @main is the run of its items. -/
theorem main_items (c : Dev nD) : main (F := F) c = Pipeline.Seg.run (items m) := (main_chain c).trans (by chain_rfl)

set_option backward.isDefEq.respectTransparency.types false in
/-- From any memory with zero counters every weakly fair execution of @main terminates, nothing faulting, and in every
    final state each unscoped buffer of each core holds the last boundary's contents `B5`. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = B5 m c b) → Q (⟨⟩, s)) :
    θ_run defs (onTc (τ := τ) (main (F := F))) ⟨m, fun _ => 0, ρ⟩ Q :=
  Pipeline.θ_run_regions_kit (pcfgs (F := F)) noTables (regionDats m) () cellOf_inj emb₁ defs₀ noVariants noLevels levelOf m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Beside c)) (Tₙ := AtEnd m)
    (hch := ⟨fun _ => .rfl, fun _ => .rfl, fun _ => .rfl, fun _ => .rfl, fun _ => .rfl, fun c => by
      show iprop(StableHlo.held (c : Thread nD τ) (Pipeline.ucRefs τ sig) (B5 m c) ∗ Beside c)
        ⊢ iprop(AtEnd m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noLevels levelOf fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := hQ)

end Cert.KernelIdeal.Hand

end
-- ==== Proof.Frames.lean ====
/-
  THE FRAME CLAIM of the idealized kernel program, from its run: every weakly fair execution terminates, nothing
  faults, and each of the sixteen argument arrays ends as launched. No host operation writes an argument; region 1
  stages none; region 0 stages three of them (the node features, W₁, W₂) as INPUT windows, whose arrays a pipeline
  never changes, and the thirteen others bypass it.
-/
import proofs.«171423_j6648609374284_2_alg».proof.Defs
import proofs.«171423_j6648609374284_2_alg».proof.Proof.MainRun
import proofs.«171423_j6648609374284_2_alg».proof.Proof.Gen.Pre_finite_inputs

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- An argument that region 0 does not stage. -/
theorem kept_bypass (s : MemSt nD τ sig (Elt F)) (c : Dev nD)
    (h : ∀ b ∈ Pipeline.ucRefs τ sig, s.mem (((c : Thread nD τ)).1, b) = B5 m c b) (r : Ref sig .tc)
    (hu : ¬ (Proc.devRef .tc r : DevRef τ sig).isScoped) (h2 : r ∉ hostOps2_W) (h1 : r ∉ hostOps1_W) (h0 : r ∉ hostOps0_W)
    (hr1 : ∀ w, Pipeline.arrRef spec1 w ≠ r) (hr0 : ∀ w, Pipeline.arrRef spec0 w ≠ r) :
    s.mem ((c.tc : Thread nD τ).loc r) = m ((c.tc : Thread nD τ).loc r) :=
  (h _ (mem_unscoped r hu)).trans (B5_kept m c r h2 h1 h0 hr1 (Or.inl hr0))

/-- An argument that region 0 stages as an input window. -/
theorem kept_input (s : MemSt nD τ sig (Elt F)) (c : Dev nD)
    (h : ∀ b ∈ Pipeline.ucRefs τ sig, s.mem (((c : Thread nD τ)).1, b) = B5 m c b) (w : Fin cfg0.W)
    (hw : (cfg0.win w).isOut = false)
    (hu : ¬ (Proc.devRef .tc (Pipeline.arrRef spec0 w) : DevRef τ sig).isScoped) (h2 : Pipeline.arrRef spec0 w ∉ hostOps2_W)
    (h1 : Pipeline.arrRef spec0 w ∉ hostOps1_W) (h0 : Pipeline.arrRef spec0 w ∉ hostOps0_W)
    (hr1 : ∀ w', Pipeline.arrRef spec1 w' ≠ Pipeline.arrRef spec0 w) :
    s.mem ((c.tc : Thread nD τ).loc (Pipeline.arrRef spec0 w)) = m ((c.tc : Thread nD τ).loc (Pipeline.arrRef spec0 w)) :=
  (h _ (mem_unscoped _ hu)).trans (B5_kept m c _ h2 h1 h0 hr1 (Or.inr ⟨w, hw, rfl⟩))

/-- All sixteen, from a final memory that holds every unscoped buffer at the last boundary's contents. -/
theorem args_kept (s : MemSt nD τ sig (Elt F))
    (h : ∀ c : Dev nD, ∀ b ∈ Pipeline.ucRefs τ sig, s.mem (((c : Thread nD τ)).1, b) = B5 m c b) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15) :=
  ⟨kept_input m s c (h c) 1 rfl (by decide) (by decide) (by decide) (by decide) (by decide),
   kept_bypass m s c (h c) main_arg1 (by decide) (by decide) (by decide) (by decide) (by decide) (by decide),
   kept_input m s c (h c) 8 rfl (by decide) (by decide) (by decide) (by decide) (by decide),
   kept_bypass m s c (h c) main_arg3 (by decide) (by decide) (by decide) (by decide) (by decide) (by decide),
   kept_input m s c (h c) 9 rfl (by decide) (by decide) (by decide) (by decide) (by decide),
   kept_bypass m s c (h c) main_arg5 (by decide) (by decide) (by decide) (by decide) (by decide) (by decide),
   kept_bypass m s c (h c) main_arg6 (by decide) (by decide) (by decide) (by decide) (by decide) (by decide),
   kept_bypass m s c (h c) main_arg7 (by decide) (by decide) (by decide) (by decide) (by decide) (by decide),
   kept_bypass m s c (h c) main_arg8 (by decide) (by decide) (by decide) (by decide) (by decide) (by decide),
   kept_bypass m s c (h c) main_arg9 (by decide) (by decide) (by decide) (by decide) (by decide) (by decide),
   kept_bypass m s c (h c) main_arg10 (by decide) (by decide) (by decide) (by decide) (by decide) (by decide),
   kept_bypass m s c (h c) main_arg11 (by decide) (by decide) (by decide) (by decide) (by decide) (by decide),
   kept_bypass m s c (h c) main_arg12 (by decide) (by decide) (by decide) (by decide) (by decide) (by decide),
   kept_bypass m s c (h c) main_arg13 (by decide) (by decide) (by decide) (by decide) (by decide) (by decide),
   kept_bypass m s c (h c) main_arg14 (by decide) (by decide) (by decide) (by decide) (by decide) (by decide),
   kept_bypass m s c (h c) main_arg15 (by decide) (by decide) (by decide) (by decide) (by decide) (by decide)⟩

end Cert.KernelIdeal.Hand

namespace Cert.Proof.KernelIdealFrame

open Idealize.ShloMosaic Idealize.SL.Sem

/-- The frame claim at the ideal instance. -/
theorem frame_pi : Cert.frame_KernelIdeal := fun m ρ _ =>
  Cert.KernelIdeal.Hand.run_all (F := Ideal) m ρ (fun s h c => Cert.KernelIdeal.Hand.args_kept m s h c)

end Cert.Proof.KernelIdealFrame

end
-- ==== Proof.RefFrame.lean ====
/-
  The reference program is host operations only: it has no kernel region, so its frame claim — every weakly fair
  execution terminates, nothing faults, the argument arrays end as launched — is the run of its operation list read
  back, with the statement about the result dropped.
-/
import proofs.«171423_j6648609374284_2_alg».proof.Defs
import proofs.«171423_j6648609374284_2_alg».proof.Proof.Gen.ReferenceIdeal.Run
import proofs.«171423_j6648609374284_2_alg».proof.Proof.Gen.ReferenceIdeal.Read
import proofs.«171423_j6648609374284_2_alg».proof.Proof.Gen.Pre_finite_inputs

noncomputable section

open Idealize.ShloMosaic Idealize.ShloMosaic.TcCoe Idealize.SL.Sem

namespace Cert.Proof.RefClaims

/-- The reference's arguments are never written: the run's post, projected to its second component. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.LayerPayload.lean ====
/-
  REGION 0's arithmetic at one entry, over the extended reals.
  For the ten blocks a grid point hands the body — a (aggregated neighbour rows), x (node rows), d (squared inverse
  degree, one column), b γ β μ v (bias, scale, shift, mean, variance: one row of 256 each), W₁ (128 × 256),
  W₂ (256 × 128) — the hidden activation at row p, column k is
      y p k = σ((max (Σ_k' (a p k' + d p · x p k') · W₁ k' k + b k) 0 − μ k) · rsqrt(v k + ε) · γ k + β k)
  and the stored block at row p, column q is  Σ_k y p k · W₂ k q.
  Changes of float format are the identity here, and a matrix product into a zero accumulator is the plain sum over the
  contracted axis. Everything else is entrywise, except three re-layings: a 1 × 256 row repeated down 2000 rows, the
  2000 × 1 column repeated across 128 columns, and casts of a shape to itself.
-/
import proofs.«171423_j6648609374284_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LayerVal

open Cert.KernelIdeal Cert.KernelIdeal.Gen Idealize.ShloMosaic Idealize.ShloMosaic.ValueIdx

/-! ## The two matrix products as sums over the contracted axis -/

abbrev dotA := dot_S2000x128_S128x256_S2000x256_1_0_0_1_n_n
abbrev dotB := dot_S2000x256_S256x128_S2000x128_1_0_0_1_n_n

theorem dotA_lhs0 (i : S2000x256.Idx) (q : dotA.contr.Idx) : (dotA.lhsIdx i q 0).val = (i 0).val := by
  unfold DotDims.lhsIdx
  rw [dif_neg (show ¬(0 : Fin S2000x128.rank) ∈ dotA.lhsBatch by decide), dif_pos (show (0 : Fin S2000x128.rank) ∈ dotA.lhsNonContracting by decide)]
  rfl
theorem dotA_lhs1 (i : S2000x256.Idx) (q : dotA.contr.Idx) : (dotA.lhsIdx i q 1).val = (q ⟨0, by decide⟩).val :=
  dotA.lhsIdx_val_of_single rfl i q
theorem dotA_rhs0 (i : S2000x256.Idx) (q : dotA.contr.Idx) : (dotA.rhsIdx i q 0).val = (q ⟨0, by decide⟩).val :=
  dotA.rhsIdx_val_of_single rfl i q
theorem dotA_rhs1 (i : S2000x256.Idx) (q : dotA.contr.Idx) : (dotA.rhsIdx i q 1).val = (i 1).val := by
  unfold DotDims.rhsIdx
  rw [dif_neg (show ¬(1 : Fin S128x256.rank) ∈ dotA.rhsBatch by decide), dif_pos (show (1 : Fin S128x256.rank) ∈ dotA.rhsNonContracting by decide)]
  rfl

/-- The first product: (2000 × 128)(128 × 256), into zeros. -/
theorem mmA_apply {φ₁ φ₂ : FTy} (a : FVec Ideal S2000x128 φ₁) (w : FVec Ideal S128x256 φ₂) (p : Fin 2000) (j : Fin 256) :
    matmul dotA none a w (constant S2000x256 .f32 0x00000000#32) (ix2 p j) = ∑ k : Fin 128, a (ix2 p k) * w (ix2 k j) := by
  refine (Ideal.matmul_constant_zero_apply dotA none a w (ix2 p j)).trans ?_
  rw [← Equiv.sum_comp (ValueIdx.contrEquiv1 dotA 128 rfl rfl).symm]
  refine Finset.sum_congr rfl fun k _ => ?_
  have hk := ValueIdx.contrEquiv1_symm_val dotA 128 rfl rfl k
  have el : dotA.lhsIdx (ix2 p j) ((ValueIdx.contrEquiv1 dotA 128 rfl rfl).symm k) = ix2 p k := funext fun a => Fin.ext (by
    match a with
    | ⟨0, _⟩ => exact dotA_lhs0 _ _
    | ⟨1, _⟩ => exact (dotA_lhs1 _ _).trans hk)
  have er : dotA.rhsIdx (ix2 p j) ((ValueIdx.contrEquiv1 dotA 128 rfl rfl).symm k) = ix2 k j := funext fun a => Fin.ext (by
    match a with
    | ⟨0, _⟩ => exact (dotA_rhs0 _ _).trans hk
    | ⟨1, _⟩ => exact dotA_rhs1 _ _)
  rw [el, er]

theorem dotB_lhs0 (i : S2000x128.Idx) (q : dotB.contr.Idx) : (dotB.lhsIdx i q 0).val = (i 0).val := by
  unfold DotDims.lhsIdx
  rw [dif_neg (show ¬(0 : Fin S2000x256.rank) ∈ dotB.lhsBatch by decide), dif_pos (show (0 : Fin S2000x256.rank) ∈ dotB.lhsNonContracting by decide)]
  rfl
theorem dotB_lhs1 (i : S2000x128.Idx) (q : dotB.contr.Idx) : (dotB.lhsIdx i q 1).val = (q ⟨0, by decide⟩).val :=
  dotB.lhsIdx_val_of_single rfl i q
theorem dotB_rhs0 (i : S2000x128.Idx) (q : dotB.contr.Idx) : (dotB.rhsIdx i q 0).val = (q ⟨0, by decide⟩).val :=
  dotB.rhsIdx_val_of_single rfl i q
theorem dotB_rhs1 (i : S2000x128.Idx) (q : dotB.contr.Idx) : (dotB.rhsIdx i q 1).val = (i 1).val := by
  unfold DotDims.rhsIdx
  rw [dif_neg (show ¬(1 : Fin S256x128.rank) ∈ dotB.rhsBatch by decide), dif_pos (show (1 : Fin S256x128.rank) ∈ dotB.rhsNonContracting by decide)]
  rfl

/-- The second product: (2000 × 256)(256 × 128), into zeros. -/
theorem mmB_apply {φ₁ φ₂ : FTy} (a : FVec Ideal S2000x256 φ₁) (w : FVec Ideal S256x128 φ₂) (p : Fin 2000) (j : Fin 128) :
    matmul dotB none a w (constant S2000x128 .f32 0x00000000#32) (ix2 p j) = ∑ k : Fin 256, a (ix2 p k) * w (ix2 k j) := by
  refine (Ideal.matmul_constant_zero_apply dotB none a w (ix2 p j)).trans ?_
  rw [← Equiv.sum_comp (ValueIdx.contrEquiv1 dotB 256 rfl rfl).symm]
  refine Finset.sum_congr rfl fun k _ => ?_
  have hk := ValueIdx.contrEquiv1_symm_val dotB 256 rfl rfl k
  have el : dotB.lhsIdx (ix2 p j) ((ValueIdx.contrEquiv1 dotB 256 rfl rfl).symm k) = ix2 p k := funext fun a => Fin.ext (by
    match a with
    | ⟨0, _⟩ => exact dotB_lhs0 _ _
    | ⟨1, _⟩ => exact (dotB_lhs1 _ _).trans hk)
  have er : dotB.rhsIdx (ix2 p j) ((ValueIdx.contrEquiv1 dotB 256 rfl rfl).symm k) = ix2 k j := funext fun a => Fin.ext (by
    match a with
    | ⟨0, _⟩ => exact (dotB_rhs0 _ _).trans hk
    | ⟨1, _⟩ => exact dotB_rhs1 _ _)
  rw [el, er]

/-! ## The re-layings -/

/-- The 2000 × 1 column repeated across 128 columns reads, at (p, k), the column's entry in row p. -/
theorem colAcross_apply (v : S2000x1.Idx → EReal) (p : Fin 2000) (k : Fin 128) :
    broadcastTo S2000x128 v broadcasts_S2000x1_S2000x128 (ix2 p k) = v (ix2 p (0 : Fin 1)) := by
  refine broadcastTo_apply v broadcasts_S2000x1_S2000x128 (ix2 p k) (ix2 p (0 : Fin 1)) fun ax => ?_
  match ax with
  | ⟨0, _⟩ => rfl
  | ⟨1, _⟩ => rfl

/-- A 1 × 256 row repeated down 2000 rows reads, at (p, k), the row's entry in column k. -/
theorem rowDown_apply (v : S1x256.Idx → EReal) (p : Fin 2000) (k : Fin 256) :
    broadcastTo S2000x256 v broadcasts_S1x256_S2000x256 (ix2 p k) = v (ix2 (0 : Fin 1) k) :=
  broadcastTo_1b_ab_apply v broadcasts_S1x256_S2000x256 p k

/-! ## The payloads at an entry -/

/-- The linear part: (a + d·x) W₁ at (p, k). -/
def preLin (a x : S2000x128.Idx → EReal) (d : S2000x1.Idx → EReal) (w1 : S128x256.Idx → EReal) (p : Fin 2000) (k : Fin 256) : EReal :=
  ∑ k' : Fin 128, (a (ix2 p k') + d (ix2 p (0 : Fin 1)) * x (ix2 p k')) * w1 (ix2 k' k)

/-- The hidden activation at (p, k). -/
def hidden (a x : S2000x128.Idx → EReal) (d : S2000x1.Idx → EReal) (w1 : S128x256.Idx → EReal) (b g be mu var : S1x256.Idx → EReal)
    (p : Fin 2000) (k : Fin 256) : EReal :=
  Ideal.logistic ((max (preLin a x d w1 p k + b (ix2 (0 : Fin 1) k)) 0 - mu (ix2 (0 : Fin 1) k))
    * Ideal.rsqrt (var (ix2 (0 : Fin 1) k) + Ideal.ofBits .f32 0x3A83126F#32) * g (ix2 (0 : Fin 1) k) + be (ix2 (0 : Fin 1) k))

/-- The part's payload is the hidden activation; its nine operands come in the order the part loads them
    (aggregate, degree column, features, W₁, bias, variance, mean, scale, shift). -/
theorem part_apply (a : Vec Ideal S2000x128 .f32) (d : Vec Ideal S2000x1 .f32) (x : Vec Ideal S2000x128 .f32) (w1 : Vec Ideal S128x256 .f32)
    (b var mu g be : Vec Ideal S1x256 .f32) (p : Fin 2000) (k : Fin 256) :
    k0_pay2 (F := Ideal) a d x w1 b var mu g be (ix2 p k) = hidden a x d w1 b g be mu var p k := by
  unfold k0_pay2 hidden preLin
  simp only [logistic, addf, mulf, subf, maximumf, rsqrt, truncf, broadcast, Ideal.logistic_def, Ideal.addf_def, Ideal.mulf_def,
    Ideal.subf_def, Ideal.maximumf_def, Ideal.rsqrt_def, Ideal.truncf_def, Ideal.ofBits_def, Ideal.ofBits_zero_f32,
    shapeCast_self, rowDown_apply, mmA_apply, colAcross_apply]

/-- The function's own payload: the hidden block times W₂ at (p, q). -/
theorem out_apply (y : FVec Ideal S2000x256 .f32) (w2 : Vec Ideal S256x128 .f32) (p : Fin 2000) (q : Fin 128) :
    k0_pay1 (F := Ideal) y w2 (ix2 p q) = ∑ k : Fin 256, y (ix2 p k) * w2 (ix2 k q) := by
  unfold k0_pay1
  exact (mmB_apply _ _ p q).trans (Finset.sum_congr rfl fun k _ => rfl)

/-- The stored block at (p, q), from the ten input blocks. -/
theorem block_apply (a : Vec Ideal S2000x128 .f32) (d : Vec Ideal S2000x1 .f32) (x : Vec Ideal S2000x128 .f32) (w1 : Vec Ideal S128x256 .f32)
    (b var mu g be : Vec Ideal S1x256 .f32) (w2 : Vec Ideal S256x128 .f32) (p : Fin 2000) (q : Fin 128) :
    k0_pay1 (F := Ideal) (k0_pay2 (F := Ideal) a d x w1 b var mu g be) w2 (ix2 p q)
      = ∑ k : Fin 256, hidden a x d w1 b g be mu var p k * w2 (ix2 k q) :=
  (out_apply _ w2 p q).trans (Finset.sum_congr rfl fun k _ => by rw [part_apply])

end Cert.KernelIdeal.LayerVal

end
-- ==== Proof.LayerArray.lean ====
/-
  REGION 0's result array after the run, as ONE function of the arrays the region read.
  Point `t` of the 25 writes back rows 2000·t … 2000·t + 1999 of the result; its input blocks are the same rows of
  the aggregate, of the features and of the degree column, and the seven resident operands whole. Row n of the result
  therefore depends on row n of those three arrays only:
      result n q = Σ_k σ(BN(relu(Σ_k' (agg n k' + d n · x n k') W₁ k' k + b k))) · W₂ k q .
  The 25 blocks tile the 50000 rows (row n lies in the block of point n / 2000), so the array the run leaves IS that
  function.
-/
import proofs.«171423_j6648609374284_2_alg».proof.Proof.LayerRegion
import proofs.«171423_j6648609374284_2_alg».proof.Proof.LayerPayload
import Idealize.ShloMosaic.Lib.Pipeline.Value

set_option maxRecDepth 16384

noncomputable section

namespace Cert.KernelIdeal.LayerVal

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- The hidden activation of node `n` at column `k`, from the whole arrays. -/
def hiddenRow (a x : S50000x128.Idx → EReal) (d : S50000x1.Idx → EReal) (w1 : S128x256.Idx → EReal) (b g be mu var : S1x256.Idx → EReal)
    (n : Fin 50000) (k : Fin 256) : EReal :=
  Ideal.logistic ((max ((∑ k' : Fin 128, (a (ix2 n k') + d (ix2 n (0 : Fin 1)) * x (ix2 n k')) * w1 (ix2 k' k)) + b (ix2 (0 : Fin 1) k)) 0
      - mu (ix2 (0 : Fin 1) k))
    * Ideal.rsqrt (var (ix2 (0 : Fin 1) k) + Ideal.ofBits .f32 0x3A83126F#32) * g (ix2 (0 : Fin 1) k) + be (ix2 (0 : Fin 1) k))

/-- The result array: the hidden activations times W₂. -/
def layerArr (a x : S50000x128.Idx → EReal) (d : S50000x1.Idx → EReal) (b g be mu var : S1x256.Idx → EReal)
    (w1 : S128x256.Idx → EReal) (w2 : S256x128.Idx → EReal) : S50000x128.Idx → EReal :=
  fun i => ∑ k : Fin 256, hiddenRow a x d w1 b g be mu var ⟨(i 0).val, idx2_lt0 i⟩ k * w2 (ix2 k ⟨(i 1).val, idx2_lt1 i⟩)

/-- The windows' index maps, decided over the grid: the three row-blocked inputs and the output move with the point,
    the seven resident operands stay at block (0, 0). -/
theorem layer_idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- The node a block row is: row `p` of point `t`'s block is node 2000·t + p. -/
def rowOf (t : Fin cfg0.N) (p : Fin 2000) : Fin 50000 :=
  ⟨t.val * 2000 + p.val, by have h1 := t.isLt; have h2 : cfg0.N = 25 := N_0; have h3 := p.isLt; omega⟩

/-! ## Each input block's entries are the array's -/

theorem aggBlk_apply (c : Dev nD) (t : Fin cfg0.N) (p : Fin 2000) (k : Fin 128) :
    (layerBlk V c 0 t : Vec Ideal S2000x128 .f32) (ix2 p k) = V c main_v40 (ix2 (rowOf t p) k) := by
  obtain ⟨e0, e1, -⟩ := layer_idx t
  show V c main_v40 (((cfg0.win 0).blk t).view.emb (ix2 p k)) = _
  refine congrArg (V c main_v40) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem featBlk_apply (c : Dev nD) (t : Fin cfg0.N) (p : Fin 2000) (k : Fin 128) :
    (layerBlk V c 1 t : Vec Ideal S2000x128 .f32) (ix2 p k) = V c main_arg0 (ix2 (rowOf t p) k) := by
  obtain ⟨-, -, e0, e1, -⟩ := layer_idx t
  show V c main_arg0 (((cfg0.win 1).blk t).view.emb (ix2 p k)) = _
  refine congrArg (V c main_arg0) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

theorem degBlk_apply (c : Dev nD) (t : Fin cfg0.N) (p : Fin 2000) :
    (layerBlk V c 2 t : Vec Ideal S2000x1 .f32) (ix2 p (0 : Fin 1)) = V c main_v12 (ix2 (rowOf t p) (0 : Fin 1)) := by
  obtain ⟨-, -, -, -, e0, e1, -⟩ := layer_idx t
  show V c main_v12 (((cfg0.win 2).blk t).view.emb (ix2 p (0 : Fin 1))) = _
  refine congrArg (V c main_v12) (funext fun a => Fin.ext ?_)
  match a with
  | ⟨0, _⟩ => show win0_2.index t (0 : Fin 2) * 2000 + 1 * p.val = t.val * 2000 + p.val; omega
  | ⟨1, _⟩ => show win0_2.index t (1 : Fin 2) * 1 + 1 * 0 = 0; omega

theorem biasBlk_apply (c : Dev nD) (t : Fin cfg0.N) (k : Fin 256) :
    (layerBlk V c 3 t : Vec Ideal S1x256 .f32) (ix2 (0 : Fin 1) k) = V c main_v41 (ix2 (0 : Fin 1) k) := by
  obtain ⟨-, -, -, -, -, -, e0, e1, -⟩ := layer_idx t
  show V c main_v41 (((cfg0.win 3).blk t).view.emb (ix2 (0 : Fin 1) k)) = _
  refine congrArg (V c main_v41) (funext fun a => Fin.ext ?_)
  match a with
  | ⟨0, _⟩ => show win0_3.index t (0 : Fin 2) * 1 + 1 * 0 = 0; omega
  | ⟨1, _⟩ => show win0_3.index t (1 : Fin 2) * 256 + 1 * k.val = k.val; omega

theorem scaleBlk_apply (c : Dev nD) (t : Fin cfg0.N) (k : Fin 256) :
    (layerBlk V c 4 t : Vec Ideal S1x256 .f32) (ix2 (0 : Fin 1) k) = V c main_v42 (ix2 (0 : Fin 1) k) := by
  obtain ⟨-, -, -, -, -, -, -, -, e0, e1, -⟩ := layer_idx t
  show V c main_v42 (((cfg0.win 4).blk t).view.emb (ix2 (0 : Fin 1) k)) = _
  refine congrArg (V c main_v42) (funext fun a => Fin.ext ?_)
  match a with
  | ⟨0, _⟩ => show win0_4.index t (0 : Fin 2) * 1 + 1 * 0 = 0; omega
  | ⟨1, _⟩ => show win0_4.index t (1 : Fin 2) * 256 + 1 * k.val = k.val; omega

theorem shiftBlk_apply (c : Dev nD) (t : Fin cfg0.N) (k : Fin 256) :
    (layerBlk V c 5 t : Vec Ideal S1x256 .f32) (ix2 (0 : Fin 1) k) = V c main_v43 (ix2 (0 : Fin 1) k) := by
  obtain ⟨-, -, -, -, -, -, -, -, -, -, e0, e1, -⟩ := layer_idx t
  show V c main_v43 (((cfg0.win 5).blk t).view.emb (ix2 (0 : Fin 1) k)) = _
  refine congrArg (V c main_v43) (funext fun a => Fin.ext ?_)
  match a with
  | ⟨0, _⟩ => show win0_5.index t (0 : Fin 2) * 1 + 1 * 0 = 0; omega
  | ⟨1, _⟩ => show win0_5.index t (1 : Fin 2) * 256 + 1 * k.val = k.val; omega

theorem meanBlk_apply (c : Dev nD) (t : Fin cfg0.N) (k : Fin 256) :
    (layerBlk V c 6 t : Vec Ideal S1x256 .f32) (ix2 (0 : Fin 1) k) = V c main_v44 (ix2 (0 : Fin 1) k) := by
  obtain ⟨-, -, -, -, -, -, -, -, -, -, -, -, e0, e1, -⟩ := layer_idx t
  show V c main_v44 (((cfg0.win 6).blk t).view.emb (ix2 (0 : Fin 1) k)) = _
  refine congrArg (V c main_v44) (funext fun a => Fin.ext ?_)
  match a with
  | ⟨0, _⟩ => show win0_6.index t (0 : Fin 2) * 1 + 1 * 0 = 0; omega
  | ⟨1, _⟩ => show win0_6.index t (1 : Fin 2) * 256 + 1 * k.val = k.val; omega

theorem varBlk_apply (c : Dev nD) (t : Fin cfg0.N) (k : Fin 256) :
    (layerBlk V c 7 t : Vec Ideal S1x256 .f32) (ix2 (0 : Fin 1) k) = V c main_v45 (ix2 (0 : Fin 1) k) := by
  obtain ⟨-, -, -, -, -, -, -, -, -, -, -, -, -, -, e0, e1, -⟩ := layer_idx t
  show V c main_v45 (((cfg0.win 7).blk t).view.emb (ix2 (0 : Fin 1) k)) = _
  refine congrArg (V c main_v45) (funext fun a => Fin.ext ?_)
  match a with
  | ⟨0, _⟩ => show win0_7.index t (0 : Fin 2) * 1 + 1 * 0 = 0; omega
  | ⟨1, _⟩ => show win0_7.index t (1 : Fin 2) * 256 + 1 * k.val = k.val; omega

theorem w1Blk_apply (c : Dev nD) (t : Fin cfg0.N) (k' : Fin 128) (k : Fin 256) :
    (layerBlk V c 8 t : Vec Ideal S128x256 .f32) (ix2 k' k) = V c main_arg2 (ix2 k' k) := by
  obtain ⟨-, -, -, -, -, -, -, -, -, -, -, -, -, -, -, -, e0, e1, -⟩ := layer_idx t
  show V c main_arg2 (((cfg0.win 8).blk t).view.emb (ix2 k' k)) = _
  refine congrArg (V c main_arg2) (funext fun a => Fin.ext ?_)
  match a with
  | ⟨0, _⟩ => show win0_8.index t (0 : Fin 2) * 128 + 1 * k'.val = k'.val; omega
  | ⟨1, _⟩ => show win0_8.index t (1 : Fin 2) * 256 + 1 * k.val = k.val; omega

theorem w2Blk_apply (c : Dev nD) (t : Fin cfg0.N) (k : Fin 256) (q : Fin 128) :
    (layerBlk V c 9 t : Vec Ideal S256x128 .f32) (ix2 k q) = V c main_arg4 (ix2 k q) := by
  obtain ⟨-, -, -, -, -, -, -, -, -, -, -, -, -, -, -, -, -, -, e0, e1, -⟩ := layer_idx t
  show V c main_arg4 (((cfg0.win 9).blk t).view.emb (ix2 k q)) = _
  refine congrArg (V c main_arg4) (funext fun a => Fin.ext ?_)
  match a with
  | ⟨0, _⟩ => show win0_9.index t (0 : Fin 2) * 256 + 1 * k.val = k.val; omega
  | ⟨1, _⟩ => show win0_9.index t (1 : Fin 2) * 128 + 1 * q.val = q.val; omega

/-- Entry (p, q) of point `t`'s output block sits at node 2000·t + p, column q, of the result array. -/
theorem outBlk_emb (t : Fin cfg0.N) (p : Fin 2000) (q : Fin 128) :
    ((cfg0.win 10).blk t).view.emb (ix2 p q) = ix2 (rowOf t p) q := by
  obtain ⟨-, -, -, -, -, -, -, -, -, -, -, -, -, -, -, -, -, -, -, -, e0, e1⟩ := layer_idx t
  refine funext fun a => Fin.ext ?_
  match a with
  | ⟨0, _⟩ => show win0_10.index t (0 : Fin 2) * 2000 + 1 * p.val = t.val * 2000 + p.val; omega
  | ⟨1, _⟩ => show win0_10.index t (1 : Fin 2) * 128 + 1 * q.val = q.val; omega

/-- WHAT POINT `t` WRITES BACK is block `t` of `layerArr` of the arrays as the region finds them. -/
theorem layer_flushed (c : Dev nD) (t : Fin cfg0.N) :
    (layerDat V c).flushed 10 t = ((cfg0.win 10).blk t).view.read (Elt Ideal)
      (layerArr (V c main_v40) (V c main_arg0) (V c main_v12) (V c main_v41) (V c main_v42) (V c main_v43) (V c main_v44) (V c main_v45)
        (V c main_arg2) (V c main_arg4)) := by
  show (cfg0.win 10).cut (grid0.coords t) ((layerDat V c).after 10 t) = _
  rw [layerAfter10]
  unfold layerOut
  rw [View.canon_unit_zero zeroOff]
  simp only [View.ld_unit_zero (S := S2000x128) zeroOff, View.ld_unit_zero (S := S2000x1) zeroOff, View.ld_unit_zero (S := S1x256) zeroOff,
    View.ld_unit_zero (S := S128x256) zeroOff, View.ld_unit_zero (S := S256x128) zeroOff]
  funext j
  obtain ⟨p, q, rfl⟩ : ∃ (p : Fin 2000) (q : Fin 128), j = ix2 p q := ⟨j 0, j 1, eq_ix2 j⟩
  show k0_pay1 (F := Ideal) (k0_pay2 (F := Ideal) (layerBlk V c 0 t) (layerBlk V c 2 t) (layerBlk V c 1 t) (layerBlk V c 8 t) (layerBlk V c 3 t)
      (layerBlk V c 7 t) (layerBlk V c 6 t) (layerBlk V c 4 t) (layerBlk V c 5 t)) (layerBlk V c 9 t) (ix2 p q)
    = layerArr (V c main_v40) (V c main_arg0) (V c main_v12) (V c main_v41) (V c main_v42) (V c main_v43) (V c main_v44) (V c main_v45)
        (V c main_arg2) (V c main_arg4) (((cfg0.win 10).blk t).view.emb (ix2 p q))
  refine (block_apply (layerBlk V c 0 t) (layerBlk V c 2 t) (layerBlk V c 1 t) (layerBlk V c 8 t) (layerBlk V c 3 t)
      (layerBlk V c 7 t) (layerBlk V c 6 t) (layerBlk V c 4 t) (layerBlk V c 5 t) (layerBlk V c 9 t) p q).trans ?_
  refine Eq.trans ?_ (congrArg (layerArr (V c main_v40) (V c main_arg0) (V c main_v12) (V c main_v41) (V c main_v42) (V c main_v43) (V c main_v44)
      (V c main_v45) (V c main_arg2) (V c main_arg4)) (outBlk_emb t p q).symm)
  show _ = ∑ k : Fin 256, hiddenRow (V c main_v40) (V c main_arg0) (V c main_v12) (V c main_arg2) (V c main_v41) (V c main_v42) (V c main_v43)
      (V c main_v44) (V c main_v45) (rowOf t p) k * V c main_arg4 (ix2 k q)
  refine Finset.sum_congr rfl fun k _ => ?_
  unfold hidden preLin hiddenRow
  simp only [aggBlk_apply V c t, featBlk_apply V c t, degBlk_apply V c t, biasBlk_apply V c t, scaleBlk_apply V c t, shiftBlk_apply V c t,
    meanBlk_apply V c t, varBlk_apply V c t, w1Blk_apply V c t, w2Blk_apply V c t]

/-- An index of the result array is in point `t`'s block iff each coordinate is in the block's range on its axis. -/
theorem layer_mem (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v46).slice (win0_10.rect t)).set ↔ _
  rw [View.set_slice_whole, Rect.mem_set_unit]
  exact Iff.rfl

/-- Every node's row lies in the block of point (node / 2000), and every point writes back. -/
theorem layer_cover (i : S50000x128.Idx) :
    ∃ t : Fin cfg0.N, (cfg0.win 10).flush t = true ∧ i ∈ ((cfg0.win 10).blk t).view.set := by
  have hi0 : (i 0).val < 50000 := idx2_lt0 i
  have hi1 : (i 1).val < 128 := idx2_lt1 i
  have hN : cfg0.N = 25 := N_0
  refine ⟨⟨(i 0).val / 2000, by omega⟩, flush0_10 _, ?_⟩
  rw [layer_mem]
  obtain ⟨-, -, -, -, -, -, -, -, -, -, -, -, -, -, -, -, -, -, -, -, e0, e1⟩ := layer_idx ⟨(i 0).val / 2000, by omega⟩
  intro a
  match a with
  | ⟨0, _⟩ =>
    show win0_10.index ⟨(i 0).val / 2000, _⟩ (0 : Fin 2) * 2000 ≤ (i 0).val ∧ (i 0).val < win0_10.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_10.index ⟨(i 0).val / 2000, _⟩ (1 : Fin 2) * 128 ≤ (i 1).val ∧ (i 1).val < win0_10.index ⟨(i 0).val / 2000, _⟩ (1 : Fin 2) * 128 + 128
    rw [e1]; omega

/-- THE RESULT ARRAY after the region: `layerArr` of the arrays as the region finds them. -/
theorem layer_final (c : Dev nD) :
    (layerDat V c).arrAt 10 cfg0.N = layerArr (V c main_v40) (V c main_arg0) (V c main_v12) (V c main_v41) (V c main_v42) (V c main_v43)
      (V c main_v44) (V c main_v45) (V c main_arg2) (V c main_arg4) :=
  (layerDat V c).arrAt_eq_of_cover 10 _ (fun t _ => layer_flushed V c t) layer_cover

end Cert.KernelIdeal.LayerVal

end
-- ==== Proof.HostReads.lean ====
/-
  The kernel program's host operations read back: what each buffer a kernel region stages holds
  once the host operations before the region have run, as one term of the program's arguments.
  The index arrays and the normalisation coefficients are functions of the edge list alone and
  are named, so that the later stretches and the reference can refer to them.
-/
import proofs.«171423_j6648609374284_2_alg».proof.Proof.Gen.KernelIdeal.Launch
import Idealize.ShloMosaic.Lib.StableHlo.Run
import Idealize.ShloMosaic.Lib.ValueIdx
import Idealize.ShloMosaic.Lib.Pipeline.Value

noncomputable section

namespace Cert.KernelIdeal.HostVal

open Cert.KernelIdeal Cert.KernelIdeal.Gen Idealize.ShloMosaic Idealize.ShloMosaic.TcCoe Idealize.SL.Sem
open Idealize.ShloMosaic.StableHlo

variable {F : FTy → Type} [FloatOps F]

/-! ## The chains that depend on the edge list alone -/

/-- The source node of every edge: row 0 of the edge list. -/
def srcFlat (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000

/-- The target node of every edge: row 1 of the edge list. -/
def dstFlat (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- A flat index array with 50000 added to its negative entries, as a column: the start indices a
    gather is handed. -/
def wrapCol (v : (⟨S600000, .i32⟩ : BufTy).Contents (Elt F)) : (⟨S600000x1, .i32⟩ : BufTy).Contents (Elt F) :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

/-- The wrapped source indices, a column. -/
def srcIdx (ei : (⟨S2x600000, .i32⟩ : BufTy).Contents (Elt F)) : (⟨S600000x1, .i32⟩ : BufTy).Contents (Elt F) :=
  wrapCol (F := F) (srcFlat (F := F) ei)

/-- The wrapped target indices, a column. -/
def dstIdxWrapped (ei : (⟨S2x600000, .i32⟩ : BufTy).Contents (Elt F)) : (⟨S600000x1, .i32⟩ : BufTy).Contents (Elt F) :=
  wrapCol (F := F) (dstFlat (F := F) ei)

/-- The target indices as they are, a column: the scatter indices of every segment sum. -/
def dstIdxRaw (ei : (⟨S2x600000, .i32⟩ : BufTy).Contents (Elt F)) : (⟨S600000x1, .i32⟩ : BufTy).Contents (Elt F) :=
  broadcastInDim S600000x1 ![0] bcast_S600000_S600000x1_0 (dstFlat (F := F) ei)

/-- The degree of every node: the number of edges that land on it, plus one. -/
def deg (ei : (⟨S2x600000, .i32⟩ : BufTy).Contents (Elt F)) : (⟨S50000, .f32⟩ : BufTy).Contents (Elt F) :=
  addf (Host.scatterAdd scatter_S50000_S600000x1_S600000_n_0_0_1
      (broadcastInDim S50000 ![] bcast_S_S50000 (constant (F := F) S_ .f32 0x00000000#32))
      (dstIdxRaw (F := F) ei)
      (broadcastInDim S600000 ![] bcast_S_S600000 (constant (F := F) S_ .f32 0x3F800000#32)))
    (broadcastInDim S50000 ![] bcast_S_S50000 (constant (F := F) S_ .f32 0x3F800000#32))

/-- The reciprocal square root of the degree. -/
def dinv (ei : (⟨S2x600000, .i32⟩ : BufTy).Contents (Elt F)) : (⟨S50000, .f32⟩ : BufTy).Contents (Elt F) :=
  Host.rsqrt (deg (F := F) ei)

/-- The self-loop coefficient of every node. -/
def dinv2 (ei : (⟨S2x600000, .i32⟩ : BufTy).Contents (Elt F)) : (⟨S50000, .f32⟩ : BufTy).Contents (Elt F) :=
  mulf (dinv (F := F) ei) (dinv (F := F) ei)

/-- The self-loop coefficients as a column. -/
def dinv2Col (ei : (⟨S2x600000, .i32⟩ : BufTy).Contents (Elt F)) : (⟨S50000x1, .f32⟩ : BufTy).Contents (Elt F) :=
  shapeCast S50000x1 (dinv2 (F := F) ei) shapeCasts_S50000_S50000x1

/-- The coefficient of every edge. -/
def norm (ei : (⟨S2x600000, .i32⟩ : BufTy).Contents (Elt F)) : (⟨S600000, .f32⟩ : BufTy).Contents (Elt F) :=
  mulf (Host.gather gather_S50000_S600000x1_S600000_n_0_n_n_0_1_1 (dinv (F := F) ei) (srcIdx (F := F) ei))
    (Host.gather gather_S50000_S600000x1_S600000_n_0_n_n_0_1_1 (dinv (F := F) ei) (dstIdxWrapped (F := F) ei))

/-- The edge coefficients as a column. -/
def normCol (ei : (⟨S2x600000, .i32⟩ : BufTy).Contents (Elt F)) : (⟨S600000x1, .f32⟩ : BufTy).Contents (Elt F) :=
  shapeCast S600000x1 (norm (F := F) ei) shapeCasts_S600000_S600000x1

/-- The aggregation of a 128-wide feature matrix over the edges, given the wrapped source indices,
    the raw target indices and the column of edge coefficients. -/
def aggregate (src dst : (⟨S600000x1, .i32⟩ : BufTy).Contents (Elt F)) (nc : (⟨S600000x1, .f32⟩ : BufTy).Contents (Elt F))
    (x : (⟨S50000x128, .f32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant (F := F) S_ .f32 0x00000000#32))
    dst
    (mulf (Host.gather gather_S50000x128_S600000x1_S600000x128_1_0_n_n_0_1_1128 x src)
      (broadcastInDim S600000x128 ![0, 1] bcast_S600000x1_S600000x128_0_1 nc))

/-- The aggregated node features the first kernel region stages. -/
def aggx (x : (⟨S50000x128, .f32⟩ : BufTy).Contents (Elt F)) (ei : (⟨S2x600000, .i32⟩ : BufTy).Contents (Elt F)) :
    (⟨S50000x128, .f32⟩ : BufTy).Contents (Elt F) :=
  aggregate (F := F) (srcIdx (F := F) ei) (dstIdxRaw (F := F) ei) (normCol (F := F) ei) x

/-! ## Which array each window stages -/

theorem arrRef0_0 : Pipeline.arrRef spec0 0 = main_v40 := rfl
theorem arrRef0_1 : Pipeline.arrRef spec0 1 = main_arg0 := rfl
theorem arrRef0_2 : Pipeline.arrRef spec0 2 = main_v12 := rfl
theorem arrRef0_3 : Pipeline.arrRef spec0 3 = main_v41 := rfl
theorem arrRef0_4 : Pipeline.arrRef spec0 4 = main_v42 := rfl
theorem arrRef0_5 : Pipeline.arrRef spec0 5 = main_v43 := rfl
theorem arrRef0_6 : Pipeline.arrRef spec0 6 = main_v44 := rfl
theorem arrRef0_7 : Pipeline.arrRef spec0 7 = main_v45 := rfl
theorem arrRef0_8 : Pipeline.arrRef spec0 8 = main_arg2 := rfl
theorem arrRef0_9 : Pipeline.arrRef spec0 9 = main_arg4 := rfl
theorem arrRef0_10 : Pipeline.arrRef spec0 10 = main_v46 := rfl
theorem arrRef1_0 : Pipeline.arrRef spec1 0 = main_v58 := rfl
theorem arrRef1_1 : Pipeline.arrRef spec1 1 = main_v46 := rfl
theorem arrRef1_2 : Pipeline.arrRef spec1 2 = main_v12 := rfl
theorem arrRef1_3 : Pipeline.arrRef spec1 3 = main_v59 := rfl
theorem arrRef1_4 : Pipeline.arrRef spec1 4 = main_v60 := rfl
theorem arrRef1_5 : Pipeline.arrRef spec1 5 = main_v61 := rfl
theorem arrRef1_6 : Pipeline.arrRef spec1 6 = main_v62 := rfl
theorem arrRef1_7 : Pipeline.arrRef spec1 7 = main_v63 := rfl
theorem arrRef1_8 : Pipeline.arrRef spec1 8 = main_v64 := rfl

variable (W : Valuation τ sig (Elt F))

/-! ## After the first stretch of host operations -/

set_option maxRecDepth 8192 in
theorem after0_main_v40 :
    (after hostOps0 W (Proc.devRef .tc main_v40) : (⟨S50000x128, .f32⟩ : BufTy).Contents (Elt F))
      = aggx (F := F) (W (Proc.devRef .tc main_arg0)) (W (Proc.devRef .tc main_arg1)) := by
  after_results_simp <;> rfl

set_option maxRecDepth 8192 in
theorem after0_main_v12 :
    (after hostOps0 W (Proc.devRef .tc main_v12) : (⟨S50000x1, .f32⟩ : BufTy).Contents (Elt F))
      = dinv2Col (F := F) (W (Proc.devRef .tc main_arg1)) := by
  after_results_simp <;> rfl

set_option maxRecDepth 8192 in
theorem after0_main_v1 :
    (after hostOps0 W (Proc.devRef .tc main_v1) : (⟨S600000, .i32⟩ : BufTy).Contents (Elt F))
      = srcFlat (F := F) (W (Proc.devRef .tc main_arg1)) := by
  after_results_simp <;> rfl

set_option maxRecDepth 8192 in
theorem after0_main_v3 :
    (after hostOps0 W (Proc.devRef .tc main_v3) : (⟨S600000, .i32⟩ : BufTy).Contents (Elt F))
      = dstFlat (F := F) (W (Proc.devRef .tc main_arg1)) := by
  after_results_simp <;> rfl

set_option maxRecDepth 8192 in
theorem after0_main_v28 :
    (after hostOps0 W (Proc.devRef .tc main_v28) : (⟨S600000x1, .f32⟩ : BufTy).Contents (Elt F))
      = normCol (F := F) (W (Proc.devRef .tc main_arg1)) := by
  after_results_simp <;> rfl

set_option maxRecDepth 8192 in
theorem after0_main_v41 :
    (after hostOps0 W (Proc.devRef .tc main_v41) : (⟨S1x256, .f32⟩ : BufTy).Contents (Elt F))
      = shapeCast S1x256 (W (Proc.devRef .tc main_arg3) : (⟨S256, .f32⟩ : BufTy).Contents (Elt F)) shapeCasts_S256_S1x256 := by
  after_results_simp <;> rfl

set_option maxRecDepth 8192 in
theorem after0_main_v42 :
    (after hostOps0 W (Proc.devRef .tc main_v42) : (⟨S1x256, .f32⟩ : BufTy).Contents (Elt F))
      = shapeCast S1x256 (W (Proc.devRef .tc main_arg8) : (⟨S256, .f32⟩ : BufTy).Contents (Elt F)) shapeCasts_S256_S1x256 := by
  after_results_simp <;> rfl

set_option maxRecDepth 8192 in
theorem after0_main_v43 :
    (after hostOps0 W (Proc.devRef .tc main_v43) : (⟨S1x256, .f32⟩ : BufTy).Contents (Elt F))
      = shapeCast S1x256 (W (Proc.devRef .tc main_arg9) : (⟨S256, .f32⟩ : BufTy).Contents (Elt F)) shapeCasts_S256_S1x256 := by
  after_results_simp <;> rfl

set_option maxRecDepth 8192 in
theorem after0_main_v44 :
    (after hostOps0 W (Proc.devRef .tc main_v44) : (⟨S1x256, .f32⟩ : BufTy).Contents (Elt F))
      = shapeCast S1x256 (W (Proc.devRef .tc main_arg10) : (⟨S256, .f32⟩ : BufTy).Contents (Elt F)) shapeCasts_S256_S1x256 := by
  after_results_simp <;> rfl

set_option maxRecDepth 8192 in
theorem after0_main_v45 :
    (after hostOps0 W (Proc.devRef .tc main_v45) : (⟨S1x256, .f32⟩ : BufTy).Contents (Elt F))
      = shapeCast S1x256 (W (Proc.devRef .tc main_arg11) : (⟨S256, .f32⟩ : BufTy).Contents (Elt F)) shapeCasts_S256_S1x256 := by
  after_results_simp <;> rfl

set_option maxRecDepth 8192 in
theorem after0_main_arg0 : after hostOps0 W (Proc.devRef .tc main_arg0) = W (Proc.devRef .tc main_arg0) := by
  after_results_simp <;> rfl
set_option maxRecDepth 8192 in
theorem after0_main_arg2 : after hostOps0 W (Proc.devRef .tc main_arg2) = W (Proc.devRef .tc main_arg2) := by
  after_results_simp <;> rfl
set_option maxRecDepth 8192 in
theorem after0_main_arg4 : after hostOps0 W (Proc.devRef .tc main_arg4) = W (Proc.devRef .tc main_arg4) := by
  after_results_simp <;> rfl

/-! ## After the second stretch -/

set_option maxRecDepth 8192 in
theorem after1_main_v58 :
    (after hostOps1 W (Proc.devRef .tc main_v58) : (⟨S50000x128, .f32⟩ : BufTy).Contents (Elt F))
      = aggregate (F := F) (wrapCol (F := F) (W (Proc.devRef .tc main_v1)))
          (broadcastInDim S600000x1 ![0] bcast_S600000_S600000x1_0 (W (Proc.devRef .tc main_v3) : (⟨S600000, .i32⟩ : BufTy).Contents (Elt F)))
          (W (Proc.devRef .tc main_v28)) (W (Proc.devRef .tc main_v46)) := by
  after_results_simp <;> rfl

/-- The second aggregation with the index and coefficient arrays the first stretch left. -/
theorem after1_main_v58_of (ei : (⟨S2x600000, .i32⟩ : BufTy).Contents (Elt F))
    (h1 : (W (Proc.devRef .tc main_v1) : (⟨S600000, .i32⟩ : BufTy).Contents (Elt F)) = srcFlat (F := F) ei)
    (h3 : (W (Proc.devRef .tc main_v3) : (⟨S600000, .i32⟩ : BufTy).Contents (Elt F)) = dstFlat (F := F) ei)
    (h28 : (W (Proc.devRef .tc main_v28) : (⟨S600000x1, .f32⟩ : BufTy).Contents (Elt F)) = normCol (F := F) ei) :
    (after hostOps1 W (Proc.devRef .tc main_v58) : (⟨S50000x128, .f32⟩ : BufTy).Contents (Elt F))
      = aggregate (F := F) (srcIdx (F := F) ei) (dstIdxRaw (F := F) ei) (normCol (F := F) ei) (W (Proc.devRef .tc main_v46)) := by
  rw [after1_main_v58, h1, h3, h28]
  rfl

set_option maxRecDepth 8192 in
theorem after1_main_v59 :
    (after hostOps1 W (Proc.devRef .tc main_v59) : (⟨S1x128, .f32⟩ : BufTy).Contents (Elt F))
      = shapeCast S1x128 (W (Proc.devRef .tc main_arg5) : (⟨S128, .f32⟩ : BufTy).Contents (Elt F)) shapeCasts_S128_S1x128 := by
  after_results_simp <;> rfl
set_option maxRecDepth 8192 in
theorem after1_main_v60 :
    (after hostOps1 W (Proc.devRef .tc main_v60) : (⟨S1x128, .f32⟩ : BufTy).Contents (Elt F))
      = shapeCast S1x128 (W (Proc.devRef .tc main_arg12) : (⟨S128, .f32⟩ : BufTy).Contents (Elt F)) shapeCasts_S128_S1x128 := by
  after_results_simp <;> rfl
set_option maxRecDepth 8192 in
theorem after1_main_v61 :
    (after hostOps1 W (Proc.devRef .tc main_v61) : (⟨S1x128, .f32⟩ : BufTy).Contents (Elt F))
      = shapeCast S1x128 (W (Proc.devRef .tc main_arg13) : (⟨S128, .f32⟩ : BufTy).Contents (Elt F)) shapeCasts_S128_S1x128 := by
  after_results_simp <;> rfl
set_option maxRecDepth 8192 in
theorem after1_main_v62 :
    (after hostOps1 W (Proc.devRef .tc main_v62) : (⟨S1x128, .f32⟩ : BufTy).Contents (Elt F))
      = shapeCast S1x128 (W (Proc.devRef .tc main_arg14) : (⟨S128, .f32⟩ : BufTy).Contents (Elt F)) shapeCasts_S128_S1x128 := by
  after_results_simp <;> rfl
set_option maxRecDepth 8192 in
theorem after1_main_v63 :
    (after hostOps1 W (Proc.devRef .tc main_v63) : (⟨S1x128, .f32⟩ : BufTy).Contents (Elt F))
      = shapeCast S1x128 (W (Proc.devRef .tc main_arg15) : (⟨S128, .f32⟩ : BufTy).Contents (Elt F)) shapeCasts_S128_S1x128 := by
  after_results_simp <;> rfl
set_option maxRecDepth 8192 in
theorem after1_main_v46 : after hostOps1 W (Proc.devRef .tc main_v46) = W (Proc.devRef .tc main_v46) := by
  after_results_simp <;> rfl
set_option maxRecDepth 8192 in
theorem after1_main_v12 : after hostOps1 W (Proc.devRef .tc main_v12) = W (Proc.devRef .tc main_v12) := by
  after_results_simp <;> rfl

/-! ## After the last stretch -/

theorem after2_main_v69 :
    (after hostOps2 W (Proc.devRef .tc main_v69) : (⟨S128x128, .f32⟩ : BufTy).Contents (Elt F))
      = addf
          (shapeCast S128x128 (extractStridedSlice S1x128x128 ![0, 0, 0]
            (W (Proc.devRef .tc main_v64) : (⟨S2x128x128, .f32⟩ : BufTy).Contents (Elt F)) slices_S2x128x128_S1x128x128_0_0_0)
            shapeCasts_S1x128x128_S128x128)
          (shapeCast S128x128 (extractStridedSlice S1x128x128 ![1, 0, 0]
            (W (Proc.devRef .tc main_v64) : (⟨S2x128x128, .f32⟩ : BufTy).Contents (Elt F)) slices_S2x128x128_S1x128x128_1_0_0)
            shapeCasts_S1x128x128_S128x128) := by
  after_results_simp <;> rfl

/-! ## Read at an index -/

open Idealize.ShloMosaic.ValueIdx

/-- The result at the ideal instance: the two partial sums added, element by element. -/
theorem after2_main_v69_apply (W : Valuation τ sig (Elt Ideal)) (v64 : FVec Ideal S2x128x128 .f32)
    (hv : (W (Proc.devRef .tc main_v64) : (⟨S2x128x128, .f32⟩ : BufTy).Contents (Elt Ideal)) = v64) (a b : Fin 128) :
    (after hostOps2 W (Proc.devRef .tc main_v69) : (⟨S128x128, .f32⟩ : BufTy).Contents (Elt Ideal)) (ix2 a b)
      = v64 (ix3 (0 : Fin 2) a b) + v64 (ix3 (1 : Fin 2) a b) := by
  rw [after2_main_v69, hv]
  show shapeCast S128x128 _ _ (ix2 a b) + shapeCast S128x128 _ _ (ix2 a b) = _
  rw [shapeCast_apply _ shapeCasts_S1x128x128_S128x128 (ix2 a b) (ix3 (0 : Fin 1) a b)
      (by rw [Shape.rowMajor_val_three, Shape.rowMajor_val_two]; show (0 * 128 + a.val) * 128 + b.val = a.val * 128 + b.val; omega),
    shapeCast_apply _ shapeCasts_S1x128x128_S128x128 (ix2 a b) (ix3 (0 : Fin 1) a b)
      (by rw [Shape.rowMajor_val_three, Shape.rowMajor_val_two]; show (0 * 128 + a.val) * 128 + b.val = a.val * 128 + b.val; omega),
    extractStridedSlice_apply ![0, 0, 0] _ slices_S2x128x128_S1x128x128_0_0_0 (ix3 (0 : Fin 1) a b) (ix3 (0 : Fin 2) a b)
      (fun d => match d with
        | ⟨0, _⟩ => by show (0 : Nat) = 0 + 0; rfl
        | ⟨1, _⟩ => by show a.val = 0 + a.val; omega
        | ⟨2, _⟩ => by show b.val = 0 + b.val; omega),
    extractStridedSlice_apply ![1, 0, 0] _ slices_S2x128x128_S1x128x128_1_0_0 (ix3 (0 : Fin 1) a b) (ix3 (1 : Fin 2) a b)
      (fun d => match d with
        | ⟨0, _⟩ => by show (1 : Nat) = 1 + 0; rfl
        | ⟨1, _⟩ => by show a.val = 0 + a.val; omega
        | ⟨2, _⟩ => by show b.val = 0 + b.val; omega)]

/-- A row vector made of a flat one, read at an index. -/
theorem row256_apply {α : Type} (v : (⟨1, ![256]⟩ : Shape).Idx → α) (j : Fin 256) :
    shapeCast S1x256 v shapeCasts_S256_S1x256 (ix2 (0 : Fin 1) j) = v (ix1 j) := by
  exact shapeCast_apply v shapeCasts_S256_S1x256 (ix2 (0 : Fin 1) j) (ix1 j)
    (by rw [Shape.rowMajor_val_one, Shape.rowMajor_val_two]; show j.val = 0 * 256 + j.val; omega)

theorem row128_apply {α : Type} (v : (⟨1, ![128]⟩ : Shape).Idx → α) (j : Fin 128) :
    shapeCast S1x128 v shapeCasts_S128_S1x128 (ix2 (0 : Fin 1) j) = v (ix1 j) := by
  exact shapeCast_apply v shapeCasts_S128_S1x128 (ix2 (0 : Fin 1) j) (ix1 j)
    (by rw [Shape.rowMajor_val_one, Shape.rowMajor_val_two]; show j.val = 0 * 128 + j.val; omega)

/-- The column of self-loop coefficients read at a node. -/
theorem dinv2Col_apply (ei : (⟨S2x600000, .i32⟩ : BufTy).Contents (Elt F)) (i : Fin 50000) :
    dinv2Col (F := F) ei (ix2 i (0 : Fin 1)) = dinv2 (F := F) ei (ix1 i) := by
  exact shapeCast_apply _ shapeCasts_S50000_S50000x1 (ix2 i (0 : Fin 1)) (ix1 i)
    (by rw [Shape.rowMajor_val_one, Shape.rowMajor_val_two]; show i.val = i.val * 1 + 0; omega)

/-- The column of edge coefficients read at an edge. -/
theorem normCol_apply (ei : (⟨S2x600000, .i32⟩ : BufTy).Contents (Elt F)) (e : Fin 600000) :
    normCol (F := F) ei (ix2 e (0 : Fin 1)) = norm (F := F) ei (ix1 e) := by
  exact shapeCast_apply _ shapeCasts_S600000_S600000x1 (ix2 e (0 : Fin 1)) (ix1 e)
    (by rw [Shape.rowMajor_val_one, Shape.rowMajor_val_two]; show e.val = e.val * 1 + 0; omega)

end Cert.KernelIdeal.HostVal

end
-- ==== Proof.Boundary.lean ====
/-
  WHAT THE BOUNDARIES OF THE RUN HOLD, in terms of the argument arrays, at the ideal instance.
  With x the node features, ei the edge list, and the weights and batch-normalisation rows as launched:
    * region 0 is entered with the aggregate of x over the edges, x itself, the squared inverse degree as a column, the
      five layer-1 parameter rows and the two weight matrices; it leaves its result array at `layerArr` of those;
    * the second stretch of host operations re-reads the edge columns and the edge weights the first stretch left
      (region 0 changes none of them) and aggregates region 0's result over the edges; region 1 is entered with that
      aggregate, region 0's result, the degree column and the five layer-2 parameter rows;
    * region 1 leaves its 2 × 128 × 128 result array at what its two flushing points wrote;
    * the last stretch adds the two 128 × 128 halves.
-/
import proofs.«171423_j6648609374284_2_alg».proof.Proof.MainRun
import proofs.«171423_j6648609374284_2_alg».proof.Proof.LayerArray
import proofs.«171423_j6648609374284_2_alg».proof.Proof.HostReads

set_option maxRecDepth 16384

noncomputable section

namespace Cert.KernelIdeal.Hand

open Cert.KernelIdeal Cert.KernelIdeal.Gen Cert.KernelIdeal.HostVal Cert.KernelIdeal.LayerVal
open Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-- The edge list as launched. -/
abbrev edges : (⟨S2x600000, .i32⟩ : BufTy).Contents (Elt Ideal) := m ((c : Thread nD τ).loc main_arg1)
/-- The node features as launched. -/
abbrev feats : (⟨S50000x128, .f32⟩ : BufTy).Contents (Elt Ideal) := m ((c : Thread nD τ).loc main_arg0)

/-! ## Region 0's entry -/

theorem entry0_agg : (E1 m c main_v40 : (⟨S50000x128, .f32⟩ : BufTy).Contents (Elt Ideal)) = aggx (F := Ideal) (feats m c) (edges m c) :=
  after0_main_v40 (B0 m c)
theorem entry0_deg : (E1 m c main_v12 : (⟨S50000x1, .f32⟩ : BufTy).Contents (Elt Ideal)) = dinv2Col (F := Ideal) (edges m c) :=
  after0_main_v12 (B0 m c)
theorem entry0_feats : (E1 m c main_arg0 : (⟨S50000x128, .f32⟩ : BufTy).Contents (Elt Ideal)) = feats m c :=
  after0_main_arg0 (B0 m c)
theorem entry0_w1 : (E1 m c main_arg2 : (⟨S128x256, .f32⟩ : BufTy).Contents (Elt Ideal)) = m ((c : Thread nD τ).loc main_arg2) :=
  after0_main_arg2 (B0 m c)
theorem entry0_w2 : (E1 m c main_arg4 : (⟨S256x128, .f32⟩ : BufTy).Contents (Elt Ideal)) = m ((c : Thread nD τ).loc main_arg4) :=
  after0_main_arg4 (B0 m c)
theorem entry0_b : (E1 m c main_v41 : (⟨S1x256, .f32⟩ : BufTy).Contents (Elt Ideal))
    = shapeCast S1x256 (m ((c : Thread nD τ).loc main_arg3) : (⟨S256, .f32⟩ : BufTy).Contents (Elt Ideal)) shapeCasts_S256_S1x256 :=
  after0_main_v41 (B0 m c)
theorem entry0_g : (E1 m c main_v42 : (⟨S1x256, .f32⟩ : BufTy).Contents (Elt Ideal))
    = shapeCast S1x256 (m ((c : Thread nD τ).loc main_arg8) : (⟨S256, .f32⟩ : BufTy).Contents (Elt Ideal)) shapeCasts_S256_S1x256 :=
  after0_main_v42 (B0 m c)
theorem entry0_be : (E1 m c main_v43 : (⟨S1x256, .f32⟩ : BufTy).Contents (Elt Ideal))
    = shapeCast S1x256 (m ((c : Thread nD τ).loc main_arg9) : (⟨S256, .f32⟩ : BufTy).Contents (Elt Ideal)) shapeCasts_S256_S1x256 :=
  after0_main_v43 (B0 m c)
theorem entry0_mu : (E1 m c main_v44 : (⟨S1x256, .f32⟩ : BufTy).Contents (Elt Ideal))
    = shapeCast S1x256 (m ((c : Thread nD τ).loc main_arg10) : (⟨S256, .f32⟩ : BufTy).Contents (Elt Ideal)) shapeCasts_S256_S1x256 :=
  after0_main_v44 (B0 m c)
theorem entry0_var : (E1 m c main_v45 : (⟨S1x256, .f32⟩ : BufTy).Contents (Elt Ideal))
    = shapeCast S1x256 (m ((c : Thread nD τ).loc main_arg11) : (⟨S256, .f32⟩ : BufTy).Contents (Elt Ideal)) shapeCasts_S256_S1x256 :=
  after0_main_v45 (B0 m c)

/-! ## Region 0's exit -/

/-- The first layer's result array, as a function of the arguments. -/
def hidden2 : S50000x128.Idx → EReal :=
  layerArr (aggx (F := Ideal) (feats m c) (edges m c)) (feats m c) (dinv2Col (F := Ideal) (edges m c))
    (shapeCast S1x256 (m ((c : Thread nD τ).loc main_arg3) : (⟨S256, .f32⟩ : BufTy).Contents (Elt Ideal)) shapeCasts_S256_S1x256)
    (shapeCast S1x256 (m ((c : Thread nD τ).loc main_arg8) : (⟨S256, .f32⟩ : BufTy).Contents (Elt Ideal)) shapeCasts_S256_S1x256)
    (shapeCast S1x256 (m ((c : Thread nD τ).loc main_arg9) : (⟨S256, .f32⟩ : BufTy).Contents (Elt Ideal)) shapeCasts_S256_S1x256)
    (shapeCast S1x256 (m ((c : Thread nD τ).loc main_arg10) : (⟨S256, .f32⟩ : BufTy).Contents (Elt Ideal)) shapeCasts_S256_S1x256)
    (shapeCast S1x256 (m ((c : Thread nD τ).loc main_arg11) : (⟨S256, .f32⟩ : BufTy).Contents (Elt Ideal)) shapeCasts_S256_S1x256)
    (m ((c : Thread nD τ).loc main_arg2)) (m ((c : Thread nD τ).loc main_arg4))

theorem exit0_result : (B2 m c (Proc.devRef .tc main_v46) : (⟨S50000x128, .f32⟩ : BufTy).Contents (Elt Ideal)) = hidden2 m c := by
  refine (B2_arr m c 10).trans ((layer_final (E1 m) c).trans ?_)
  unfold hidden2
  rw [entry0_agg, entry0_feats, entry0_deg, entry0_b, entry0_g, entry0_be, entry0_mu, entry0_var, entry0_w1, entry0_w2]

/-! ## Region 1's entry -/

theorem entry1_agg : (E3 m c main_v58 : (⟨S50000x128, .f32⟩ : BufTy).Contents (Elt Ideal))
    = aggregate (F := Ideal) (srcIdx (F := Ideal) (edges m c)) (dstIdxRaw (F := Ideal) (edges m c)) (normCol (F := Ideal) (edges m c)) (hidden2 m c) := by
  refine (after1_main_v58_of (B2 m c) (edges m c) ?_ ?_ ?_).trans ?_
  · exact (B2_of_ne m c main_v1 (by decide)).trans (after0_main_v1 (B0 m c))
  · exact (B2_of_ne m c main_v3 (by decide)).trans (after0_main_v3 (B0 m c))
  · exact (B2_of_ne m c main_v28 (by decide)).trans (after0_main_v28 (B0 m c))
  · rw [exit0_result]
theorem entry1_hidden : (E3 m c main_v46 : (⟨S50000x128, .f32⟩ : BufTy).Contents (Elt Ideal)) = hidden2 m c :=
  (after1_main_v46 (B2 m c)).trans (exit0_result m c)
theorem entry1_deg : (E3 m c main_v12 : (⟨S50000x1, .f32⟩ : BufTy).Contents (Elt Ideal)) = dinv2Col (F := Ideal) (edges m c) :=
  (after1_main_v12 (B2 m c)).trans ((B2_in m c 2 rfl).trans (entry0_deg m c))
theorem entry1_b : (E3 m c main_v59 : (⟨S1x128, .f32⟩ : BufTy).Contents (Elt Ideal))
    = shapeCast S1x128 (m ((c : Thread nD τ).loc main_arg5) : (⟨S128, .f32⟩ : BufTy).Contents (Elt Ideal)) shapeCasts_S128_S1x128 := by
  refine (after1_main_v59 (B2 m c)).trans ?_
  rw [show (B2 m c (Proc.devRef .tc main_arg5) : (⟨S128, .f32⟩ : BufTy).Contents (Elt Ideal)) = m ((c : Thread nD τ).loc main_arg5) from
    (B2_of_ne m c main_arg5 (by decide)).trans (after_of_writes_sub hostOps0 _ hostOps0_writes (by decide))]
theorem entry1_g : (E3 m c main_v60 : (⟨S1x128, .f32⟩ : BufTy).Contents (Elt Ideal))
    = shapeCast S1x128 (m ((c : Thread nD τ).loc main_arg12) : (⟨S128, .f32⟩ : BufTy).Contents (Elt Ideal)) shapeCasts_S128_S1x128 := by
  refine (after1_main_v60 (B2 m c)).trans ?_
  rw [show (B2 m c (Proc.devRef .tc main_arg12) : (⟨S128, .f32⟩ : BufTy).Contents (Elt Ideal)) = m ((c : Thread nD τ).loc main_arg12) from
    (B2_of_ne m c main_arg12 (by decide)).trans (after_of_writes_sub hostOps0 _ hostOps0_writes (by decide))]
theorem entry1_be : (E3 m c main_v61 : (⟨S1x128, .f32⟩ : BufTy).Contents (Elt Ideal))
    = shapeCast S1x128 (m ((c : Thread nD τ).loc main_arg13) : (⟨S128, .f32⟩ : BufTy).Contents (Elt Ideal)) shapeCasts_S128_S1x128 := by
  refine (after1_main_v61 (B2 m c)).trans ?_
  rw [show (B2 m c (Proc.devRef .tc main_arg13) : (⟨S128, .f32⟩ : BufTy).Contents (Elt Ideal)) = m ((c : Thread nD τ).loc main_arg13) from
    (B2_of_ne m c main_arg13 (by decide)).trans (after_of_writes_sub hostOps0 _ hostOps0_writes (by decide))]
theorem entry1_mu : (E3 m c main_v62 : (⟨S1x128, .f32⟩ : BufTy).Contents (Elt Ideal))
    = shapeCast S1x128 (m ((c : Thread nD τ).loc main_arg14) : (⟨S128, .f32⟩ : BufTy).Contents (Elt Ideal)) shapeCasts_S128_S1x128 := by
  refine (after1_main_v62 (B2 m c)).trans ?_
  rw [show (B2 m c (Proc.devRef .tc main_arg14) : (⟨S128, .f32⟩ : BufTy).Contents (Elt Ideal)) = m ((c : Thread nD τ).loc main_arg14) from
    (B2_of_ne m c main_arg14 (by decide)).trans (after_of_writes_sub hostOps0 _ hostOps0_writes (by decide))]
theorem entry1_var : (E3 m c main_v63 : (⟨S1x128, .f32⟩ : BufTy).Contents (Elt Ideal))
    = shapeCast S1x128 (m ((c : Thread nD τ).loc main_arg15) : (⟨S128, .f32⟩ : BufTy).Contents (Elt Ideal)) shapeCasts_S128_S1x128 := by
  refine (after1_main_v63 (B2 m c)).trans ?_
  rw [show (B2 m c (Proc.devRef .tc main_arg15) : (⟨S128, .f32⟩ : BufTy).Contents (Elt Ideal)) = m ((c : Thread nD τ).loc main_arg15) from
    (B2_of_ne m c main_arg15 (by decide)).trans (after_of_writes_sub hostOps0 _ hostOps0_writes (by decide))]

/-! ## Region 1's exit and the result -/

theorem exit1_result : (B4 m c (Proc.devRef .tc main_v64) : (⟨S2x128x128, .f32⟩ : BufTy).Contents (Elt Ideal)) = (dat1 (E3 m) c).arrAt 8 cfg1.N :=
  B4_arr m c 8

/-- The program's result at (a, b): the two halves region 1 left, added. The array region 1 leaves is named by
    hypothesis so that the sum is taken on a plain array of extended reals. -/
theorem result_apply (v64 : FVec Ideal S2x128x128 .f32) (hv : (dat1 (E3 m) c).arrAt 8 cfg1.N = v64) (a b : Fin 128) :
    (B5 m c (Proc.devRef .tc main_v69) : (⟨S128x128, .f32⟩ : BufTy).Contents (Elt Ideal)) (ix2 a b)
      = v64 (ix3 (0 : Fin 2) a b) + v64 (ix3 (1 : Fin 2) a b) :=
  after2_main_v69_apply (B4 m c) v64 ((exit1_result m c).trans hv) a b

end Cert.KernelIdeal.Hand

end
-- ==== Proof.GcnSpec.lean ====
/-
  THE SPECIFICATION: the two-layer graph convolution and the Gram matrix of its output, index by index over the
  extended reals, as functions of the node features, the weights, and — given, not computed here — the edge
  structure: for every node `i` the finite set `Es i` of edges that land on it, for every edge its source node
  `src e` and its weight `nrm e`, and for every node its self-loop weight `d2 i`.

    lin x W        : x W                                        (a matrix product, as a sum over the contracted axis)
    spread h       : (spread h) i j = 0 + Σ_{e ∈ Es i} h (src e) j · nrm e         (messages summed at their target)
    conv h b       : (spread h + d2 · h) + b                     (one graph convolution after its linear map)
    act u          : σ((max u 0 − mean) · rsqrt(var + ε) · γ + β)   (relu, batch normalisation at inference, sigmoid)
    gram y         : (gram y) a b = Σ_n y n a · y n b

  The network is  y₁ = act(conv (lin x W₁) b₁),  y₂ = act(conv (lin y₁ W₂) b₂),  result = gram y₂.
  Every operation is the exact one on the extended reals; ε is kept as the float word both programs carry and is never
  evaluated. The two programs differ from this text in ARRANGEMENT only: the kernel aggregates the node features before
  the first linear map (linearity of `lin` through `spread`, which needs finite operands), multiplies block by block,
  and sums the Gram matrix in two halves.
-/
import Idealize.ShloMosaic.PureOps.Ideal

noncomputable section

namespace Cert.Proof.Gcn

open Idealize.ShloMosaic

/-- The batch normalisation's ε: the float word 1e-3 both programs carry. -/
def eps : EReal := Ideal.ofBits .f32 0x3A83126F#32

/-- `x W` at row `i`, column `j`. -/
def lin {N K M : Nat} (x : Fin N → Fin K → EReal) (W : Fin K → Fin M → EReal) (i : Fin N) (j : Fin M) : EReal :=
  ∑ k : Fin K, x i k * W k j

/-- The messages that land on node `i`, summed: each edge `e` of `Es i` brings its source's row, weighted. -/
def spread {N E M : Nat} (Es : Fin N → Finset (Fin E)) (src : Fin E → Fin N) (nrm : Fin E → EReal)
    (h : Fin N → Fin M → EReal) (i : Fin N) (j : Fin M) : EReal :=
  0 + ∑ e ∈ Es i, h (src e) j * nrm e

/-- One graph convolution on already-transformed features `h`: neighbours, self loop, bias. -/
def conv {N E M : Nat} (Es : Fin N → Finset (Fin E)) (src : Fin E → Fin N) (nrm : Fin E → EReal) (d2 : Fin N → EReal)
    (h : Fin N → Fin M → EReal) (b : Fin M → EReal) (i : Fin N) (j : Fin M) : EReal :=
  (spread Es src nrm h i j + d2 i * h i j) + b j

/-- relu, batch normalisation with running statistics, sigmoid — on one entry. -/
def act (u mean var gamma beta : EReal) : EReal :=
  Ideal.logistic ((max u 0 - mean) * Ideal.rsqrt (var + eps) * gamma + beta)

/-- A layer's output: the activation of the convolution, column-wise parameters. -/
def layer {N E M : Nat} (Es : Fin N → Finset (Fin E)) (src : Fin E → Fin N) (nrm : Fin E → EReal) (d2 : Fin N → EReal)
    (h : Fin N → Fin M → EReal) (b g be mu var : Fin M → EReal) (i : Fin N) (j : Fin M) : EReal :=
  act (conv Es src nrm d2 h b i j) (mu j) (var j) (g j) (be j)

/-- `yᵀ y`. -/
def gram {N M : Nat} (y : Fin N → Fin M → EReal) (a b : Fin M) : EReal :=
  ∑ n : Fin N, y n a * y n b

/-- The whole network's result. -/
def net {N E K H M : Nat} (Es : Fin N → Finset (Fin E)) (src : Fin E → Fin N) (nrm : Fin E → EReal) (d2 : Fin N → EReal)
    (x : Fin N → Fin K → EReal) (W1 : Fin K → Fin H → EReal) (b1 g1 be1 mu1 var1 : Fin H → EReal)
    (W2 : Fin H → Fin M → EReal) (b2 g2 be2 mu2 var2 : Fin M → EReal) (a b : Fin M) : EReal :=
  gram (layer Es src nrm d2 (lin (layer Es src nrm d2 (lin x W1) b1 g1 be1 mu1 var1) W2) b2 g2 be2 mu2 var2) a b

end Cert.Proof.Gcn

end
-- ==== Proof.FinalValue.lean ====
/-
  THE SECOND CALL'S VALUE over the extended reals.
  A grid point hands the body 1000 rows of the aggregate, of the transformed features and of the self-loop column, and
  the five parameter rows whole. The body forms, entry by entry,
      y r j = σ((max (agg r j + d r · h r j + b j) 0 − μ j) · rsqrt(v j + ε) · γ j + β j),
  and adds yᵀ y to a 128 × 128 accumulator. The accumulator starts from zero at the first of a core's 25 points and is
  copied out at the last, so a core's output block is the sum over its 25 000 rows of y n a · y n b, and the two
  blocks together are the Gram matrix of all 50 000 rows.
  Changes of float format are the identity here, and a matrix product into a zero accumulator is the plain sum over the
  contracted axis.
-/
import proofs.«171423_j6648609374284_2_alg».proof.Proof.FinalRegion
import proofs.«171423_j6648609374284_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.FinalVal

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Proof

/-! ## The product yᵀ y as a sum over the rows -/

abbrev dotG := dot_S1000x128_S1000x128_S128x128_0_0_1_1_n_n

theorem dotG_lhs0 (i : S128x128.Idx) (q : dotG.contr.Idx) : (dotG.lhsIdx i q 0).val = (q ⟨0, by decide⟩).val :=
  dotG.lhsIdx_val_of_single rfl i q
theorem dotG_lhs1 (i : S128x128.Idx) (q : dotG.contr.Idx) : (dotG.lhsIdx i q 1).val = (i 0).val := by
  unfold DotDims.lhsIdx
  rw [dif_neg (show ¬(1 : Fin S1000x128.rank) ∈ dotG.lhsBatch by decide),
    dif_pos (show (1 : Fin S1000x128.rank) ∈ dotG.lhsNonContracting by decide)]
  rfl
theorem dotG_rhs0 (i : S128x128.Idx) (q : dotG.contr.Idx) : (dotG.rhsIdx i q 0).val = (q ⟨0, by decide⟩).val :=
  dotG.rhsIdx_val_of_single rfl i q
theorem dotG_rhs1 (i : S128x128.Idx) (q : dotG.contr.Idx) : (dotG.rhsIdx i q 1).val = (i 1).val := by
  unfold DotDims.rhsIdx
  rw [dif_neg (show ¬(1 : Fin S1000x128.rank) ∈ dotG.rhsBatch by decide),
    dif_pos (show (1 : Fin S1000x128.rank) ∈ dotG.rhsNonContracting by decide)]
  rfl

/-- Both operands are contracted on their rows: (1000 × 128)ᵀ(1000 × 128), into zeros. -/
theorem mmG_apply {φ₁ φ₂ : FTy} (l : FVec Ideal S1000x128 φ₁) (r : FVec Ideal S1000x128 φ₂) (a b : Fin 128) :
    matmul dotG none l r (constant S128x128 .f32 0x00000000#32) (ix2 a b) = ∑ k : Fin 1000, l (ix2 k a) * r (ix2 k b) := by
  refine (Ideal.matmul_constant_zero_apply dotG none l r (ix2 a b)).trans ?_
  rw [← Equiv.sum_comp (ValueIdx.contrEquiv1 dotG 1000 rfl rfl).symm]
  refine Finset.sum_congr rfl fun k _ => ?_
  have hk := ValueIdx.contrEquiv1_symm_val dotG 1000 rfl rfl k
  have el : dotG.lhsIdx (ix2 a b) ((ValueIdx.contrEquiv1 dotG 1000 rfl rfl).symm k) = ix2 k a := funext fun d => Fin.ext (by
    match d with
    | ⟨0, _⟩ => exact (dotG_lhs0 _ _).trans hk
    | ⟨1, _⟩ => exact dotG_lhs1 _ _)
  have er : dotG.rhsIdx (ix2 a b) ((ValueIdx.contrEquiv1 dotG 1000 rfl rfl).symm k) = ix2 k b := funext fun d => Fin.ext (by
    match d with
    | ⟨0, _⟩ => exact (dotG_rhs0 _ _).trans hk
    | ⟨1, _⟩ => exact dotG_rhs1 _ _)
  rw [el, er]

/-! ## The re-layings -/

/-- The 1000 × 1 column repeated across 128 columns reads, at (r, j), the column's entry in row r. -/
theorem colAcross_apply (v : S1000x1.Idx → EReal) (r : Fin 1000) (j : Fin 128) :
    broadcastTo S1000x128 v broadcasts_S1000x1_S1000x128 (ix2 r j) = v (ix2 r (0 : Fin 1)) := by
  refine broadcastTo_apply v broadcasts_S1000x1_S1000x128 (ix2 r j) (ix2 r (0 : Fin 1)) fun ax => ?_
  match ax with
  | ⟨0, _⟩ => rfl
  | ⟨1, _⟩ => rfl

/-- A 1 × 128 row repeated down 1000 rows reads, at (r, j), the row's entry in column j. -/
theorem rowDown_apply (v : S1x128.Idx → EReal) (r : Fin 1000) (j : Fin 128) :
    broadcastTo S1000x128 v broadcasts_S1x128_S1000x128 (ix2 r j) = v (ix2 (0 : Fin 1) j) :=
  broadcastTo_1b_ab_apply v broadcasts_S1x128_S1000x128 r j

/-! ## The payloads at an entry -/

/-- The layer's output at row r, column j of a block, from the eight input blocks. -/
def yBlk (agg h : S1000x128.Idx → EReal) (d : S1000x1.Idx → EReal) (b g be mu var : S1x128.Idx → EReal)
    (r : Fin 1000) (j : Fin 128) : EReal :=
  Gcn.act (agg (ix2 r j) + d (ix2 r (0 : Fin 1)) * h (ix2 r j) + b (ix2 (0 : Fin 1) j))
    (mu (ix2 (0 : Fin 1) j)) (var (ix2 (0 : Fin 1) j)) (g (ix2 (0 : Fin 1) j)) (be (ix2 (0 : Fin 1) j))

/-- The part's payload is the activation's argument; the sigmoid is applied by the function's own payload. Its eight
    operands come in the order the part loads them (aggregate, self-loop column, features, bias, variance, mean, scale,
    shift). -/
theorem part_logistic_apply (agg : Vec Ideal S1000x128 .f32) (d : Vec Ideal S1000x1 .f32) (h : Vec Ideal S1000x128 .f32)
    (b var mu g be : Vec Ideal S1x128 .f32) (r : Fin 1000) (j : Fin 128) :
    logistic (k1_pay4 (F := Ideal) agg d h b var mu g be) (ix2 r j) = yBlk agg h d b g be mu var r j := by
  unfold k1_pay4 yBlk Gcn.act Gcn.eps
  simp only [logistic, addf, mulf, subf, maximumf, rsqrt, broadcast, Ideal.logistic_def, Ideal.addf_def, Ideal.mulf_def,
    Ideal.subf_def, Ideal.maximumf_def, Ideal.rsqrt_def, Ideal.ofBits_def, Ideal.ofBits_zero_f32,
    shapeCast_self, rowDown_apply, colAcross_apply]

/-- One point's step at (a, b): what the accumulator held, plus the sum over the block's rows of y r a · y r b. -/
theorem gramStep_apply (x0 x1 : Vec Ideal S1000x128 .f32) (x2 : Vec Ideal S1000x1 .f32) (x3 x4 x5 x6 x7 : Vec Ideal S1x128 .f32)
    (prev : Vec Ideal S128x128 .f32) (a b : Fin 128) :
    gramStep (F := Ideal) x0 x1 x2 x3 x4 x5 x6 x7 prev (ix2 a b)
      = prev (ix2 a b) + ∑ r : Fin 1000, yBlk x0 x1 x2 x3 x4 x5 x6 x7 r a * yBlk x0 x1 x2 x3 x4 x5 x6 x7 r b := by
  unfold gramStep k1_pay1
  simp only [shapeCast_self, addf_apply, mmG_apply, truncf_apply, part_logistic_apply]

/-- The accumulator once zeroed reads zero. -/
theorem zeroAcc_apply (i : S128x128.Idx) : zeroAcc (F := Ideal) i = 0 := by
  unfold zeroAcc k1_pay3
  simp only [shapeCast_self, broadcast]
  exact Ideal.ofBits_zero_f32

/-- The copy to the output block: a leading axis of one row. -/
theorem outBlk_apply (acc : Vec Ideal S128x128 .f32) (a b : Fin 128) :
    k1_pay2 (F := Ideal) acc (ix3 (0 : Fin 1) a b) = acc (ix2 a b) := by
  unfold k1_pay2
  refine (shapeCast_addUnit_apply (n := 2) ![128, 128] acc shapeCasts_S128x128_S1x128x128 (ix3 (0 : Fin 1) a b)).trans ?_
  exact congrArg acc (funext fun d => by match d with | ⟨0, _⟩ => rfl | ⟨1, _⟩ => rfl)

/-! ## The accumulator, point by point -/

variable (V : (c : Dev nD) → (b : Ref sig .tc) → Buf (Elt Ideal) ((c : Thread nD τ).loc b))

/-- The layer's output on the rows of the blocks at point `t`. -/
def yAt (c : Dev nD) (t : Fin cfg1.N) (r : Fin 1000) (j : Fin 128) : EReal :=
  yBlk (iblk1 V c 0 t) (iblk1 V c 1 t) (iblk1 V c 2 t) (iblk1 V c 3 t) (iblk1 V c 4 t) (iblk1 V c 5 t) (iblk1 V c 6 t)
    (iblk1 V c 7 t) r j

/-- What the point at position `n` adds to the accumulator at (a, b); nothing past the grid. -/
def addend (c : Dev nD) (n : ℕ) (a b : Fin 128) : EReal :=
  if h : n < cfg1.N then ∑ r : Fin 1000, yAt V c ⟨n, h⟩ r a * yAt V c ⟨n, h⟩ r b else 0

theorem stepAt_apply (c : Dev nD) (t : Fin cfg1.N) (prev : Vec Ideal S128x128 .f32) (a b : Fin 128) :
    stepAt V c t prev (ix2 a b) = prev (ix2 a b) + addend V c t.val a b := by
  unfold stepAt addend
  rw [dif_pos t.isLt, gramStep_apply]
  rfl

/-- After position `n` the accumulator holds the addends of its row of the grid so far. -/
theorem accAt_apply (c : Dev nD) : ∀ (n : ℕ) (hn : n < cfg1.N) (a b : Fin 128),
    accAt V c n hn (ix2 a b) = ∑ m ∈ Finset.Ico (n - n % 25) (n + 1), addend V c m a b
  | 0, hn, a, b => by
    show stepAt V c ⟨0, hn⟩ zeroAcc (ix2 a b) = _
    rw [stepAt_apply, zeroAcc_apply, zero_add]
    show addend V c 0 a b = ∑ m ∈ Finset.Ico 0 (0 + 1), addend V c m a b
    rw [Finset.sum_Ico_succ_top (le_refl 0), Finset.Ico_self, Finset.sum_empty, zero_add]
  | n + 1, hn, a, b => by
    show (if (n + 1) % 25 = 0 then stepAt V c ⟨n + 1, hn⟩ zeroAcc
      else stepAt V c ⟨n + 1, hn⟩ (accAt V c n (Nat.lt_of_succ_lt hn))) (ix2 a b) = _
    by_cases h : (n + 1) % 25 = 0
    · rw [if_pos h, stepAt_apply, zeroAcc_apply, zero_add, h, Nat.sub_zero,
        Finset.sum_Ico_succ_top (le_refl (n + 1)), Finset.Ico_self, Finset.sum_empty, zero_add]
    · rw [if_neg h, stepAt_apply, accAt_apply c n _ a b]
      have e : n + 1 - (n + 1) % 25 = n - n % 25 := by omega
      rw [e, Finset.sum_Ico_succ_top (by omega : n - n % 25 ≤ n + 1)]

/-- At the last point of a row of the grid: the 25 addends of the row. -/
theorem accAt_last (c : Dev nD) (t : Fin cfg1.N) (h : t.val % 25 = 24) (a b : Fin 128) :
    accAt V c t.val t.isLt (ix2 a b)
      = ∑ m ∈ Finset.Ico (25 * (t.val / 25)) (25 * (t.val / 25) + 25), addend V c m a b := by
  rw [accAt_apply]
  have e1 : t.val - t.val % 25 = 25 * (t.val / 25) := by omega
  have e2 : t.val + 1 = 25 * (t.val / 25) + 25 := by omega
  rw [e1, e2]

/-! ## From the blocks to the output array -/

/-- The output array after the run: block `k` holds the sum of the addends of row `k` of the grid. -/
def gramArr (c : Dev nD) : S2x128x128.Idx → EReal := fun idx =>
  ∑ m ∈ Finset.Ico (25 * (idx 0).val) (25 * (idx 0).val + 25),
    addend V c m ⟨(idx 1).val, (idx 1).isLt⟩ ⟨(idx 2).val, (idx 2).isLt⟩

theorem gramArr_apply (c : Dev nD) (k : Fin 2) (a b : Fin 128) :
    gramArr V c (ix3 k a b) = ∑ m ∈ Finset.Ico (25 * k.val) (25 * k.val + 25), addend V c m a b := rfl

/-- The output window's block index, decided over the grid: the row of the grid. -/
theorem out_idx : ∀ t : Fin cfg1.N, win1_8.index t (0 : Fin 3) = t.val / 25 ∧ win1_8.index t (1 : Fin 3) = 0
    ∧ win1_8.index t (2 : Fin 3) = 0 :=
  (by decide +kernel : ∀ t : Fin grid1.N, _)

/-- WHAT A FLUSHING POINT WRITES BACK is its block of `gramArr`. -/
theorem flushed8_eq (c : Dev nD) (t : Fin cfg1.N) (hf : (cfg1.win 8).flush t = true) :
    (dat1 V c).flushed 8 t = ((cfg1.win 8).blk t).view.read (Elt Ideal) (gramArr V c) := by
  show (cfg1.win 8).cut (grid1.coords t) ((dat1 V c).after 8 t) = _
  rw [after1_8]
  have h24 := (flush1_8 t).mp hf
  have hN : t.val < 50 := lt_of_lt_of_eq t.isLt (show cfg1.N = 50 from N_1)
  obtain ⟨e0, e1, e2⟩ := out_idx t
  funext j
  obtain ⟨z, a, b, rfl⟩ : ∃ (z : Fin 1) (a b : Fin 128), j = (ix3 z a b : S1x128x128.Idx) :=
    ⟨j 0, j 1, j 2, eq_ix3 (n0 := 1) (n1 := 128) (n2 := 128) j⟩
  obtain rfl : z = 0 := Subsingleton.elim _ _
  have hemb : ((cfg1.win 8).blk t).view.emb (ix3 (0 : Fin 1) a b)
      = (ix3 (⟨t.val / 25, by omega⟩ : Fin 2) a b : S2x128x128.Idx) := by
    funext d; apply Fin.ext
    match d with
    | ⟨0, _⟩ => show win1_8.index t (0 : Fin 3) * 1 + 1 * 0 = t.val / 25; omega
    | ⟨1, _⟩ => show win1_8.index t (1 : Fin 3) * 128 + 1 * a.val = a.val; omega
    | ⟨2, _⟩ => show win1_8.index t (2 : Fin 3) * 128 + 1 * b.val = b.val; omega
  show k1_pay2 (accAt V c t.val t.isLt) (ix3 (0 : Fin 1) a b) = gramArr V c (((cfg1.win 8).blk t).view.emb (ix3 (0 : Fin 1) a b))
  rw [hemb, gramArr_apply, outBlk_apply, accAt_last V c t h24]

/-- An index of the output array is in point `t`'s block iff each coordinate is in the block's range on its axis. -/
theorem mem_blk8 (t : Fin cfg1.N) (i : S2x128x128.Idx) :
    i ∈ ((cfg1.win 8).blk t).view.set ↔ ∀ a : Fin 3, win1_8.index t a * S1x128x128.size a ≤ (i a).val
      ∧ (i a).val < win1_8.index t a * S1x128x128.size a + S1x128x128.size a := by
  show i ∈ ((View.whole main_v64).slice (win1_8.rect t)).set ↔ _
  rw [View.set_slice_whole, Rect.mem_set_unit]
  exact Iff.rfl

/-- The two flushed blocks tile the output array: block `k` is written back at the last point of row `k`. -/
theorem cover8 (i : S2x128x128.Idx) :
    ∃ t : Fin cfg1.N, (cfg1.win 8).flush t = true ∧ i ∈ ((cfg1.win 8).blk t).view.set := by
  have hi0 : (i 0).val < 2 := (i 0).isLt
  have hi1 : (i 1).val < 128 := (i 1).isLt
  have hi2 : (i 2).val < 128 := (i 2).isLt
  have hN : cfg1.N = 50 := N_1
  have hN' : grid1.N = 50 := N_1
  refine ⟨⟨25 * (i 0).val + 24, by omega⟩, (flush1_8 _).mpr (by show (25 * (i 0).val + 24) % 25 = 24; omega), ?_⟩
  obtain ⟨e0, e1, e2⟩ := out_idx ⟨25 * (i 0).val + 24, by omega⟩
  have e0' : win1_8.index ⟨25 * (i 0).val + 24, by omega⟩ (0 : Fin 3) = (25 * (i 0).val + 24) / 25 := e0
  rw [mem_blk8]
  intro a
  match a with
  | ⟨0, _⟩ =>
    show win1_8.index _ (0 : Fin 3) * 1 ≤ (i 0).val ∧ (i 0).val < win1_8.index _ (0 : Fin 3) * 1 + 1
    omega
  | ⟨1, _⟩ =>
    show win1_8.index _ (1 : Fin 3) * 128 ≤ (i 1).val ∧ (i 1).val < win1_8.index _ (1 : Fin 3) * 128 + 128
    omega
  | ⟨2, _⟩ =>
    show win1_8.index _ (2 : Fin 3) * 128 ≤ (i 2).val ∧ (i 2).val < win1_8.index _ (2 : Fin 3) * 128 + 128
    omega

/-- THE OUTPUT ARRAY after the run. -/
theorem arr8_eq (c : Dev nD) : (dat1 V c).arrAt 8 cfg1.N = gramArr V c :=
  (dat1 V c).arrAt_eq_of_cover 8 (gramArr V c) (flushed8_eq V c) cover8

/-! ## The blocks' entries as the whole arrays' rows -/

/-- The input windows' block indices, decided over the grid: the three row-blocked inputs move with the point, the
    five parameter rows stay. -/
theorem in_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row `r` of the blocks at point `t` is row `1000 t + r` of the arrays. -/
def rowOf (t : Fin cfg1.N) (r : Fin 1000) : Fin 50000 :=
  ⟨1000 * t.val + r.val, by have := t.isLt; have hN : cfg1.N = 50 := N_1; have := r.isLt; omega⟩

theorem iblk0_apply (c : Dev nD) (t : Fin cfg1.N) (r : Fin 1000) (j : Fin 128) :
    iblk1 V c 0 t (ix2 r j) = V c main_v58 (ix2 (rowOf t r) j) := by
  obtain ⟨e0, e1, -⟩ := in_idx t
  show V c main_v58 (((cfg1.win 0).blk t).view.emb (ix2 r j)) = _
  refine congrArg (V c main_v58) (funext fun d => Fin.ext ?_)
  match d with
  | ⟨0, _⟩ => show win1_0.index t (0 : Fin 2) * 1000 + 1 * r.val = 1000 * t.val + r.val; omega
  | ⟨1, _⟩ => show win1_0.index t (1 : Fin 2) * 128 + 1 * j.val = j.val; omega

theorem iblk1_apply (c : Dev nD) (t : Fin cfg1.N) (r : Fin 1000) (j : Fin 128) :
    iblk1 V c 1 t (ix2 r j) = V c main_v46 (ix2 (rowOf t r) j) := by
  obtain ⟨-, -, e0, e1, -⟩ := in_idx t
  show V c main_v46 (((cfg1.win 1).blk t).view.emb (ix2 r j)) = _
  refine congrArg (V c main_v46) (funext fun d => Fin.ext ?_)
  match d with
  | ⟨0, _⟩ => show win1_1.index t (0 : Fin 2) * 1000 + 1 * r.val = 1000 * t.val + r.val; omega
  | ⟨1, _⟩ => show win1_1.index t (1 : Fin 2) * 128 + 1 * j.val = j.val; omega

theorem iblk2_apply (c : Dev nD) (t : Fin cfg1.N) (r : Fin 1000) :
    iblk1 V c 2 t (ix2 r (0 : Fin 1)) = V c main_v12 (ix2 (rowOf t r) (0 : Fin 1)) := by
  obtain ⟨-, -, -, -, e0, e1, -⟩ := in_idx t
  show V c main_v12 (((cfg1.win 2).blk t).view.emb (ix2 r (0 : Fin 1))) = _
  refine congrArg (V c main_v12) (funext fun d => Fin.ext ?_)
  match d with
  | ⟨0, _⟩ => show win1_2.index t (0 : Fin 2) * 1000 + 1 * r.val = 1000 * t.val + r.val; omega
  | ⟨1, _⟩ => show win1_2.index t (1 : Fin 2) * 1 + 1 * 0 = 0; omega

theorem iblk3_apply (c : Dev nD) (t : Fin cfg1.N) (j : Fin 128) :
    iblk1 V c 3 t (ix2 (0 : Fin 1) j) = V c main_v59 (ix2 (0 : Fin 1) j) := by
  obtain ⟨-, -, -, -, -, -, e0, e1, -⟩ := in_idx t
  show V c main_v59 (((cfg1.win 3).blk t).view.emb (ix2 (0 : Fin 1) j)) = _
  refine congrArg (V c main_v59) (funext fun d => Fin.ext ?_)
  match d with
  | ⟨0, _⟩ => show win1_3.index t (0 : Fin 2) * 1 + 1 * 0 = 0; omega
  | ⟨1, _⟩ => show win1_3.index t (1 : Fin 2) * 128 + 1 * j.val = j.val; omega

theorem iblk4_apply (c : Dev nD) (t : Fin cfg1.N) (j : Fin 128) :
    iblk1 V c 4 t (ix2 (0 : Fin 1) j) = V c main_v60 (ix2 (0 : Fin 1) j) := by
  obtain ⟨-, -, -, -, -, -, -, -, e0, e1, -⟩ := in_idx t
  show V c main_v60 (((cfg1.win 4).blk t).view.emb (ix2 (0 : Fin 1) j)) = _
  refine congrArg (V c main_v60) (funext fun d => Fin.ext ?_)
  match d with
  | ⟨0, _⟩ => show win1_4.index t (0 : Fin 2) * 1 + 1 * 0 = 0; omega
  | ⟨1, _⟩ => show win1_4.index t (1 : Fin 2) * 128 + 1 * j.val = j.val; omega

theorem iblk5_apply (c : Dev nD) (t : Fin cfg1.N) (j : Fin 128) :
    iblk1 V c 5 t (ix2 (0 : Fin 1) j) = V c main_v61 (ix2 (0 : Fin 1) j) := by
  obtain ⟨-, -, -, -, -, -, -, -, -, -, e0, e1, -⟩ := in_idx t
  show V c main_v61 (((cfg1.win 5).blk t).view.emb (ix2 (0 : Fin 1) j)) = _
  refine congrArg (V c main_v61) (funext fun d => Fin.ext ?_)
  match d with
  | ⟨0, _⟩ => show win1_5.index t (0 : Fin 2) * 1 + 1 * 0 = 0; omega
  | ⟨1, _⟩ => show win1_5.index t (1 : Fin 2) * 128 + 1 * j.val = j.val; omega

theorem iblk6_apply (c : Dev nD) (t : Fin cfg1.N) (j : Fin 128) :
    iblk1 V c 6 t (ix2 (0 : Fin 1) j) = V c main_v62 (ix2 (0 : Fin 1) j) := by
  obtain ⟨-, -, -, -, -, -, -, -, -, -, -, -, e0, e1, -⟩ := in_idx t
  show V c main_v62 (((cfg1.win 6).blk t).view.emb (ix2 (0 : Fin 1) j)) = _
  refine congrArg (V c main_v62) (funext fun d => Fin.ext ?_)
  match d with
  | ⟨0, _⟩ => show win1_6.index t (0 : Fin 2) * 1 + 1 * 0 = 0; omega
  | ⟨1, _⟩ => show win1_6.index t (1 : Fin 2) * 128 + 1 * j.val = j.val; omega

theorem iblk7_apply (c : Dev nD) (t : Fin cfg1.N) (j : Fin 128) :
    iblk1 V c 7 t (ix2 (0 : Fin 1) j) = V c main_v63 (ix2 (0 : Fin 1) j) := by
  obtain ⟨-, -, -, -, -, -, -, -, -, -, -, -, -, -, e0, e1⟩ := in_idx t
  show V c main_v63 (((cfg1.win 7).blk t).view.emb (ix2 (0 : Fin 1) j)) = _
  refine congrArg (V c main_v63) (funext fun d => Fin.ext ?_)
  match d with
  | ⟨0, _⟩ => show win1_7.index t (0 : Fin 2) * 1 + 1 * 0 = 0; omega
  | ⟨1, _⟩ => show win1_7.index t (1 : Fin 2) * 128 + 1 * j.val = j.val; omega

/-- The layer's output at node `n`, column `j`, from the whole arrays the call reads: the aggregate, the transformed
    features, the self-loop column, and the bias, scale, shift, mean and variance rows. -/
def yRow (agg h : S50000x128.Idx → EReal) (d : S50000x1.Idx → EReal) (b g be mu var : S1x128.Idx → EReal)
    (n : Fin 50000) (j : Fin 128) : EReal :=
  Gcn.act (agg (ix2 n j) + d (ix2 n (0 : Fin 1)) * h (ix2 n j) + b (ix2 (0 : Fin 1) j))
    (mu (ix2 (0 : Fin 1) j)) (var (ix2 (0 : Fin 1) j)) (g (ix2 (0 : Fin 1) j)) (be (ix2 (0 : Fin 1) j))

/-- The same on the arrays as the region finds them. -/
abbrev yRowV (c : Dev nD) : Fin 50000 → Fin 128 → EReal :=
  yRow (V c main_v58) (V c main_v46) (V c main_v12) (V c main_v59) (V c main_v60) (V c main_v61) (V c main_v62) (V c main_v63)

theorem yAt_eq (c : Dev nD) (t : Fin cfg1.N) (r : Fin 1000) (j : Fin 128) :
    yAt V c t r j = yRowV V c (rowOf t r) j := by
  unfold yAt yBlk yRowV yRow
  rw [iblk0_apply, iblk1_apply, iblk2_apply, iblk3_apply, iblk4_apply, iblk5_apply, iblk6_apply, iblk7_apply]

/-! ## The two halves together -/

/-- A point's addend, on the whole arrays' rows. -/
theorem addend_eq (c : Dev nD) (t : Fin cfg1.N) (a b : Fin 128) :
    addend V c t.val a b = ∑ r : Fin 1000, yRowV V c (rowOf t r) a * yRowV V c (rowOf t r) b := by
  unfold addend
  rw [dif_pos t.isLt]
  refine Finset.sum_congr rfl fun r _ => ?_
  rw [yAt_eq, yAt_eq]

/-- A node is a block of 1000 rows and a row within it. -/
def rowEquiv : Fin 50 × Fin 1000 ≃ Fin 50000 where
  toFun p := ⟨1000 * p.1.val + p.2.val, by have := p.1.isLt; have := p.2.isLt; omega⟩
  invFun n := (⟨n.val / 1000, by have := n.isLt; omega⟩, ⟨n.val % 1000, by omega⟩)
  left_inv p := by
    have h1 := p.1.isLt
    have h2 := p.2.isLt
    refine Prod.ext (Fin.ext ?_) (Fin.ext ?_)
    · show (1000 * p.1.val + p.2.val) / 1000 = p.1.val
      omega
    · show (1000 * p.1.val + p.2.val) % 1000 = p.2.val
      omega
  right_inv n := by
    refine Fin.ext ?_
    show 1000 * (n.val / 1000) + n.val % 1000 = n.val
    omega

/-- A sum over the 50000 rows is the sum over 50 blocks of 1000 rows. -/
theorem sum_rows (F : Fin 50000 → EReal) :
    ∑ n : Fin 50000, F n = ∑ i : Fin 50, ∑ r : Fin 1000, F (rowEquiv (i, r)) :=
  (Equiv.sum_comp rowEquiv F).symm.trans (Fintype.sum_prod_type _)

/-- THE TWO OUTPUT BLOCKS ADD UP TO THE GRAM MATRIX of the layer's output over all 50000 nodes. -/
theorem gram_halves (c : Dev nD) (a b : Fin 128) :
    gramArr V c (ix3 (0 : Fin 2) a b) + gramArr V c (ix3 (1 : Fin 2) a b)
      = ∑ n : Fin 50000, yRowV V c n a * yRowV V c n b := by
  have hN : cfg1.N = 50 := N_1
  rw [gramArr_apply, gramArr_apply]
  show (∑ m ∈ Finset.Ico 0 25, addend V c m a b) + ∑ m ∈ Finset.Ico 25 50, addend V c m a b = _
  rw [Finset.sum_Ico_consecutive _ (by norm_num) (by norm_num), Nat.Ico_zero_eq_range, Finset.sum_range,
    sum_rows (fun n => yRowV V c n a * yRowV V c n b)]
  refine Finset.sum_congr rfl fun i _ => ?_
  exact addend_eq V c ⟨i.val, by have := i.isLt; omega⟩ a b

/-! ## The rows as the specification's layer -/

/-- When the aggregate holds the messages summed at their targets, the self-loop column the self-loop weights and the
    other operands the features and parameters, a row of the call's activation is the specification's layer output. -/
theorem yRow_eq_layer {E : ℕ} (Es : Fin 50000 → Finset (Fin E)) (src : Fin E → Fin 50000) (nrm : Fin E → EReal)
    (d2 : Fin 50000 → EReal) (hf : Fin 50000 → Fin 128 → EReal) (bf gf bef muf varf : Fin 128 → EReal)
    (agg h : S50000x128.Idx → EReal) (d : S50000x1.Idx → EReal) (b g be mu var : S1x128.Idx → EReal)
    (hagg : ∀ n j, agg (ix2 n j) = Gcn.spread Es src nrm hf n j) (hh : ∀ n j, h (ix2 n j) = hf n j)
    (hd : ∀ n, d (ix2 n (0 : Fin 1)) = d2 n) (hb : ∀ j, b (ix2 (0 : Fin 1) j) = bf j)
    (hg : ∀ j, g (ix2 (0 : Fin 1) j) = gf j) (hbe : ∀ j, be (ix2 (0 : Fin 1) j) = bef j)
    (hmu : ∀ j, mu (ix2 (0 : Fin 1) j) = muf j) (hvar : ∀ j, var (ix2 (0 : Fin 1) j) = varf j)
    (n : Fin 50000) (j : Fin 128) :
    yRow agg h d b g be mu var n j = Gcn.layer Es src nrm d2 hf bf gf bef muf varf n j := by
  unfold yRow Gcn.layer Gcn.conv
  rw [hagg, hh, hd, hb, hg, hbe, hmu, hvar]

end Cert.KernelIdeal.FinalVal

end
-- ==== Proof.EdgeSum.lean ====
/-
  Sums over the edge set. A gather of whole rows and a scatter-add of whole rows, read at an
  index at the ideal instance, and the one algebraic law a graph convolution's first layer needs:
  aggregating the rows of x and then multiplying by W gives what multiplying by W and then
  aggregating gives, when every entry involved is a real number.
-/
import Idealize.ShloMosaic.Lib.ValueIdx
import Idealize.ShloMosaic.PureOps.Ideal.Laws
import Mathlib.Data.EReal.Basic

noncomputable section

open scoped BigOperators

namespace Cert.Proof.EdgeSum

open Idealize.ShloMosaic Idealize.ShloMosaic.ValueIdx

/-! ## The dimension numbers of a row gather and a row scatter -/

/-- The dimension numbers of x[idx] for a matrix x : [N, C] and a column idx : [E, 1] of row
    numbers: result row e is a whole row of x. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a segment sum: update row e, a whole row, is added to row idx[e] of
    the operand. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row a gather reads for edge e: the index read as a signed integer and clamped into
    [0, N - 1]. -/
def srcRow {N E w : Nat} (hN : 0 < N) (idx : IVec ⟨2, ![E, 1]⟩ w) (e : Fin E) : Fin N :=
  ⟨min (idx (ix2 e (0 : Fin 1))).toInt.toNat (N - 1), by omega⟩

/-- The edges a scatter-add lands on row i: those whose index, read as a signed integer, is
    exactly i. An index outside [0, N) lands nowhere. -/
def edgesTo {N E w : Nat} (idx : IVec ⟨2, ![E, 1]⟩ w) (i : Fin N) : Finset (Fin E) :=
  Finset.univ.filter fun e => (idx (ix2 e (0 : Fin 1))).toInt = (i.val : Int)

/-! ## The gather read at an index -/

theorem gather_row_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (srcRow hN idx e) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have h1 : ¬ (1 : Fin 2) ∈ ([0] : List (Fin 2)) := by simp
    have hs : (rowGather N E C wf).start (ix2 e c) idx 1 = 0 := by
      unfold GatherDims.start
      rw [dif_neg h1]
    have ho : (rowGather N E C wf).offCoord (ix2 e c) 1 = c.val := by
      unfold GatherDims.offCoord
      rw [dif_pos ((GatherDims.mem_sKept _ _).2 ⟨h1, List.not_mem_nil⟩)]
      rfl
    rw [hs, ho, Nat.add_zero, Nat.zero_add]

/-! ## The scatter-add read at an index -/

section Scatter
variable {N E C w : Nat} (wf : ScatterDims.WF ⟨2, ![N, C]⟩ ⟨2, ![E, 1]⟩ ⟨2, ![E, C]⟩ [1] [0] [0] 1)

theorem not_one_mem : ¬ (1 : Fin 2) ∈ ([0] : List (Fin 2)) := by simp

theorem scatter_mem_sKept (a : Fin 2) :
    a ∈ (rowScatter N E C wf).sKept ↔ a ∉ (rowScatter N E C wf).insertedWindowDims := by
  simp [ScatterDims.sKept, Shape.kept, List.mem_filter, List.mem_finRange]

/-- On the scattered axis the window of update (e, c') starts at the index of edge e, read signed. -/
theorem scatter_start0 (idx : IVec ⟨2, ![E, 1]⟩ w) (e : Fin E) (c' : Fin C) :
    (rowScatter N E C wf).start (ix2 e c') idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatter_start1 (idx : IVec ⟨2, ![E, 1]⟩ w) (e : Fin E) (c' : Fin C) :
    (rowScatter N E C wf).start (ix2 e c') idx (1 : Fin 2) = 0 := by
  unfold ScatterDims.start
  rw [dif_neg not_one_mem]

theorem scatter_window0 (e : Fin E) (c' : Fin C) :
    (rowScatter N E C wf).window (ix2 e c') (0 : Fin 2) = 0 := by
  unfold ScatterDims.window
  rw [dif_neg (fun h => ((scatter_mem_sKept wf 0).1 h) (List.mem_singleton.mpr rfl))]

theorem scatter_window1 (e : Fin E) (c' : Fin C) :
    (rowScatter N E C wf).window (ix2 e c') (1 : Fin 2) = c'.val := by
  unfold ScatterDims.window
  rw [dif_pos ((scatter_mem_sKept wf 1).2 not_one_mem)]
  rfl

/-- Update (e, c') lands on element (i, c) exactly when edge e's index, read signed, is i and the
    columns agree. -/
theorem resultIdx?_row (idx : IVec ⟨2, ![E, 1]⟩ w) (e : Fin E) (c' : Fin C) (i : Fin N) (c : Fin C) :
    (rowScatter N E C wf).resultIdx? (ix2 e c') idx = some (ix2 i c)
      ↔ (idx (ix2 e (0 : Fin 1))).toInt = (i.val : Int) ∧ c' = c := by
  unfold ScatterDims.resultIdx?
  split
  · rename_i h
    rw [Option.some.injEq]
    constructor
    · intro heq
      have h0 := congrArg (fun f => (f (0 : Fin 2)).val) heq
      have h1 := congrArg (fun f => (f (1 : Fin 2)).val) heq
      have g0 := (h 0).1
      simp only [scatter_start0, scatter_window0, scatter_start1, scatter_window1] at h0 h1 g0
      refine ⟨?_, Fin.ext ?_⟩
      · have h0' : ((idx (ix2 e (0 : Fin 1))).toInt + ((0 : Nat) : Int)).toNat = i.val := h0
        omega
      · have h1' : ((0 : Int) + (c'.val : Int)).toNat = c.val := h1
        omega
    · rintro ⟨ht, rfl⟩
      funext a; refine Fin.ext ?_
      match a with
      | ⟨0, _⟩ =>
        show ((rowScatter N E C wf).start (ix2 e c') idx 0 + ((rowScatter N E C wf).window (ix2 e c') 0 : Nat)).toNat = i.val
        rw [scatter_start0, scatter_window0]; omega
      | ⟨1, _⟩ =>
        show ((rowScatter N E C wf).start (ix2 e c') idx 1 + ((rowScatter N E C wf).window (ix2 e c') 1 : Nat)).toNat = c'.val
        rw [scatter_start1, scatter_window1]; omega
  · rename_i h
    refine ⟨fun hn => (by cases hn), ?_⟩
    rintro ⟨ht, rfl⟩
    refine absurd (fun a => ?_) h
    match a with
    | ⟨0, _⟩ =>
      show 0 ≤ (rowScatter N E C wf).start (ix2 e c') idx 0 + ((rowScatter N E C wf).window (ix2 e c') 0 : Nat)
        ∧ (rowScatter N E C wf).start (ix2 e c') idx 0 + ((rowScatter N E C wf).window (ix2 e c') 0 : Nat) < (N : Nat)
      rw [scatter_start0, scatter_window0]
      have := i.isLt
      constructor <;> omega
    | ⟨1, _⟩ =>
      show 0 ≤ (rowScatter N E C wf).start (ix2 e c') idx 1 + ((rowScatter N E C wf).window (ix2 e c') 1 : Nat)
        ∧ (rowScatter N E C wf).start (ix2 e c') idx 1 + ((rowScatter N E C wf).window (ix2 e c') 1 : Nat) < (C : Nat)
      rw [scatter_start1, scatter_window1]
      have := c'.isLt
      constructor <;> omega

/-- THE SCATTER-ADD READ AT (i, c): the operand's element plus the updates of the edges that land
    on row i, at column c. -/
theorem scatterAdd_row_apply {φ : FTy}
    (x : FVec Ideal ⟨2, ![N, C]⟩ φ) (idx : IVec ⟨2, ![E, 1]⟩ w) (upd : FVec Ideal ⟨2, ![E, C]⟩ φ)
    (i : Fin N) (c : Fin C) :
    Host.scatterAdd (rowScatter N E C wf) x idx upd (ix2 i c)
      = x (ix2 i c) + ∑ e ∈ edgesTo idx i, upd (ix2 e c) := by
  show Ideal.hostScatterAdd (rowScatter N E C wf) x idx upd (ix2 i c) = _
  unfold Ideal.hostScatterAdd
  congr 1
  symm
  refine Finset.sum_nbij' (fun e => ix2 e c) (fun j : (⟨2, ![E, C]⟩ : Shape).Idx => (j 0 : Fin E)) ?_ ?_ ?_ ?_ ?_
  · intro e he
    exact Finset.mem_filter.2 ⟨Finset.mem_univ _, (resultIdx?_row wf idx e c i c).2 ⟨(Finset.mem_filter.1 he).2, rfl⟩⟩
  · intro j hj
    obtain ⟨e, c', rfl⟩ : ∃ (e : Fin E) (c' : Fin C), j = ix2 e c' := ⟨j 0, j 1, eq_ix2 j⟩
    exact Finset.mem_filter.2 ⟨Finset.mem_univ _, ((resultIdx?_row wf idx e c' i c).1 (Finset.mem_filter.1 hj).2).1⟩
  · intro e _; rfl
  · intro j hj
    obtain ⟨e, c', rfl⟩ : ∃ (e : Fin E) (c' : Fin C), j = ix2 e c' := ⟨j 0, j 1, eq_ix2 j⟩
    obtain rfl := ((resultIdx?_row wf idx e c' i c).1 (Finset.mem_filter.1 hj).2).2
    rfl
  · intro e _; rfl

end Scatter

/-! ## The law over the reals -/

/-- Aggregating over the edges and then contracting with W is contracting with W and then
    aggregating: both are the double sum over edges and the contracted axis. -/
theorem layer1_linear_real {N E K M : Nat} (x : Fin N → Fin K → ℝ) (W : Fin K → Fin M → ℝ)
    (nrm : Fin E → ℝ) (d2 : ℝ) (src : Fin E → Fin N) (Es : Finset (Fin E)) (i : Fin N) (j : Fin M) :
    ∑ k, ((∑ e ∈ Es, x (src e) k * nrm e) + d2 * x i k) * W k j
      = (∑ e ∈ Es, (∑ k, x (src e) k * W k j) * nrm e) + d2 * ∑ k, x i k * W k j := by
  simp only [add_mul, Finset.sum_add_distrib, Finset.sum_mul, Finset.mul_sum]
  congr 1
  · rw [Finset.sum_comm]
    exact Finset.sum_congr rfl fun e _ => Finset.sum_congr rfl fun k _ => by ring
  · exact Finset.sum_congr rfl fun k _ => by ring

/-- The inclusion of the reals in the extended reals commutes with a finite sum. -/
theorem coe_sum {ι : Type} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-! ## The law over the extended reals -/

/-- LAYER-1 LINEARITY, over the host operations themselves. With every entry of x, W, the edge
    weights and the self-loop weight a real number: aggregating the rows of x over the edges
    (gather by srcIdx, weigh by nrm, scatter-add by dstIdx into zeros), adding d2 times row i of x
    and contracting with W is aggregating the rows of h = x W the same way and adding d2 times row i
    of h. Both index arrays are arbitrary: the gather clamps, the scatter-add drops, and the two
    sides read the same edges. -/
theorem layer1_linear
    (wfg128 : GatherDims.WF ⟨2, ![50000, 128]⟩ ⟨2, ![600000, 1]⟩ ⟨2, ![600000, 128]⟩ [1] [0] [] [0] [] 1 ![1, 128])
    (wfs128 : ScatterDims.WF ⟨2, ![50000, 128]⟩ ⟨2, ![600000, 1]⟩ ⟨2, ![600000, 128]⟩ [1] [0] [0] 1)
    (wfg256 : GatherDims.WF ⟨2, ![50000, 256]⟩ ⟨2, ![600000, 1]⟩ ⟨2, ![600000, 256]⟩ [1] [0] [] [0] [] 1 ![1, 256])
    (wfs256 : ScatterDims.WF ⟨2, ![50000, 256]⟩ ⟨2, ![600000, 1]⟩ ⟨2, ![600000, 256]⟩ [1] [0] [0] 1)
    (x : FVec Ideal ⟨2, ![50000, 128]⟩ .f32) (W : FVec Ideal ⟨2, ![128, 256]⟩ .f32)
    (h : FVec Ideal ⟨2, ![50000, 256]⟩ .f32)
    (srcIdx dstIdx : IVec ⟨2, ![600000, 1]⟩ 32)
    (n128 : FVec Ideal ⟨2, ![600000, 128]⟩ .f32) (n256 : FVec Ideal ⟨2, ![600000, 256]⟩ .f32)
    (z128 : FVec Ideal ⟨2, ![50000, 128]⟩ .f32) (z256 : FVec Ideal ⟨2, ![50000, 256]⟩ .f32)
    (nrm : Fin 600000 → EReal) (d2 : EReal)
    (hh : ∀ (i : Fin 50000) (j : Fin 256), h (ix2 i j) = ∑ k : Fin 128, x (ix2 i k) * W (ix2 k j))
    (hn128 : ∀ (e : Fin 600000) (c : Fin 128), n128 (ix2 e c) = nrm e)
    (hn256 : ∀ (e : Fin 600000) (c : Fin 256), n256 (ix2 e c) = nrm e)
    (hz128 : ∀ i, z128 i = 0) (hz256 : ∀ i, z256 i = 0)
    (hx : ∀ i, ∃ r : ℝ, x i = (r : EReal)) (hW : ∀ i, ∃ r : ℝ, W i = (r : EReal))
    (hnrm : ∀ e, ∃ r : ℝ, nrm e = (r : EReal)) (hd2 : ∃ r : ℝ, d2 = (r : EReal))
    (i : Fin 50000) (j : Fin 256) :
    ∑ k : Fin 128,
        (Host.scatterAdd (rowScatter 50000 600000 128 wfs128) z128 dstIdx
            (mulf (Host.gather (rowGather 50000 600000 128 wfg128) x srcIdx) n128) (ix2 i k)
          + d2 * x (ix2 i k)) * W (ix2 k j)
      = Host.scatterAdd (rowScatter 50000 600000 256 wfs256) z256 dstIdx
            (mulf (Host.gather (rowGather 50000 600000 256 wfg256) h srcIdx) n256) (ix2 i j)
          + d2 * h (ix2 i j) := by
  choose xr hxr using hx
  choose Wr hWr using hW
  choose nr hnr using hnrm
  obtain ⟨dr, rfl⟩ := hd2
  have hN : 0 < 50000 := by decide
  have hL : ∀ k : Fin 128,
      Host.scatterAdd (rowScatter 50000 600000 128 wfs128) z128 dstIdx
          (mulf (Host.gather (rowGather 50000 600000 128 wfg128) x srcIdx) n128) (ix2 i k)
        = ((∑ e ∈ edgesTo dstIdx i, xr (ix2 (srcRow hN srcIdx e) k) * nr e : ℝ) : EReal) := by
    intro k
    rw [scatterAdd_row_apply, hz128, zero_add, coe_sum]
    refine Finset.sum_congr rfl fun e _ => ?_
    rw [mulf_apply, gather_row_apply hN, hn128, hxr, hnr, EReal.coe_mul]
  have hhr : ∀ (i' : Fin 50000) (j' : Fin 256),
      h (ix2 i' j') = ((∑ k : Fin 128, xr (ix2 i' k) * Wr (ix2 k j') : ℝ) : EReal) := by
    intro i' j'
    rw [hh, coe_sum]
    refine Finset.sum_congr rfl fun k _ => ?_
    rw [hxr, hWr, EReal.coe_mul]
  have hR : Host.scatterAdd (rowScatter 50000 600000 256 wfs256) z256 dstIdx
          (mulf (Host.gather (rowGather 50000 600000 256 wfg256) h srcIdx) n256) (ix2 i j)
        = ((∑ e ∈ edgesTo dstIdx i,
            (∑ k : Fin 128, xr (ix2 (srcRow hN srcIdx e) k) * Wr (ix2 k j)) * nr e : ℝ) : EReal) := by
    rw [scatterAdd_row_apply, hz256, zero_add, coe_sum]
    refine Finset.sum_congr rfl fun e _ => ?_
    rw [mulf_apply, gather_row_apply hN, hn256, hhr, hnr, EReal.coe_mul]
  rw [hR, hhr]
  calc ∑ k : Fin 128,
        (Host.scatterAdd (rowScatter 50000 600000 128 wfs128) z128 dstIdx
            (mulf (Host.gather (rowGather 50000 600000 128 wfg128) x srcIdx) n128) (ix2 i k)
          + (dr : EReal) * x (ix2 i k)) * W (ix2 k j)
      = ∑ k : Fin 128, ((((∑ e ∈ edgesTo dstIdx i, xr (ix2 (srcRow hN srcIdx e) k) * nr e)
          + dr * xr (ix2 i k)) * Wr (ix2 k j) : ℝ) : EReal) :=
        Finset.sum_congr rfl fun k _ => by
          rw [hL, hxr, hWr, ← EReal.coe_mul, ← EReal.coe_add, ← EReal.coe_mul]
    _ = ((∑ k : Fin 128, ((∑ e ∈ edgesTo dstIdx i, xr (ix2 (srcRow hN srcIdx e) k) * nr e)
          + dr * xr (ix2 i k)) * Wr (ix2 k j) : ℝ) : EReal) := (coe_sum _ _).symm
    _ = (((∑ e ∈ edgesTo dstIdx i,
            (∑ k : Fin 128, xr (ix2 (srcRow hN srcIdx e) k) * Wr (ix2 k j)) * nr e)
          + dr * ∑ k : Fin 128, xr (ix2 i k) * Wr (ix2 k j) : ℝ) : EReal) :=
        congrArg _ (layer1_linear_real (fun a b => xr (ix2 a b)) (fun a b => Wr (ix2 a b)) nr dr
          (srcRow hN srcIdx) (edgesTo dstIdx i) i j)
    _ = _ := by rw [EReal.coe_add, EReal.coe_mul]

end Cert.Proof.EdgeSum

end
-- ==== Proof.LayerMeets.lean ====
/-
  REGION 0's result array IS the specification's second linear map of the first layer.
  The kernel aggregates the node FEATURES over the edges and only then multiplies by W₁:
      Σ_k' (aggx n k' + d n · x n k') · W₁ k' k     with  aggx = segment-sum of  x[src] · norm ,
  where the specification multiplies first and aggregates the 256-wide rows:
      (0 + Σ_{e → n} (x W₁)(src e) k · norm e) + d n · (x W₁) n k .
  The two agree whenever every entry of x, W₁, norm and d is a real number: a finite sum of reals distributes over the
  product and the two finite sums commute. Over the extended reals this is false at infinities, which is why the
  finiteness hypotheses are here. Everything around that sum — the bias, relu, the normalisation, the sigmoid, the
  second product — is the same expression on both sides.
-/
import proofs.«171423_j6648609374284_2_alg».proof.Proof.LayerArray
import proofs.«171423_j6648609374284_2_alg».proof.Proof.GcnSpec
import proofs.«171423_j6648609374284_2_alg».proof.Proof.EdgeSum

noncomputable section

namespace Cert.KernelIdeal.LayerVal

open Cert.KernelIdeal Idealize.ShloMosaic Idealize.ShloMosaic.ValueIdx Cert.Proof Cert.Proof.EdgeSum

/-- The hidden activation of the kernel's arrangement is the specification's layer, entry by entry. -/
theorem hiddenRow_is_layer
    (wfg128 : GatherDims.WF ⟨2, ![50000, 128]⟩ ⟨2, ![600000, 1]⟩ ⟨2, ![600000, 128]⟩ [1] [0] [] [0] [] 1 ![1, 128])
    (wfs128 : ScatterDims.WF ⟨2, ![50000, 128]⟩ ⟨2, ![600000, 1]⟩ ⟨2, ![600000, 128]⟩ [1] [0] [0] 1)
    (wfg256 : GatherDims.WF ⟨2, ![50000, 256]⟩ ⟨2, ![600000, 1]⟩ ⟨2, ![600000, 256]⟩ [1] [0] [] [0] [] 1 ![1, 256])
    (wfs256 : ScatterDims.WF ⟨2, ![50000, 256]⟩ ⟨2, ![600000, 1]⟩ ⟨2, ![600000, 256]⟩ [1] [0] [0] 1)
    (x : FVec Ideal S50000x128 .f32) (w1 : FVec Ideal S128x256 .f32) (srcI dstI : IVec ⟨2, ![600000, 1]⟩ 32)
    (n128 : FVec Ideal ⟨2, ![600000, 128]⟩ .f32) (z128 : FVec Ideal S50000x128 .f32)
    (d : S50000x1.Idx → EReal) (b g be mu var : S1x256.Idx → EReal)
    (nrm : Fin 600000 → EReal) (hn128 : ∀ (e : Fin 600000) (c : Fin 128), n128 (ix2 e c) = nrm e) (hz128 : ∀ i, z128 i = 0)
    (hx : ∀ i, ∃ r : ℝ, x i = (r : EReal)) (hW : ∀ i, ∃ r : ℝ, w1 i = (r : EReal))
    (hnrm : ∀ e, ∃ r : ℝ, nrm e = (r : EReal)) (hd : ∀ n : Fin 50000, ∃ r : ℝ, d (ix2 n (0 : Fin 1)) = (r : EReal))
    (n : Fin 50000) (k : Fin 256) :
    hiddenRow (Host.scatterAdd (rowScatter 50000 600000 128 wfs128) z128 dstI (mulf (Host.gather (rowGather 50000 600000 128 wfg128) x srcI) n128))
        x d w1 b g be mu var n k
      = Gcn.layer (edgesTo dstI) (srcRow (by decide) srcI) nrm (fun n => d (ix2 n (0 : Fin 1)))
          (Gcn.lin (fun n k => x (ix2 n k)) (fun k j => w1 (ix2 k j)))
          (fun j => b (ix2 (0 : Fin 1) j)) (fun j => g (ix2 (0 : Fin 1) j)) (fun j => be (ix2 (0 : Fin 1) j))
          (fun j => mu (ix2 (0 : Fin 1) j)) (fun j => var (ix2 (0 : Fin 1) j)) n k := by
  -- the 256-wide rows x W₁, their per-edge weights and the zero operand, as arrays
  let h : FVec Ideal ⟨2, ![50000, 256]⟩ .f32 := fun i => ∑ k' : Fin 128, x (ix2 ⟨(i 0).val, idx2_lt0 i⟩ k') * w1 (ix2 k' ⟨(i 1).val, idx2_lt1 i⟩)
  let n256 : FVec Ideal ⟨2, ![600000, 256]⟩ .f32 := fun i => nrm ⟨(i 0).val, idx2_lt0 i⟩
  let z256 : FVec Ideal ⟨2, ![50000, 256]⟩ .f32 := fun _ => 0
  have hlaw := layer1_linear wfg128 wfs128 wfg256 wfs256 x w1 h srcI dstI n128 n256 z128 z256 nrm (d (ix2 n (0 : Fin 1)))
    (fun i j => rfl) hn128 (fun e c => rfl) hz128 (fun _ => rfl) hx hW hnrm (hd n) n k
  have hsc := scatterAdd_row_apply wfs256 z256 dstI (mulf (Host.gather (rowGather 50000 600000 256 wfg256) h srcI) n256) n k
  have hsum : (∑ e ∈ edgesTo dstI n, mulf (Host.gather (rowGather 50000 600000 256 wfg256) h srcI) n256 (ix2 e k))
      = ∑ e ∈ edgesTo dstI n, Gcn.lin (fun n k => x (ix2 n k)) (fun k j => w1 (ix2 k j)) (srcRow (by decide) srcI e) k * nrm e :=
    Finset.sum_congr rfl fun e _ => by
      show Host.gather (rowGather 50000 600000 256 wfg256) h srcI (ix2 e k) * n256 (ix2 e k) = _
      rw [gather_row_apply (by decide) wfg256 h srcI e k]
      rfl
  unfold hiddenRow Gcn.layer Gcn.act Gcn.conv Gcn.spread Gcn.eps
  rw [hlaw, hsc, hsum]
  rfl

/-- The result array at (n, q) is the specification's `lin` of its first layer with W₂. -/
theorem layerArr_is_spec
    (wfg128 : GatherDims.WF ⟨2, ![50000, 128]⟩ ⟨2, ![600000, 1]⟩ ⟨2, ![600000, 128]⟩ [1] [0] [] [0] [] 1 ![1, 128])
    (wfs128 : ScatterDims.WF ⟨2, ![50000, 128]⟩ ⟨2, ![600000, 1]⟩ ⟨2, ![600000, 128]⟩ [1] [0] [0] 1)
    (wfg256 : GatherDims.WF ⟨2, ![50000, 256]⟩ ⟨2, ![600000, 1]⟩ ⟨2, ![600000, 256]⟩ [1] [0] [] [0] [] 1 ![1, 256])
    (wfs256 : ScatterDims.WF ⟨2, ![50000, 256]⟩ ⟨2, ![600000, 1]⟩ ⟨2, ![600000, 256]⟩ [1] [0] [0] 1)
    (x : FVec Ideal S50000x128 .f32) (w1 : FVec Ideal S128x256 .f32) (w2 : S256x128.Idx → EReal) (srcI dstI : IVec ⟨2, ![600000, 1]⟩ 32)
    (n128 : FVec Ideal ⟨2, ![600000, 128]⟩ .f32) (z128 : FVec Ideal S50000x128 .f32)
    (d : S50000x1.Idx → EReal) (b g be mu var : S1x256.Idx → EReal)
    (nrm : Fin 600000 → EReal) (hn128 : ∀ (e : Fin 600000) (c : Fin 128), n128 (ix2 e c) = nrm e) (hz128 : ∀ i, z128 i = 0)
    (hx : ∀ i, ∃ r : ℝ, x i = (r : EReal)) (hW : ∀ i, ∃ r : ℝ, w1 i = (r : EReal))
    (hnrm : ∀ e, ∃ r : ℝ, nrm e = (r : EReal)) (hd : ∀ n : Fin 50000, ∃ r : ℝ, d (ix2 n (0 : Fin 1)) = (r : EReal))
    (n : Fin 50000) (q : Fin 128) :
    layerArr (Host.scatterAdd (rowScatter 50000 600000 128 wfs128) z128 dstI (mulf (Host.gather (rowGather 50000 600000 128 wfg128) x srcI) n128))
        x d b g be mu var w1 w2 (ix2 n q)
      = Gcn.lin (Gcn.layer (edgesTo dstI) (srcRow (by decide) srcI) nrm (fun n => d (ix2 n (0 : Fin 1)))
          (Gcn.lin (fun n k => x (ix2 n k)) (fun k j => w1 (ix2 k j)))
          (fun j => b (ix2 (0 : Fin 1) j)) (fun j => g (ix2 (0 : Fin 1) j)) (fun j => be (ix2 (0 : Fin 1) j))
          (fun j => mu (ix2 (0 : Fin 1) j)) (fun j => var (ix2 (0 : Fin 1) j))) (fun k j => w2 (ix2 k j)) n q := by
  unfold layerArr Gcn.lin
  refine Finset.sum_congr rfl fun k _ => ?_
  show hiddenRow _ x d w1 b g be mu var n k * w2 (ix2 k q) = _
  rw [hiddenRow_is_layer wfg128 wfs128 wfg256 wfs256 x w1 srcI dstI n128 z128 d b g be mu var nrm hn128 hz128 hx hW hnrm hd n k]
  rfl

end Cert.KernelIdeal.LayerVal

end
-- ==== Proof.Degree.lean ====
/-
  The normalisation coefficients of a graph convolution are positive real numbers. The degree of
  a node is a count of edges plus one (the self loop), so its reciprocal square root is a positive
  real; a gather reads actual elements of its operand, so the coefficient of an edge, a product of
  two gathered reciprocal square roots, is a positive real, and so is the self-loop coefficient,
  the square of one.
-/
import Idealize.ShloMosaic.Lib.ValueIdx
import Idealize.ShloMosaic.PureOps.Ideal.Laws
import Mathlib.Data.EReal.Basic

noncomputable section

open scoped BigOperators

namespace Cert.Proof.Degree

open Idealize.ShloMosaic Idealize.ShloMosaic.ValueIdx

/-- The inclusion of the reals in the extended reals commutes with a finite sum. -/
theorem coe_sum {ι : Type} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A gather reads actual elements of its operand (the start index is clamped, never a fill
    value): what holds of every element of the operand holds of every element of the result. -/
theorem gather_all {α : Type} {s si t : Shape} {w : Nat} (d : GatherDims s si t) (x : s.Idx → α)
    (idx : IVec si w) (P : α → Prop) (hx : ∀ i, P (x i)) (j : t.Idx) : P (Host.gather d x idx j) :=
  hx _

/-- A scatter-add of ones into zeros counts the updates that land on each element: every element
    of the result is a natural number. -/
theorem scatterAdd_count {φ : FTy} {s si su : Shape} {w : Nat} (d : ScatterDims s si su)
    (x : FVec Ideal s φ) (idx : IVec si w) (upd : FVec Ideal su φ)
    (hx : ∀ i, x i = 0) (hu : ∀ j, upd j = 1) (i : s.Idx) :
    ∃ n : ℕ, Host.scatterAdd d x idx upd i = ((n : ℝ) : EReal) := by
  refine ⟨(Finset.univ.filter fun j => d.resultIdx? j idx = some i).card, ?_⟩
  show Ideal.hostScatterAdd d x idx upd i = _
  unfold Ideal.hostScatterAdd
  have hs : ∑ j ∈ Finset.univ.filter (fun j => d.resultIdx? j idx = some i), upd j
      = ∑ j ∈ Finset.univ.filter (fun j => d.resultIdx? j idx = some i), ((1 : ℝ) : EReal) :=
    Finset.sum_congr rfl fun j _ => by rw [hu j, EReal.coe_one]
  rw [hx, zero_add, hs, ← coe_sum, Finset.sum_const, nsmul_eq_mul, mul_one]

/-- The reciprocal square root of a count plus one is a positive real. -/
theorem rsqrt_count_succ (n : ℕ) :
    ∃ r : ℝ, 0 < r ∧ Ideal.rsqrt (((n : ℝ) : EReal) + 1) = (r : EReal) := by
  have hp : (0 : ℝ) < (n : ℝ) + 1 := by positivity
  refine ⟨(Real.sqrt ((n : ℝ) + 1))⁻¹, inv_pos.2 (Real.sqrt_pos.2 hp), ?_⟩
  have h1 : (((n : ℝ) : EReal) + 1) = (((n : ℝ) + 1 : ℝ) : EReal) := by
    rw [EReal.coe_add, EReal.coe_one]
  rw [h1, Ideal.rsqrt_coe, if_neg (not_lt.2 hp.le), if_neg hp.ne']

/-- THE RECIPROCAL SQUARE ROOT OF THE DEGREE: with the degree the scatter-add of ones into zeros
    plus one, a positive real at every node, whatever the index array holds. -/
theorem dinv_pos {s si su : Shape} {w : Nat} (d : ScatterDims s si su)
    (zeros ones : FVec Ideal s .f32) (idx : IVec si w) (upd : FVec Ideal su .f32)
    (hz : ∀ i, zeros i = 0) (ho : ∀ i, ones i = 1) (hu : ∀ j, upd j = 1) (i : s.Idx) :
    ∃ r : ℝ, 0 < r ∧ Host.rsqrt (addf (Host.scatterAdd d zeros idx upd) ones) i = (r : EReal) := by
  obtain ⟨n, hn⟩ := scatterAdd_count d zeros idx upd hz hu i
  obtain ⟨r, hr, he⟩ := rsqrt_count_succ n
  refine ⟨r, hr, ?_⟩
  show Ideal.rsqrt (Host.scatterAdd d zeros idx upd i + ones i) = _
  rw [hn, ho]
  exact he

/-- The coefficient of an edge, the product of the reciprocal square roots gathered at its two
    ends, is a positive real. -/
theorem norm_pos {s si t : Shape} {w : Nat} (dg : GatherDims s si t) (dinv : FVec Ideal s .f32)
    (hd : ∀ i, ∃ r : ℝ, 0 < r ∧ dinv i = (r : EReal)) (srcIdx dstIdx : IVec si w) (e : t.Idx) :
    ∃ r : ℝ, 0 < r ∧ mulf (Host.gather dg dinv srcIdx) (Host.gather dg dinv dstIdx) e = (r : EReal) := by
  obtain ⟨a, ha, hea⟩ := gather_all dg dinv srcIdx (fun v => ∃ r : ℝ, 0 < r ∧ v = (r : EReal)) hd e
  obtain ⟨b, hb, heb⟩ := gather_all dg dinv dstIdx (fun v => ∃ r : ℝ, 0 < r ∧ v = (r : EReal)) hd e
  refine ⟨a * b, mul_pos ha hb, ?_⟩
  show Host.gather dg dinv srcIdx e * Host.gather dg dinv dstIdx e = _
  rw [hea, heb, EReal.coe_mul]

/-- The self-loop coefficient, the square of the reciprocal square root, is a positive real. -/
theorem dinv2_pos {s : Shape} (dinv : FVec Ideal s .f32)
    (hd : ∀ i, ∃ r : ℝ, 0 < r ∧ dinv i = (r : EReal)) (i : s.Idx) :
    ∃ r : ℝ, 0 < r ∧ mulf dinv dinv i = (r : EReal) := by
  obtain ⟨a, ha, hea⟩ := hd i
  refine ⟨a * a, mul_pos ha ha, ?_⟩
  show dinv i * dinv i = _
  rw [hea, EReal.coe_mul]

/-- A positive real is a real. -/
theorem real_of_pos {v : EReal} (h : ∃ r : ℝ, 0 < r ∧ v = (r : EReal)) : ∃ r : ℝ, v = (r : EReal) :=
  let ⟨r, _, e⟩ := h; ⟨r, e⟩

end Cert.Proof.Degree

end
-- ==== Proof.Layer1Meets.lean ====
/-
  The kernel program's two layers in the specification's terms. The normalisation coefficients
  are real numbers whatever the edge list holds; the array the first kernel region leaves is the
  specification's second linear map of its first layer (the one place the two programs differ in
  arrangement: the kernel program aggregates the node features before the first linear map); and
  the second layer's pre-activation is the specification's convolution as it stands.
-/
import proofs.«171423_j6648609374284_2_alg».proof.Proof.LayerMeets
import proofs.«171423_j6648609374284_2_alg».proof.Proof.HostReads
import proofs.«171423_j6648609374284_2_alg».proof.Proof.Degree

noncomputable section

namespace Cert.KernelIdeal.HostVal

open Cert.KernelIdeal Cert.KernelIdeal.Gen Idealize.ShloMosaic Idealize.ShloMosaic.TcCoe Idealize.SL.Sem
open Idealize.ShloMosaic.StableHlo

/-! ## The normalisation coefficients are real -/

section Coeff
open Idealize.ShloMosaic.ValueIdx Cert.Proof Cert.Proof.EdgeSum

/-- The pattern 0x3F800000 denotes 1. -/
theorem ofBits_one : Ideal.ofBits .f32 0x3F800000#32 = (1 : EReal) := by
  simp [Ideal.ofBits, Ideal.ieee]
  rw [← EReal.coe_mul, ← EReal.coe_one]
  congr 1
  norm_num

variable (ei : (⟨S2x600000, .i32⟩ : BufTy).Contents (Elt Ideal))

/-- The reciprocal square root of the degree is a positive real at every node, whatever the edge
    list holds. -/
theorem dinv_pos (i : S50000.Idx) : ∃ r : ℝ, 0 < r ∧ dinv (F := Ideal) ei i = (r : EReal) :=
  Degree.dinv_pos scatter_S50000_S600000x1_S600000_n_0_0_1
    (broadcastInDim S50000 ![] bcast_S_S50000 (constant (F := Ideal) S_ .f32 0x00000000#32))
    (broadcastInDim S50000 ![] bcast_S_S50000 (constant (F := Ideal) S_ .f32 0x3F800000#32))
    (dstIdxRaw (F := Ideal) ei)
    (broadcastInDim S600000 ![] bcast_S_S600000 (constant (F := Ideal) S_ .f32 0x3F800000#32))
    (fun _ => Ideal.ofBits_zero_f32) (fun _ => ofBits_one) (fun _ => ofBits_one) i

/-- The coefficient of every edge is a real number. -/
theorem norm_real (e : Fin 600000) : ∃ r : ℝ, norm (F := Ideal) ei (ix1 e) = (r : EReal) :=
  Degree.real_of_pos (Degree.norm_pos gather_S50000_S600000x1_S600000_n_0_n_n_0_1_1 (dinv (F := Ideal) ei)
    (dinv_pos ei) (srcIdx (F := Ideal) ei) (dstIdxWrapped (F := Ideal) ei) (ix1 e))

/-- The self-loop coefficient of every node is a real number. -/
theorem dinv2_real (i : Fin 50000) : ∃ r : ℝ, dinv2 (F := Ideal) ei (ix1 i) = (r : EReal) :=
  Degree.real_of_pos (Degree.dinv2_pos (dinv (F := Ideal) ei) (dinv_pos ei) (ix1 i))

/-- The column of edge coefficients broadcast along the 128 features, read at an index. -/
theorem normBcast128_apply (e : Fin 600000) (c : Fin 128) :
    broadcastInDim S600000x128 ![0, 1] bcast_S600000x1_S600000x128_0_1 (normCol (F := Ideal) ei) (ix2 e c)
      = norm (F := Ideal) ei (ix1 e) := by
  rw [broadcastInDim_apply _ bcast_S600000x1_S600000x128_0_1 _ (ix2 e c) (ix2 e (0 : Fin 1)) (fun a => match a with
    | ⟨0, _⟩ => by show e.val = if (600000 : Nat) = 1 then 0 else e.val; rw [if_neg (by decide)]
    | ⟨1, _⟩ => by show 0 = if (1 : Nat) = 1 then 0 else c.val; rw [if_pos rfl])]
  exact normCol_apply ei e

/-- The aggregation read at an index: the sum over the edges that land on the node of the source's
    row, weighted. -/
theorem aggregate_sum (h2 : (⟨S50000x128, .f32⟩ : BufTy).Contents (Elt Ideal)) (n : Fin 50000) (j : Fin 128) :
    aggregate (F := Ideal) (srcIdx (F := Ideal) ei) (dstIdxRaw (F := Ideal) ei) (normCol (F := Ideal) ei) h2 (ix2 n j)
      = 0 + ∑ e ∈ edgesTo (dstIdxRaw (F := Ideal) ei) n,
          h2 (ix2 (srcRow (by decide) (srcIdx (F := Ideal) ei) e) j) * norm (F := Ideal) ei (ix1 e) := by
  have h := scatterAdd_row_apply Cert.KernelIdeal.Facts₀.scatter_S50000x128_S600000x1_S600000x128_1_0_0_1_wf
    (broadcastInDim S50000x128 ![] bcast_S_S50000x128 (constant (F := Ideal) S_ .f32 0x00000000#32))
    (dstIdxRaw (F := Ideal) ei)
    (mulf (Host.gather (rowGather 50000 600000 128 Cert.KernelIdeal.Facts₀.gather_S50000x128_S600000x1_S600000x128_1_0_n_n_0_1_1128_wf) h2 (srcIdx (F := Ideal) ei))
      (broadcastInDim S600000x128 ![0, 1] bcast_S600000x1_S600000x128_0_1 (normCol (F := Ideal) ei)))
    n j
  refine h.trans (congrArg₂ (· + ·) Ideal.ofBits_zero_f32 (Finset.sum_congr rfl fun e _ => ?_))
  rw [mulf_apply, gather_row_apply (by decide), normBcast128_apply]

/-- The aggregation read at an index is the specification's sum of messages. -/
theorem aggregate_apply (h : (⟨S50000x128, .f32⟩ : BufTy).Contents (Elt Ideal)) (n : Fin 50000) (j : Fin 128) :
    aggregate (F := Ideal) (srcIdx (F := Ideal) ei) (dstIdxRaw (F := Ideal) ei) (normCol (F := Ideal) ei) h (ix2 n j)
      = Gcn.spread (edgesTo (dstIdxRaw (F := Ideal) ei)) (srcRow (by decide) (srcIdx (F := Ideal) ei))
          (fun e => norm (F := Ideal) ei (ix1 e)) (fun n j => h (ix2 n j)) n j :=
  aggregate_sum ei h n j

/-- THE SECOND LAYER'S PRE-ACTIVATION: aggregation, self loop and bias, in the specification's
    arrangement. -/
theorem pre2_kernel (h2 : (⟨S50000x128, .f32⟩ : BufTy).Contents (Elt Ideal)) (b2 : (⟨S128, .f32⟩ : BufTy).Contents (Elt Ideal))
    (n : Fin 50000) (j : Fin 128) :
    (aggregate (F := Ideal) (srcIdx (F := Ideal) ei) (dstIdxRaw (F := Ideal) ei) (normCol (F := Ideal) ei) h2 (ix2 n j)
        + dinv2Col (F := Ideal) ei (ix2 n (0 : Fin 1)) * h2 (ix2 n j))
      + shapeCast S1x128 b2 shapeCasts_S128_S1x128 (ix2 (0 : Fin 1) j)
      = Gcn.conv (edgesTo (dstIdxRaw (F := Ideal) ei)) (srcRow (by decide) (srcIdx (F := Ideal) ei))
          (fun e => norm (F := Ideal) ei (ix1 e)) (fun n => dinv2 (F := Ideal) ei (ix1 n))
          (fun n j => h2 (ix2 n j)) (fun j => b2 (ix1 j)) n j := by
  unfold Gcn.conv Gcn.spread
  rw [aggregate_sum, dinv2Col_apply, row128_apply]

end Coeff

/-! ## The first kernel region's result is the specification's -/

section Layer1
open Idealize.ShloMosaic.ValueIdx Cert.Proof Cert.Proof.EdgeSum

theorem wfg256 : GatherDims.WF ⟨2, ![50000, 256]⟩ ⟨2, ![600000, 1]⟩ ⟨2, ![600000, 256]⟩ [1] [0] [] [0] [] 1 ![1, 256] := by
  decide
theorem wfs256 : ScatterDims.WF ⟨2, ![50000, 256]⟩ ⟨2, ![600000, 1]⟩ ⟨2, ![600000, 256]⟩ [1] [0] [0] 1 := by
  decide

/-- The aggregated features are the segment sum the law is stated over. -/
theorem aggx_eq (x : (⟨S50000x128, .f32⟩ : BufTy).Contents (Elt Ideal)) (ei : (⟨S2x600000, .i32⟩ : BufTy).Contents (Elt Ideal)) :
    aggx (F := Ideal) x ei
      = Host.scatterAdd (rowScatter 50000 600000 128 Cert.KernelIdeal.Facts₀.scatter_S50000x128_S600000x1_S600000x128_1_0_0_1_wf)
          (broadcastInDim S50000x128 ![] bcast_S_S50000x128 (constant (F := Ideal) S_ .f32 0x00000000#32))
          (dstIdxRaw (F := Ideal) ei)
          (mulf (Host.gather (rowGather 50000 600000 128 Cert.KernelIdeal.Facts₀.gather_S50000x128_S600000x1_S600000x128_1_0_n_n_0_1_1128_wf) x (srcIdx (F := Ideal) ei))
            (broadcastInDim S600000x128 ![0, 1] bcast_S600000x1_S600000x128_0_1 (normCol (F := Ideal) ei))) := rfl

/-- THE FIRST REGION'S RESULT: with every entry of the node features and of the first weight
    matrix a real number, the array the first kernel region leaves — computed from the aggregated
    features — is the specification's second linear map of its first layer, entry by entry. -/
theorem h2_kernel (x : (⟨S50000x128, .f32⟩ : BufTy).Contents (Elt Ideal)) (ei : (⟨S2x600000, .i32⟩ : BufTy).Contents (Elt Ideal))
    (W1 : (⟨S128x256, .f32⟩ : BufTy).Contents (Elt Ideal)) (b1 g1 be1 m1 v1 : (⟨S256, .f32⟩ : BufTy).Contents (Elt Ideal))
    (W2 : (⟨S256x128, .f32⟩ : BufTy).Contents (Elt Ideal))
    (hx : ∀ i, ∃ r : ℝ, x i = (r : EReal)) (hW : ∀ i, ∃ r : ℝ, W1 i = (r : EReal)) (n : Fin 50000) (q : Fin 128) :
    LayerVal.layerArr (aggx (F := Ideal) x ei) x (dinv2Col (F := Ideal) ei)
        (shapeCast S1x256 b1 shapeCasts_S256_S1x256) (shapeCast S1x256 g1 shapeCasts_S256_S1x256)
        (shapeCast S1x256 be1 shapeCasts_S256_S1x256) (shapeCast S1x256 m1 shapeCasts_S256_S1x256)
        (shapeCast S1x256 v1 shapeCasts_S256_S1x256) W1 W2 (ix2 n q)
      = Gcn.lin (Gcn.layer (edgesTo (dstIdxRaw (F := Ideal) ei)) (srcRow (by decide) (srcIdx (F := Ideal) ei))
            (fun e => norm (F := Ideal) ei (ix1 e)) (fun n => dinv2 (F := Ideal) ei (ix1 n))
            (Gcn.lin (fun n k => x (ix2 n k)) (fun k j => W1 (ix2 k j)))
            (fun j => b1 (ix1 j)) (fun j => g1 (ix1 j)) (fun j => be1 (ix1 j)) (fun j => m1 (ix1 j)) (fun j => v1 (ix1 j)))
          (fun k j => W2 (ix2 k j)) n q := by
  have hn128 : ∀ (e : Fin 600000) (c : Fin 128),
      (broadcastInDim S600000x128 ![0, 1] bcast_S600000x1_S600000x128_0_1 (normCol (F := Ideal) ei) : FVec Ideal ⟨2, ![600000, 128]⟩ .f32) (ix2 e c)
        = norm (F := Ideal) ei (ix1 e) := normBcast128_apply ei
  have hz128 : ∀ i, (broadcastInDim S50000x128 ![] bcast_S_S50000x128 (constant (F := Ideal) S_ .f32 0x00000000#32) : FVec Ideal S50000x128 .f32) i = 0 :=
    fun _ => Ideal.ofBits_zero_f32
  have hnrm : ∀ e : Fin 600000, ∃ r : ℝ, norm (F := Ideal) ei (ix1 e) = (r : EReal) := norm_real ei
  have hd : ∀ n : Fin 50000, ∃ r : ℝ, (dinv2Col (F := Ideal) ei : S50000x1.Idx → EReal) (ix2 n (0 : Fin 1)) = (r : EReal) :=
    fun n => by rw [dinv2Col_apply]; exact dinv2_real ei n
  have key := LayerVal.layerArr_is_spec
    Cert.KernelIdeal.Facts₀.gather_S50000x128_S600000x1_S600000x128_1_0_n_n_0_1_1128_wf
    Cert.KernelIdeal.Facts₀.scatter_S50000x128_S600000x1_S600000x128_1_0_0_1_wf wfg256 wfs256
    x W1 W2 (srcIdx (F := Ideal) ei) (dstIdxRaw (F := Ideal) ei) _ _
    (dinv2Col (F := Ideal) ei)
    (shapeCast S1x256 b1 shapeCasts_S256_S1x256) (shapeCast S1x256 g1 shapeCasts_S256_S1x256)
    (shapeCast S1x256 be1 shapeCasts_S256_S1x256) (shapeCast S1x256 m1 shapeCasts_S256_S1x256)
    (shapeCast S1x256 v1 shapeCasts_S256_S1x256)
    (fun e => norm (F := Ideal) ei (ix1 e)) hn128 hz128 hx hW hnrm hd n q
  simp only [dinv2Col_apply, row256_apply] at key
  exact key

end Layer1

end Cert.KernelIdeal.HostVal

end
-- ==== Proof.HostMeets.lean ====
/-
  The kernel program's index arrays and normalisation coefficients are the reference's: the
  chains of host operations that depend on the edge list alone, named for the kernel program,
  are term for term the reference program's stages, and the reference's second aggregation is
  the kernel program's aggregation of the reference's own second-layer features.
-/
import proofs.«171423_j6648609374284_2_alg».proof.Proof.HostReads
import proofs.«171423_j6648609374284_2_alg».proof.Proof.Gen.ReferenceIdeal.Read

noncomputable section

namespace Cert.KernelIdeal.HostVal

open Cert.KernelIdeal Cert.KernelIdeal.Gen Idealize.ShloMosaic Idealize.ShloMosaic.TcCoe Idealize.SL.Sem
open Idealize.ShloMosaic.StableHlo

/-! ## The named chains are the reference's stages -/

section Meets
open Cert.ReferenceIdeal.Read

variable {F : FTy → Type} [FloatOps F]
variable (ei : (⟨S2x600000, .i32⟩ : BufTy).Contents (Elt F))

theorem srcFlat_eq : srcFlat (F := F) ei = val_main_v1 (F := F) ei := rfl
theorem dstFlat_eq : dstFlat (F := F) ei = val_main_v3 (F := F) ei := rfl
/-- The wrapped source indices are the ones the reference's first-layer gather is handed, -/
theorem srcIdx_eq_v17 : srcIdx (F := F) ei = val_main_v17 (F := F) ei := rfl
/-- the ones its first edge-coefficient gather is handed, -/
theorem srcIdx_eq_v24 : srcIdx (F := F) ei = val_main_v24 (F := F) ei := rfl
/-- and the ones its second-layer gathers are handed. -/
theorem srcIdx_eq_v76 : srcIdx (F := F) ei = val_main_v76 (F := F) ei := rfl
theorem srcIdx_eq_v83 : srcIdx (F := F) ei = val_main_v83 (F := F) ei := rfl
theorem dstIdxWrapped_eq_v31 : dstIdxWrapped (F := F) ei = val_main_v31 (F := F) ei := rfl
theorem dstIdxWrapped_eq_v90 : dstIdxWrapped (F := F) ei = val_main_v90 (F := F) ei := rfl
/-- The raw target indices are the scatter indices of the reference's three segment sums. -/
theorem dstIdxRaw_eq_v6 : dstIdxRaw (F := F) ei = val_main_v6 (F := F) ei := rfl
theorem dstIdxRaw_eq_v38 : dstIdxRaw (F := F) ei = val_main_v38 (F := F) ei := rfl
theorem dstIdxRaw_eq_v97 : dstIdxRaw (F := F) ei = val_main_v97 (F := F) ei := rfl
theorem deg_eq : deg (F := F) ei = val_main_v9 (F := F) ei := rfl
theorem dinv_eq : dinv (F := F) ei = val_main_v10 (F := F) ei := rfl
theorem dinv2_eq_v40 : dinv2 (F := F) ei = val_main_v40 (F := F) ei := rfl
theorem dinv2_eq_v99 : dinv2 (F := F) ei = val_main_v99 (F := F) ei := rfl
theorem norm_eq_v33 : norm (F := F) ei = val_main_v33 (F := F) ei := rfl
theorem norm_eq_v92 : norm (F := F) ei = val_main_v92 (F := F) ei := rfl

end Meets

/-! ## The columns, and the second aggregation -/

section Columns
open Cert.ReferenceIdeal.Read Idealize.ShloMosaic.ValueIdx

variable {F : FTy → Type} [FloatOps F]
variable (ei : (⟨S2x600000, .i32⟩ : BufTy).Contents (Elt F))

/-- A column made by a reshape and the column made by a broadcast along the new axis are the same
    array: both read the flat array at the row. -/
theorem normCol_eq_v34 : normCol (F := F) ei = val_main_v34 (F := F) ei := by
  funext j
  obtain ⟨e, z, rfl⟩ : ∃ (e : Fin 600000) (z : Fin 1), j = ix2 e z := ⟨j 0, j 1, eq_ix2 j⟩
  obtain rfl : z = 0 := Subsingleton.elim _ _
  rw [normCol_apply, norm_eq_v33, val_main_v34_apply]
  exact congrArg _ (funext fun a => match a with | ⟨0, _⟩ => rfl)

theorem normCol_eq_v93 : normCol (F := F) ei = val_main_v93 (F := F) ei := by
  funext j
  obtain ⟨e, z, rfl⟩ : ∃ (e : Fin 600000) (z : Fin 1), j = ix2 e z := ⟨j 0, j 1, eq_ix2 j⟩
  obtain rfl : z = 0 := Subsingleton.elim _ _
  rw [normCol_apply, norm_eq_v92, val_main_v93_apply]
  exact congrArg _ (funext fun a => match a with | ⟨0, _⟩ => rfl)

theorem dinv2Col_eq_v41 : dinv2Col (F := F) ei = val_main_v41 (F := F) ei := by
  funext j
  obtain ⟨i, z, rfl⟩ : ∃ (i : Fin 50000) (z : Fin 1), j = ix2 i z := ⟨j 0, j 1, eq_ix2 j⟩
  obtain rfl : z = 0 := Subsingleton.elim _ _
  rw [dinv2Col_apply, dinv2_eq_v40, val_main_v41_apply]
  exact congrArg _ (funext fun a => match a with | ⟨0, _⟩ => rfl)

theorem dinv2Col_eq_v100 : dinv2Col (F := F) ei = val_main_v100 (F := F) ei := by
  funext j
  obtain ⟨i, z, rfl⟩ : ∃ (i : Fin 50000) (z : Fin 1), j = ix2 i z := ⟨j 0, j 1, eq_ix2 j⟩
  obtain rfl : z = 0 := Subsingleton.elim _ _
  rw [dinv2Col_apply, dinv2_eq_v99, val_main_v100_apply]
  exact congrArg _ (funext fun a => match a with | ⟨0, _⟩ => rfl)

/-- The reference's second aggregation is the kernel program's, of the reference's own
    second-layer features. -/
theorem agg2_eq (x0 : (⟨S50000x128, .f32⟩ : BufTy).Contents (Elt F)) (x2 : (⟨S128x256, .f32⟩ : BufTy).Contents (Elt F))
    (x3 : (⟨S256, .f32⟩ : BufTy).Contents (Elt F)) (x4 : (⟨S256x128, .f32⟩ : BufTy).Contents (Elt F))
    (x8 x9 x10 x11 : (⟨S256, .f32⟩ : BufTy).Contents (Elt F)) :
    val_main_v98 (F := F) x0 ei x2 x3 x4 x8 x9 x10 x11
      = aggregate (F := F) (srcIdx (F := F) ei) (dstIdxRaw (F := F) ei) (normCol (F := F) ei)
          (val_main_v70 (F := F) x0 ei x2 x3 x4 x8 x9 x10 x11) := by
  rw [normCol_eq_v93]
  rfl

end Columns

end Cert.KernelIdeal.HostVal

end
-- ==== Proof.RefIsNet.lean ====
/-
  THE REFERENCE IS THE SPECIFICATION. The reference program, read one operation at a time at the exact instance, computes
  at every index (a, b) the number `Gcn.net … a b`: the Gram matrix of the output of the two-layer graph convolution.

  The edge structure is the one the reference itself derives from its edge list: the edges landing on node i are those
  whose destination entry, read as a signed integer, is i (an entry out of range lands nowhere); an edge's source node is
  its source entry with a negative entry wrapped once and the result clamped into range; an edge's weight is the product
  of the inverse square roots of the degrees at its two ends and a node's self-loop weight is the inverse of its degree,
  both kept as the stages of the reference that compute them.

  The proof follows the program stage by stage. Each stage lemma reads one stage at an index (i, j) from the stage before
  it, which it takes as a hypothesis: a linear map is the sum over the contracted axis; a gather reads the row of an
  edge's source; a scatter-add sums, into zero, the messages of the edges that land on a node; a column parameter spread
  over the rows is the parameter at the column; relu, batch normalisation and the sigmoid 1 / (1 + exp (−z)) are the
  specification's activation by unfolding. Layer 2 rebuilds its index columns and weights by the same operations on the
  same edge list, so they are layer 1's. The last product contracts the node axis of the transposed output against the
  output: the Gram matrix.
-/
import proofs.«171423_j6648609374284_2_alg».proof.Proof.GcnSpec
import proofs.«171423_j6648609374284_2_alg».proof.Proof.EdgeSum
import proofs.«171423_j6648609374284_2_alg».proof.Proof.Gen.ReferenceIdeal.Read
import Idealize.ShloMosaic.Lib.IdealHost

noncomputable section

open scoped BigOperators

namespace Cert.Proof.RefNet

open Idealize.ShloMosaic Idealize.ShloMosaic.ValueIdx
open Cert.ReferenceIdeal Cert.ReferenceIdeal.Gen Cert.ReferenceIdeal.Read
open Cert.Proof

variable (x0 : (⟨S50000x128, .f32⟩ : BufTy).Contents (Elt Ideal))
  (x1 : (⟨S2x600000, .i32⟩ : BufTy).Contents (Elt Ideal))
  (x2 : (⟨S128x256, .f32⟩ : BufTy).Contents (Elt Ideal))
  (x3 : (⟨S256, .f32⟩ : BufTy).Contents (Elt Ideal))
  (x4 : (⟨S256x128, .f32⟩ : BufTy).Contents (Elt Ideal))
  (x5 : (⟨S128, .f32⟩ : BufTy).Contents (Elt Ideal))
  (x8 x9 x10 x11 : (⟨S256, .f32⟩ : BufTy).Contents (Elt Ideal))
  (x12 x13 x14 x15 : (⟨S128, .f32⟩ : BufTy).Contents (Elt Ideal))

/-! ## The edge structure the reference carries -/

/-- The edges that land on node `i`: those whose destination entry is `i`. -/
abbrev Es : Fin 50000 → Finset (Fin 600000) := EdgeSum.edgesTo (val_main_v38 (F := Ideal) x1)
/-- The node an edge reads from: its source entry, negative entries wrapped, clamped into range. -/
abbrev src : Fin 600000 → Fin 50000 := EdgeSum.srcRow (by decide) (val_main_v17 (F := Ideal) x1)
/-- The weight of an edge: the inverse square roots of the degrees of its two ends, multiplied. -/
abbrev nrm (e : Fin 600000) : EReal := val_main_v33 (F := Ideal) x1 (ix1 e)
/-- The weight of a node's self loop: the inverse of its degree. -/
abbrev d2 (n : Fin 50000) : EReal := val_main_v40 (F := Ideal) x1 (ix1 n)

/-! ## Layer 1 -/

/-- The first linear map: `x W₁`. -/
theorem h1_apply (i : Fin 50000) (j : Fin 256) :
    val_main_v11 (F := Ideal) x0 x2 (ix2 i j)
      = Gcn.lin (fun n k => x0 (ix2 n k)) (fun k c => x2 (ix2 k c)) i j := by
  rw [val_main_v11_apply]
  unfold Gcn.lin
  refine Finset.sum_congr rfl fun k _ => ?_
  have el : lidx_main_v11 (ix2 i j) k = ix2 i k :=
    funext fun a => Fin.ext (by match a with | ⟨0, _⟩ => rfl | ⟨1, _⟩ => rfl)
  have er : ridx_main_v11 (ix2 i j) k = ix2 k j :=
    funext fun a => Fin.ext (by match a with | ⟨0, _⟩ => rfl | ⟨1, _⟩ => rfl)
  rw [el, er]

/-- A column parameter of layer 1, spread over the rows. -/
theorem b1_apply (i : Fin 50000) (j : Fin 256) : val_main_v46 (F := Ideal) x3 (ix2 i j) = x3 (ix1 j) := by
  rw [val_main_v46_apply, val_main_v45_apply]
  exact congrArg x3 (funext fun a => Fin.ext (by match a with | ⟨0, _⟩ => rfl))

theorem mu1_apply (i : Fin 50000) (j : Fin 256) : val_main_v50 (F := Ideal) x10 (ix2 i j) = x10 (ix1 j) := by
  rw [val_main_v50_apply, val_main_v49_apply]
  exact congrArg x10 (funext fun a => Fin.ext (by match a with | ⟨0, _⟩ => rfl))

theorem g1_apply (i : Fin 50000) (j : Fin 256) : val_main_v59 (F := Ideal) x8 (ix2 i j) = x8 (ix1 j) := by
  rw [val_main_v59_apply, val_main_v58_apply]
  exact congrArg x8 (funext fun a => Fin.ext (by match a with | ⟨0, _⟩ => rfl))

theorem be1_apply (i : Fin 50000) (j : Fin 256) : val_main_v62 (F := Ideal) x9 (ix2 i j) = x9 (ix1 j) := by
  rw [val_main_v62_apply, val_main_v61_apply]
  exact congrArg x9 (funext fun a => Fin.ext (by match a with | ⟨0, _⟩ => rfl))

/-- The batch normalisation's scale `rsqrt(var + ε)`, spread over the rows. -/
theorem rs1_apply (i : Fin 50000) (j : Fin 256) :
    val_main_v56 (F := Ideal) x11 (ix2 i j) = Ideal.rsqrt (x11 (ix1 j) + Gcn.eps) := by
  rw [val_main_v56_apply, val_main_v55_apply, val_main_v54_apply, val_main_v53_apply, val_main_v52_apply,
    val_main_cst_8_apply]
  have e : idx_main_v55 (idx_main_v56 (ix2 i j)) = ix1 j :=
    funext fun a => Fin.ext (by match a with | ⟨0, _⟩ => rfl)
  rw [e]
  rfl

/-- The zero the messages are summed into. -/
theorem zero1_apply (i : Fin 50000) (j : Fin 256) : val_main_v37 (F := Ideal) (ix2 i j) = 0 := by
  rw [val_main_v37_apply, val_main_cst_7_apply]
  exact Ideal.ofBits_zero_f32

/-- The zero of the rectifier. -/
theorem relu1_zero_apply (i : Fin 50000) (j : Fin 256) : val_main_call0_v0 (F := Ideal) (ix2 i j) = 0 := by
  rw [val_main_call0_v0_apply, val_main_call0_cst_apply]
  exact Ideal.ofBits_zero_f32

/-- The ones of the sigmoid. -/
theorem one1a_apply (i : Fin 50000) (j : Fin 256) : val_main_v66 (F := Ideal) (ix2 i j) = 1 := by
  rw [val_main_v66_apply, val_main_cst_9_apply]
  exact Ideal.ofBits_one_f32

theorem one1b_apply (i : Fin 50000) (j : Fin 256) : val_main_v68 (F := Ideal) (ix2 i j) = 1 := by
  rw [val_main_v68_apply, val_main_cst_10_apply]
  exact Ideal.ofBits_one_f32

/-- An edge's weight, spread over the columns. -/
theorem nrm1_apply (e : Fin 600000) (c : Fin 256) : val_main_v35 (F := Ideal) x1 (ix2 e c) = nrm x1 e := by
  rw [val_main_v35_apply, val_main_v34_apply]
  exact congrArg (val_main_v33 (F := Ideal) x1) (funext fun a => Fin.ext (by match a with | ⟨0, _⟩ => rfl))

/-- A node's self-loop weight, spread over the columns. -/
theorem d21_apply (i : Fin 50000) (c : Fin 256) : val_main_v42 (F := Ideal) x1 (ix2 i c) = d2 x1 i := by
  rw [val_main_v42_apply, val_main_v41_apply]
  exact congrArg (val_main_v40 (F := Ideal) x1) (funext fun a => Fin.ext (by match a with | ⟨0, _⟩ => rfl))

/-- The gather of layer 1: edge `e` reads the row of its source node. -/
theorem gath1_apply (e : Fin 600000) (c : Fin 256) :
    val_main_v18 (F := Ideal) x0 x1 x2 (ix2 e c) = val_main_v11 (F := Ideal) x0 x2 (ix2 (src x1 e) c) :=
  EdgeSum.gather_row_apply (by decide) gather_S50000x256_S600000x1_S600000x256_1_0_n_n_0_1_1256_wf
    (val_main_v11 (F := Ideal) x0 x2) (val_main_v17 (F := Ideal) x1) e c

/-- The scatter-add of layer 1: node `i` receives the messages of the edges that land on it. -/
theorem scat1_apply (i : Fin 50000) (c : Fin 256) :
    val_main_v39 (F := Ideal) x0 x1 x2 (ix2 i c)
      = val_main_v37 (F := Ideal) (ix2 i c) + ∑ e ∈ Es x1 i, val_main_v36 (F := Ideal) x0 x1 x2 (ix2 e c) :=
  EdgeSum.scatterAdd_row_apply scatter_S50000x256_S600000x1_S600000x256_1_0_0_1_wf (φ := .f32)
    (val_main_v37 (F := Ideal)) (val_main_v38 (F := Ideal) x1) (val_main_v36 (F := Ideal) x0 x1 x2) i c

/-- The convolution of layer 1 on features `h`, when the first linear map's result is `h`. -/
theorem pre1_apply (h : Fin 50000 → Fin 256 → EReal)
    (hh : ∀ n c, val_main_v11 (F := Ideal) x0 x2 (ix2 n c) = h n c) (i : Fin 50000) (j : Fin 256) :
    val_main_v47 (F := Ideal) x0 x1 x2 x3 (ix2 i j)
      = Gcn.conv (Es x1) (src x1) (nrm x1) (d2 x1) h (fun c => x3 (ix1 c)) i j := by
  have hs : ∀ e : Fin 600000, val_main_v36 (F := Ideal) x0 x1 x2 (ix2 e j) = h (src x1 e) j * nrm x1 e := by
    intro e
    rw [val_main_v36_apply, gath1_apply, nrm1_apply, hh]
    rfl
  rw [val_main_v47_apply, val_main_v44_apply, val_main_v43_apply, scat1_apply, zero1_apply, b1_apply, d21_apply, hh,
    Finset.sum_congr rfl fun e _ => hs e]
  rfl

/-- The activation of layer 1 on the pre-activation `u`. -/
theorem y1_apply (u : Fin 50000 → Fin 256 → EReal)
    (hu : ∀ n c, val_main_v47 (F := Ideal) x0 x1 x2 x3 (ix2 n c) = u n c) (i : Fin 50000) (j : Fin 256) :
    val_main_v69 (F := Ideal) x0 x1 x2 x3 x8 x9 x10 x11 (ix2 i j)
      = Gcn.act (u i j) (x10 (ix1 j)) (x11 (ix1 j)) (x8 (ix1 j)) (x9 (ix1 j)) := by
  rw [val_main_v69_apply, val_main_v67_apply, val_main_v65_apply, val_main_v64_apply, val_main_v63_apply,
    val_main_v60_apply, val_main_v57_apply, val_main_v51_apply, val_main_v48_apply, one1b_apply, one1a_apply,
    relu1_zero_apply, mu1_apply, rs1_apply, g1_apply, be1_apply, hu]
  rfl

/-! ## Layer 2 -/

/-- Layer 2 rebuilds its index columns and weights by the same operations on the same edge list. -/
theorem src2_eq : val_main_v76 (F := Ideal) x1 = val_main_v17 (F := Ideal) x1 := rfl
theorem dst2_eq : val_main_v97 (F := Ideal) x1 = val_main_v38 (F := Ideal) x1 := rfl
theorem nrm2_eq : val_main_v92 (F := Ideal) x1 = val_main_v33 (F := Ideal) x1 := rfl
theorem d22_eq : val_main_v99 (F := Ideal) x1 = val_main_v40 (F := Ideal) x1 := rfl

/-- The second linear map: `y₁ W₂`, when layer 1's output is `y`. -/
theorem h2_apply (y : Fin 50000 → Fin 256 → EReal)
    (hy : ∀ n c, val_main_v69 (F := Ideal) x0 x1 x2 x3 x8 x9 x10 x11 (ix2 n c) = y n c) (i : Fin 50000) (j : Fin 128) :
    val_main_v70 (F := Ideal) x0 x1 x2 x3 x4 x8 x9 x10 x11 (ix2 i j)
      = Gcn.lin y (fun k c => x4 (ix2 k c)) i j := by
  rw [val_main_v70_apply]
  unfold Gcn.lin
  refine Finset.sum_congr rfl fun k _ => ?_
  have el : lidx_main_v70 (ix2 i j) k = ix2 i k :=
    funext fun a => Fin.ext (by match a with | ⟨0, _⟩ => rfl | ⟨1, _⟩ => rfl)
  have er : ridx_main_v70 (ix2 i j) k = ix2 k j :=
    funext fun a => Fin.ext (by match a with | ⟨0, _⟩ => rfl | ⟨1, _⟩ => rfl)
  rw [el, er, hy]

/-- A column parameter of layer 2, spread over the rows. -/
theorem b2_apply (i : Fin 50000) (j : Fin 128) : val_main_v105 (F := Ideal) x5 (ix2 i j) = x5 (ix1 j) := by
  rw [val_main_v105_apply, val_main_v104_apply]
  exact congrArg x5 (funext fun a => Fin.ext (by match a with | ⟨0, _⟩ => rfl))

theorem mu2_apply (i : Fin 50000) (j : Fin 128) : val_main_v109 (F := Ideal) x14 (ix2 i j) = x14 (ix1 j) := by
  rw [val_main_v109_apply, val_main_v108_apply]
  exact congrArg x14 (funext fun a => Fin.ext (by match a with | ⟨0, _⟩ => rfl))

theorem g2_apply (i : Fin 50000) (j : Fin 128) : val_main_v118 (F := Ideal) x12 (ix2 i j) = x12 (ix1 j) := by
  rw [val_main_v118_apply, val_main_v117_apply]
  exact congrArg x12 (funext fun a => Fin.ext (by match a with | ⟨0, _⟩ => rfl))

theorem be2_apply (i : Fin 50000) (j : Fin 128) : val_main_v121 (F := Ideal) x13 (ix2 i j) = x13 (ix1 j) := by
  rw [val_main_v121_apply, val_main_v120_apply]
  exact congrArg x13 (funext fun a => Fin.ext (by match a with | ⟨0, _⟩ => rfl))

theorem rs2_apply (i : Fin 50000) (j : Fin 128) :
    val_main_v115 (F := Ideal) x15 (ix2 i j) = Ideal.rsqrt (x15 (ix1 j) + Gcn.eps) := by
  rw [val_main_v115_apply, val_main_v114_apply, val_main_v113_apply, val_main_v112_apply, val_main_v111_apply,
    val_main_cst_18_apply]
  have e : idx_main_v114 (idx_main_v115 (ix2 i j)) = ix1 j :=
    funext fun a => Fin.ext (by match a with | ⟨0, _⟩ => rfl)
  rw [e]
  rfl

theorem zero2_apply (i : Fin 50000) (j : Fin 128) : val_main_v96 (F := Ideal) (ix2 i j) = 0 := by
  rw [val_main_v96_apply, val_main_cst_17_apply]
  exact Ideal.ofBits_zero_f32

theorem relu2_zero_apply (i : Fin 50000) (j : Fin 128) : val_main_call1_v0 (F := Ideal) (ix2 i j) = 0 := by
  rw [val_main_call1_v0_apply, val_main_call1_cst_apply]
  exact Ideal.ofBits_zero_f32

theorem one2a_apply (i : Fin 50000) (j : Fin 128) : val_main_v125 (F := Ideal) (ix2 i j) = 1 := by
  rw [val_main_v125_apply, val_main_cst_19_apply]
  exact Ideal.ofBits_one_f32

theorem one2b_apply (i : Fin 50000) (j : Fin 128) : val_main_v127 (F := Ideal) (ix2 i j) = 1 := by
  rw [val_main_v127_apply, val_main_cst_20_apply]
  exact Ideal.ofBits_one_f32

theorem nrm2_apply (e : Fin 600000) (c : Fin 128) : val_main_v94 (F := Ideal) x1 (ix2 e c) = nrm x1 e := by
  rw [val_main_v94_apply, val_main_v93_apply, nrm2_eq]
  exact congrArg (val_main_v33 (F := Ideal) x1) (funext fun a => Fin.ext (by match a with | ⟨0, _⟩ => rfl))

theorem d22_apply (i : Fin 50000) (c : Fin 128) : val_main_v101 (F := Ideal) x1 (ix2 i c) = d2 x1 i := by
  rw [val_main_v101_apply, val_main_v100_apply, d22_eq]
  exact congrArg (val_main_v40 (F := Ideal) x1) (funext fun a => Fin.ext (by match a with | ⟨0, _⟩ => rfl))

/-- The gather of layer 2. -/
theorem gath2_apply (e : Fin 600000) (c : Fin 128) :
    val_main_v77 (F := Ideal) x0 x1 x2 x3 x4 x8 x9 x10 x11 (ix2 e c)
      = val_main_v70 (F := Ideal) x0 x1 x2 x3 x4 x8 x9 x10 x11 (ix2 (src x1 e) c) := by
  have h := EdgeSum.gather_row_apply (by decide) gather_S50000x128_S600000x1_S600000x128_1_0_n_n_0_1_1128_wf
    (val_main_v70 (F := Ideal) x0 x1 x2 x3 x4 x8 x9 x10 x11) (val_main_v76 (F := Ideal) x1) e c
  rw [src2_eq] at h
  exact h

/-- The scatter-add of layer 2. -/
theorem scat2_apply (i : Fin 50000) (c : Fin 128) :
    val_main_v98 (F := Ideal) x0 x1 x2 x3 x4 x8 x9 x10 x11 (ix2 i c)
      = val_main_v96 (F := Ideal) (ix2 i c)
        + ∑ e ∈ Es x1 i, val_main_v95 (F := Ideal) x0 x1 x2 x3 x4 x8 x9 x10 x11 (ix2 e c) := by
  have h := EdgeSum.scatterAdd_row_apply scatter_S50000x128_S600000x1_S600000x128_1_0_0_1_wf (φ := .f32)
    (val_main_v96 (F := Ideal)) (val_main_v97 (F := Ideal) x1)
    (val_main_v95 (F := Ideal) x0 x1 x2 x3 x4 x8 x9 x10 x11) i c
  rw [dst2_eq] at h
  exact h

/-- The convolution of layer 2 on features `h`, when the second linear map's result is `h`. -/
theorem pre2_apply (h : Fin 50000 → Fin 128 → EReal)
    (hh : ∀ n c, val_main_v70 (F := Ideal) x0 x1 x2 x3 x4 x8 x9 x10 x11 (ix2 n c) = h n c)
    (i : Fin 50000) (j : Fin 128) :
    val_main_v106 (F := Ideal) x0 x1 x2 x3 x4 x5 x8 x9 x10 x11 (ix2 i j)
      = Gcn.conv (Es x1) (src x1) (nrm x1) (d2 x1) h (fun c => x5 (ix1 c)) i j := by
  have hs : ∀ e : Fin 600000,
      val_main_v95 (F := Ideal) x0 x1 x2 x3 x4 x8 x9 x10 x11 (ix2 e j) = h (src x1 e) j * nrm x1 e := by
    intro e
    rw [val_main_v95_apply, gath2_apply, nrm2_apply, hh]
    rfl
  rw [val_main_v106_apply, val_main_v103_apply, val_main_v102_apply, scat2_apply, zero2_apply, b2_apply, d22_apply, hh,
    Finset.sum_congr rfl fun e _ => hs e]
  rfl

/-- The activation of layer 2 on the pre-activation `u`. -/
theorem y2_apply (u : Fin 50000 → Fin 128 → EReal)
    (hu : ∀ n c, val_main_v106 (F := Ideal) x0 x1 x2 x3 x4 x5 x8 x9 x10 x11 (ix2 n c) = u n c)
    (i : Fin 50000) (j : Fin 128) :
    val_main_v128 (F := Ideal) x0 x1 x2 x3 x4 x5 x8 x9 x10 x11 x12 x13 x14 x15 (ix2 i j)
      = Gcn.act (u i j) (x14 (ix1 j)) (x15 (ix1 j)) (x12 (ix1 j)) (x13 (ix1 j)) := by
  rw [val_main_v128_apply, val_main_v126_apply, val_main_v124_apply, val_main_v123_apply, val_main_v122_apply,
    val_main_v119_apply, val_main_v116_apply, val_main_v110_apply, val_main_v107_apply, one2b_apply, one2a_apply,
    relu2_zero_apply, mu2_apply, rs2_apply, g2_apply, be2_apply, hu]
  rfl

/-! ## The Gram matrix and the whole network -/

/-- The result is `yᵀ y`, when layer 2's output is `y`. -/
theorem gram_apply (y : Fin 50000 → Fin 128 → EReal)
    (hy : ∀ n c, val_main_v128 (F := Ideal) x0 x1 x2 x3 x4 x5 x8 x9 x10 x11 x12 x13 x14 x15 (ix2 n c) = y n c)
    (a b : Fin 128) :
    val_main_v130 (F := Ideal) x0 x1 x2 x3 x4 x5 x8 x9 x10 x11 x12 x13 x14 x15 (ix2 a b) = Gcn.gram y a b := by
  rw [val_main_v130_apply]
  unfold Gcn.gram
  refine Finset.sum_congr rfl fun k _ => ?_
  rw [val_main_v129_apply]
  have el : idx_main_v129 (lidx_main_v130 (ix2 a b) k) = ix2 k a :=
    funext fun d => Fin.ext (by match d with | ⟨0, _⟩ => rfl | ⟨1, _⟩ => rfl)
  have er : ridx_main_v130 (ix2 a b) k = ix2 k b :=
    funext fun d => Fin.ext (by match d with | ⟨0, _⟩ => rfl | ⟨1, _⟩ => rfl)
  rw [el, er, hy, hy]

/-- THE REFERENCE IS THE SPECIFICATION: at every index the reference program's result is the two-layer graph
    convolution's Gram matrix, on the edge structure the reference itself derives from its edge list. -/
theorem ref_is_net (a b : Fin 128) :
    Cert.ReferenceIdeal.Read.val_main_v130 (F := Ideal) x0 x1 x2 x3 x4 x5 x8 x9 x10 x11 x12 x13 x14 x15 (ix2 a b)
      = Cert.Proof.Gcn.net
          (Cert.Proof.EdgeSum.edgesTo (Cert.ReferenceIdeal.Read.val_main_v38 (F := Ideal) x1))
          (Cert.Proof.EdgeSum.srcRow (by decide) (Cert.ReferenceIdeal.Read.val_main_v17 (F := Ideal) x1))
          (fun e => Cert.ReferenceIdeal.Read.val_main_v33 (F := Ideal) x1 (ix1 e))
          (fun n => Cert.ReferenceIdeal.Read.val_main_v40 (F := Ideal) x1 (ix1 n))
          (fun n k => x0 (ix2 n k)) (fun k j => x2 (ix2 k j)) (fun j => x3 (ix1 j)) (fun j => x8 (ix1 j))
          (fun j => x9 (ix1 j)) (fun j => x10 (ix1 j)) (fun j => x11 (ix1 j))
          (fun k j => x4 (ix2 k j)) (fun j => x5 (ix1 j)) (fun j => x12 (ix1 j)) (fun j => x13 (ix1 j))
          (fun j => x14 (ix1 j)) (fun j => x15 (ix1 j)) a b :=
  gram_apply x0 x1 x2 x3 x4 x5 x8 x9 x10 x11 x12 x13 x14 x15 _
    (y2_apply x0 x1 x2 x3 x4 x5 x8 x9 x10 x11 x12 x13 x14 x15 _
      (pre2_apply x0 x1 x2 x3 x4 x5 x8 x9 x10 x11 _
        (h2_apply x0 x1 x2 x3 x4 x8 x9 x10 x11 _
          (y1_apply x0 x1 x2 x3 x8 x9 x10 x11 _
            (pre1_apply x0 x1 x2 x3 _ (h1_apply x0 x2)))))) a b

end Cert.Proof.RefNet

end
-- ==== Proof.Finite.lean ====
/-
  Every entry of the node features and of the first weight matrix is a real number: what the
  precondition "every float input is finite" says of them at the ideal instance, where a float is
  an extended real and finite means neither infinity.
-/
import proofs.«171423_j6648609374284_2_alg».proof.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.ValueIdx Cert.Pre_finite_inputs

instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt_top (a : EReal) (h : Ideal.cmp .olt (max a (-a)) ⊤ = 1#1) :
    ∃ r : ℝ, a = (r : EReal) := by
  induction a using EReal.rec with
  | bot => simp [Ideal.cmp] at h
  | coe r => exact ⟨r, rfl⟩
  | top => simp [Ideal.cmp] at h

/-- A conjunction of two one-bit scalars that is 1 has both 1. -/
theorem and_ix0 (X Y : IVec S_ 1) (e : andi X Y ix0 = 1#1) : X ix0 = 1#1 ∧ Y ix0 = 1#1 :=
  IntOp.andi_eq_one.1 e

variable [Facts]

/-- If the finiteness test of the sixteen inputs answers 1, every entry of the node features a0 and
    of the first weight matrix a2 is a real number. The test of each float input is "its absolute
    value is below +∞ everywhere"; the answers are joined by conjunction. -/
theorem finite_x_W
    (a0 : FVec Ideal S50000x128 .f32) (a1 : IVec S2x600000 32) (a2 : FVec Ideal S128x256 .f32)
    (a3 : FVec Ideal S256 .f32) (a4 : FVec Ideal S256x128 .f32) (a5 : FVec Ideal S128 .f32)
    (a6 : FVec Ideal S128x128 .f32) (a7 : FVec Ideal S128 .f32) (a8 : FVec Ideal S256 .f32)
    (a9 : FVec Ideal S256 .f32) (a10 : FVec Ideal S256 .f32) (a11 : FVec Ideal S256 .f32)
    (a12 : FVec Ideal S128 .f32) (a13 : FVec Ideal S128 .f32) (a14 : FVec Ideal S128 .f32)
    (a15 : FVec Ideal S128 .f32)
    (h : fn (F := Ideal) a0 a1 a2 a3 a4 a5 a6 a7 a8 a9 a10 a11 a12 a13 a14 a15 = fun _ => 1#1) :
    (∀ i, ∃ r : ℝ, a0 i = (r : EReal)) ∧ (∀ i, ∃ r : ℝ, a2 i = (r : EReal)) := by
  have h0 := congrFun h ix0
  dsimp only [fn, fn_part1, fn_part2, fn_part3, fn_part4] at h0
  -- the fifteen tests are joined by fourteen conjunctions, the tests of a0 and a2 innermost
  have h1 := (and_ix0 _ _ (and_ix0 _ _ (and_ix0 _ _ (and_ix0 _ _ (and_ix0 _ _ (and_ix0 _ _
    (and_ix0 _ _ (and_ix0 _ _ (and_ix0 _ _ (and_ix0 _ _ (and_ix0 _ _ (and_ix0 _ _
    (and_ix0 _ _ h0).1).1).1).1).1).1).1).1).1).1).1).1).1
  obtain ⟨hx, hW⟩ := and_ix0 _ _ h1
  refine ⟨fun i => ?_, fun i => ?_⟩
  · have e := Host.reduce_andi_all _ _ _ _ ix0 hx i
    have e' : Ideal.cmp .olt (max (a0 i) (-(a0 i))) (Ideal.ofBits .f32 0x7F800000#32) = 1#1 := e
    rw [ofBits_inf] at e'
    exact real_of_abs_lt_top _ e'
  · have e := Host.reduce_andi_all _ _ _ _ ix0 hW i
    have e' : Ideal.cmp .olt (max (a2 i) (-(a2 i))) (Ideal.ofBits .f32 0x7F800000#32) = 1#1 := e
    rw [ofBits_inf] at e'
    exact real_of_abs_lt_top _ e'

end Cert.Proof.Finite

end
-- ==== Proof.Algebraic.lean ====
/-
  THE VALUE CLAIM: the idealized kernel program and the idealized reference, run from memories that agree on the
  sixteen arguments and hold finite floats, end with the same 128 × 128 result, entry by entry, as extended reals.
  Both results are the specification's network (GcnSpec): the Gram matrix of the second layer's output, the edge
  structure being the one both programs read off the edge list by the same operations — for node i the edges whose
  destination word is i, for edge e its source word wrapped and clamped to a node, the weight rsqrt(deg src)·rsqrt(deg dst),
  the self-loop weight 1/deg.
    * The reference computes that network stage by stage as written.
    * The kernel program aggregates the features before the first linear map (equal to the specification's order because
      every operand is a real number: the features and W₁ by the precondition, the weights because a degree is a count
      plus one), multiplies block by block of 2000 rows, accumulates the Gram matrix over 25 blocks of 1000 rows on each
      of two cores and adds the two halves — re-arrangements of the same finite sums.
-/
import proofs.«171423_j6648609374284_2_alg».proof.Defs
import proofs.«171423_j6648609374284_2_alg».proof.Proof.Boundary
import proofs.«171423_j6648609374284_2_alg».proof.Proof.Frames
import proofs.«171423_j6648609374284_2_alg».proof.Proof.FinalValue
import proofs.«171423_j6648609374284_2_alg».proof.Proof.Layer1Meets
import proofs.«171423_j6648609374284_2_alg».proof.Proof.HostMeets
import proofs.«171423_j6648609374284_2_alg».proof.Proof.RefIsNet
import proofs.«171423_j6648609374284_2_alg».proof.Proof.Finite
import proofs.«171423_j6648609374284_2_alg».proof.Proof.RefFrame

set_option maxRecDepth 16384

noncomputable section

namespace Cert.Proof.Alg

open Cert.KernelIdeal Cert.KernelIdeal.Gen Cert.KernelIdeal.Hand Cert.KernelIdeal.HostVal
open Idealize.ShloMosaic Idealize.ShloMosaic.TcCoe Idealize.ShloMosaic.ValueIdx Idealize.SL.Sem
open Cert.Proof Cert.Proof.EdgeSum

/-- The specification's network on this program's argument arrays, the edge structure read off the edge list. -/
def netOf (ei : (⟨S2x600000, .i32⟩ : BufTy).Contents (Elt Ideal)) (x : (⟨S50000x128, .f32⟩ : BufTy).Contents (Elt Ideal))
    (W1 : (⟨S128x256, .f32⟩ : BufTy).Contents (Elt Ideal)) (b1 g1 be1 m1 v1 : (⟨S256, .f32⟩ : BufTy).Contents (Elt Ideal))
    (W2 : (⟨S256x128, .f32⟩ : BufTy).Contents (Elt Ideal)) (b2 g2 be2 m2 v2 : (⟨S128, .f32⟩ : BufTy).Contents (Elt Ideal))
    (a b : Fin 128) : EReal :=
  Gcn.net (edgesTo (dstIdxRaw (F := Ideal) ei)) (srcRow (by decide) (srcIdx (F := Ideal) ei))
    (fun e => norm (F := Ideal) ei (ix1 e)) (fun n => dinv2 (F := Ideal) ei (ix1 n))
    (fun n k => x (ix2 n k)) (fun k j => W1 (ix2 k j)) (fun j => b1 (ix1 j)) (fun j => g1 (ix1 j)) (fun j => be1 (ix1 j))
    (fun j => m1 (ix1 j)) (fun j => v1 (ix1 j))
    (fun k j => W2 (ix2 k j)) (fun j => b2 (ix1 j)) (fun j => g2 (ix1 j)) (fun j => be2 (ix1 j)) (fun j => m2 (ix1 j)) (fun j => v2 (ix1 j)) a b

/-- The reference's last stage is that network: its own index, weight and degree stages are the kernel program's named
    chains, operation for operation. -/
theorem ref_net (x0 : (⟨S50000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x8 x9 x10 x11 : (⟨S256, .f32⟩ : BufTy).Contents (Elt Ideal)) (x12 x13 x14 x15 : (⟨S128, .f32⟩ : BufTy).Contents (Elt Ideal))
    (a b : Fin 128) :
    Cert.ReferenceIdeal.Read.val_main_v130 (F := Ideal) x0 x1 x2 x3 x4 x5 x8 x9 x10 x11 x12 x13 x14 x15 (ix2 a b)
      = netOf x1 x0 x2 x3 x8 x9 x10 x11 x4 x5 x12 x13 x14 x15 a b := by
  rw [Cert.Proof.RefNet.ref_is_net]
  unfold netOf
  rw [dstIdxRaw_eq_v38, srcIdx_eq_v17, norm_eq_v33, dinv2_eq_v40]

variable (m : (ℓ : Loc nD τ sig) → Buf (Elt Ideal) ℓ) (c : Dev nD)

/-- The kernel program's result is that network, when the features and W₁ are finite. -/
theorem kernel_net (hx : ∀ i, ∃ r : ℝ, feats m c i = (r : EReal))
    (hW : ∀ i, ∃ r : ℝ, (m ((c : Thread nD τ).loc main_arg2) : (⟨S128x256, .f32⟩ : BufTy).Contents (Elt Ideal)) i = (r : EReal))
    (a b : Fin 128) :
    (B5 m c (Proc.devRef .tc main_v69) : (⟨S128x128, .f32⟩ : BufTy).Contents (Elt Ideal)) (ix2 a b)
      = netOf (edges m c) (feats m c) (m ((c : Thread nD τ).loc main_arg2)) (m ((c : Thread nD τ).loc main_arg3))
          (m ((c : Thread nD τ).loc main_arg8)) (m ((c : Thread nD τ).loc main_arg9)) (m ((c : Thread nD τ).loc main_arg10))
          (m ((c : Thread nD τ).loc main_arg11)) (m ((c : Thread nD τ).loc main_arg4)) (m ((c : Thread nD τ).loc main_arg5))
          (m ((c : Thread nD τ).loc main_arg12)) (m ((c : Thread nD τ).loc main_arg13)) (m ((c : Thread nD τ).loc main_arg14))
          (m ((c : Thread nD τ).loc main_arg15)) a b := by
  -- the first region's result array is the specification's transformed first-layer output
  have hh : ∀ (n : Fin 50000) (j : Fin 128), hidden2 m c (ix2 n j) = _ := fun n j =>
    h2_kernel (feats m c) (edges m c) (m ((c : Thread nD τ).loc main_arg2)) (m ((c : Thread nD τ).loc main_arg3))
      (m ((c : Thread nD τ).loc main_arg8)) (m ((c : Thread nD τ).loc main_arg9)) (m ((c : Thread nD τ).loc main_arg10))
      (m ((c : Thread nD τ).loc main_arg11)) (m ((c : Thread nD τ).loc main_arg4)) hx hW n j
  rw [result_apply m c (Cert.KernelIdeal.FinalVal.gramArr (E3 m) c) (Cert.KernelIdeal.FinalVal.arr8_eq (E3 m) c) a b,
    Cert.KernelIdeal.FinalVal.gram_halves (E3 m) c a b]
  unfold netOf Gcn.net Gcn.gram
  show @Eq EReal _ _
  refine Finset.sum_congr rfl fun n _ => ?_
  have hy : ∀ j : Fin 128, Cert.KernelIdeal.FinalVal.yRowV (E3 m) c n j = Gcn.layer _ _ _ _ _ _ _ _ _ _ n j := fun j => by
    show Cert.KernelIdeal.FinalVal.yRow (E3 m c main_v58) (E3 m c main_v46) (E3 m c main_v12) (E3 m c main_v59) (E3 m c main_v60)
      (E3 m c main_v61) (E3 m c main_v62) (E3 m c main_v63) n j = _
    rw [entry1_agg, entry1_hidden, entry1_deg, entry1_b, entry1_g, entry1_be, entry1_mu, entry1_var]
    exact Cert.KernelIdeal.FinalVal.yRow_eq_layer _ _ _ _ _ _ _ _ _ _ _ _ _ _ _ _ _ _
      (fun n j => by
        rw [aggregate_apply (edges m c) (hidden2 m c) n j]
        exact congrArg (fun f => Gcn.spread _ _ _ f n j) (funext fun n => funext fun j => hh n j))
      hh (fun n => dinv2Col_apply (edges m c) n)
      (fun j => row128_apply _ j) (fun j => row128_apply _ j) (fun j => row128_apply _ j) (fun j => row128_apply _ j)
      (fun j => row128_apply _ j) n j
  rw [hy a, hy b]

end Cert.Proof.Alg

namespace Cert.Proof.Alg

open Idealize.ShloMosaic Idealize.ShloMosaic.TcCoe Idealize.ShloMosaic.ValueIdx Idealize.SL.Sem

/-- The two runs end at one value. -/
theorem algebraic : Cert.algebraic_KernelIdeal_ReferenceIdeal := by
  intro m ρ m' ρ' hpre hagree
  refine ⟨fun c => Cert.KernelIdeal.Hand.B5 m c (Proc.devRef .tc Cert.KernelIdeal.main_v69), ?_, ?_⟩
  · exact Cert.KernelIdeal.Hand.run_all (F := Ideal) m ρ (fun s h c =>
      ⟨h c _ (Cert.KernelIdeal.Hand.mem_unscoped Cert.KernelIdeal.main_v69 (by decide)), Cert.KernelIdeal.Hand.args_kept m s h c⟩)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    obtain ⟨hx, hW⟩ := Cert.Proof.Finite.finite_x_W _ _ _ _ _ _ _ _ _ _ _ _ _ _ _ _ (hpre c)
    rw [Cert.ReferenceIdeal.Read.val_main_v130_eq, e0, e1, e2, e3, e4, e5, e8, e9, e10, e11, e12, e13, e14, e15]
    funext idx
    obtain ⟨a, b, rfl⟩ : ∃ (a b : Fin 128), idx = ix2 a b := ⟨idx 0, idx 1, eq_ix2 idx⟩
    rw [ref_net]
    exact (kernel_net m c hx hW a b).symm

end Cert.Proof.Alg

end
-- ==== Proof.lean ====
/-
  A two-layer graph convolution with batch normalisation and a sigmoid after each layer, followed by the Gram matrix of
  the second layer's output, on 50000 nodes and 600000 edges. The kernel program runs the dense parts in two pipelined
  kernel regions — the first fused with the first layer's linear map applied AFTER the edge aggregation, the second
  accumulating the Gram matrix in a scratch over 25 grid points on each of two cores — around host gathers and segment
  sums; the reference is plain host operations.
  Claimed and proved here: each of the three programs terminates under every weakly fair schedule, faults nowhere and
  leaves its sixteen argument arrays as launched; the idealized kernel program is the word-level one's idealization (no
  rewrite was applied, so nothing is owed); and the idealized kernel program and the idealized reference, from memories
  agreeing on finite arguments, end with the same result over the extended reals.
-/
import proofs.«171423_j6648609374284_2_alg».proof.Defs
import proofs.«171423_j6648609374284_2_alg».proof.Proof.Gen.Kernel
import proofs.«171423_j6648609374284_2_alg».proof.Proof.Gen.KernelIdeal
import proofs.«171423_j6648609374284_2_alg».proof.Proof.Gen.ReferenceIdeal
import proofs.«171423_j6648609374284_2_alg».proof.Proof.Gen.Pre_finite_inputs
import proofs.«171423_j6648609374284_2_alg».proof.Proof.KFrames
import proofs.«171423_j6648609374284_2_alg».proof.Proof.Frames
import proofs.«171423_j6648609374284_2_alg».proof.Proof.RefFrame
import proofs.«171423_j6648609374284_2_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.KernelFrame.frame_p, Cert.Proof.KernelIdealFrame.frame_pi, Cert.Proof.RefClaims.frame_ri, trivial, Cert.Proof.Alg.algebraic⟩

end Cert.Proof

end
